-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x2 : Shape := ⟨2, ![16384, 2]⟩
abbrev S8x2048x2048 : Shape := ⟨3, ![8, 2048, 2048]⟩
abbrev S8x2048x1024 : Shape := ⟨3, ![8, 2048, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S16384x2048 .f32) (main_arg1 : IVec S16384x2 32) (main_arg2 : FVec F S16384x2 .f32) (main_arg3 : FVec F S8x2048x2048 .f32) (main_arg4 : FVec F S8x2048x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2 .f32 := Host.absf main_arg2
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S8x2048x2048 .f32 := Host.absf main_arg3
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x1024 .f32 := Host.absf main_arg4
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S16384x2048 : Shape := ⟨2, ![16384, 2048]⟩
abbrev S16384x2 : Shape := ⟨2, ![16384, 2]⟩
abbrev S8x2048x2048 : Shape := ⟨3, ![8, 2048, 2048]⟩
abbrev S8x2048x1024 : Shape := ⟨3, ![8, 2048, 1024]⟩
abbrev S_ : Shape := ⟨0, ![]⟩
abbrev S16384 : Shape := ⟨1, ![16384]⟩
abbrev S1x16384 : Shape := ⟨2, ![1, 16384]⟩
abbrev S8x16384 : Shape := ⟨2, ![8, 16384]⟩
abbrev S8x16384x1 : Shape := ⟨3, ![8, 16384, 1]⟩
abbrev S256x2048 : Shape := ⟨2, ![256, 2048]⟩
abbrev S1x2048x2048 : Shape := ⟨3, ![1, 2048, 2048]⟩
abbrev S1x2048x1024 : Shape := ⟨3, ![1, 2048, 1024]⟩
abbrev S1x256x1 : Shape := ⟨3, ![1, 256, 1]⟩
abbrev S2048x2048 : Shape := ⟨2, ![2048, 2048]⟩
abbrev S256x1024 : Shape := ⟨2, ![256, 1024]⟩
abbrev S2048x1024 : Shape := ⟨2, ![2048, 1024]⟩
abbrev S256x1 : Shape := ⟨2, ![256, 1]⟩

abbrev nBuf : Space → Nat
  | .hbm => 91
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2, .i32⟩
  | .hbm, ⟨2, _⟩ => ⟨S16384x2, .f32⟩
  | .hbm, ⟨3, _⟩ => ⟨S8x2048x2048, .f32⟩
  | .hbm, ⟨4, _⟩ => ⟨S8x2048x1024, .f32⟩
  | .hbm, ⟨5, _⟩ => ⟨S_, .i32⟩
  | .hbm, ⟨6, _⟩ => ⟨S16384x2, .i32⟩
  | .hbm, ⟨7, _⟩ => ⟨S16384x2, .i1⟩
  | .hbm, ⟨8, _⟩ => ⟨S_, .f32⟩
  | .hbm, ⟨9, _⟩ => ⟨S_, .f32⟩
  | .hbm, ⟨10, _⟩ => ⟨S16384x2, .f32⟩
  | .hbm, ⟨11, _⟩ => ⟨S16384x2, .f32⟩
  | .hbm, ⟨12, _⟩ => ⟨S_, .f32⟩
  | .hbm, ⟨13, _⟩ => ⟨S16384, .f32⟩
  | .hbm, ⟨14, _⟩ => ⟨S_, .i32⟩
  | .hbm, ⟨15, _⟩ => ⟨S16384x2, .i32⟩
  | .hbm, ⟨16, _⟩ => ⟨S16384x2, .i1⟩
  | .hbm, ⟨17, _⟩ => ⟨S_, .f32⟩
  | .hbm, ⟨18, _⟩ => ⟨S_, .f32⟩
  | .hbm, ⟨19, _⟩ => ⟨S16384x2, .f32⟩
  | .hbm, ⟨20, _⟩ => ⟨S16384x2, .f32⟩
  | .hbm, ⟨21, _⟩ => ⟨S_, .f32⟩
  | .hbm, ⟨22, _⟩ => ⟨S16384, .f32⟩
  | .hbm, ⟨23, _⟩ => ⟨S_, .i32⟩
  | .hbm, ⟨24, _⟩ => ⟨S16384x2, .i32⟩
  | .hbm, ⟨25, _⟩ => ⟨S16384x2, .i1⟩
  | .hbm, ⟨26, _⟩ => ⟨S_, .f32⟩
  | .hbm, ⟨27, _⟩ => ⟨S_, .f32⟩
  | .hbm, ⟨28, _⟩ => ⟨S16384x2, .f32⟩
  | .hbm, ⟨29, _⟩ => ⟨S16384x2, .f32⟩
  | .hbm, ⟨30, _⟩ => ⟨S_, .f32⟩
  | .hbm, ⟨31, _⟩ => ⟨S16384, .f32⟩
  | .hbm, ⟨32, _⟩ => ⟨S_, .i32⟩
  | .hbm, ⟨33, _⟩ => ⟨S16384x2, .i32⟩
  | .hbm, ⟨34, _⟩ => ⟨S16384x2, .i1⟩
  | .hbm, ⟨35, _⟩ => ⟨S_, .f32⟩
  | .hbm, ⟨36, _⟩ => ⟨S_, .f32⟩
  | .hbm, ⟨37, _⟩ => ⟨S16384x2, .f32⟩
  | .hbm, ⟨38, _⟩ => ⟨S16384x2, .f32⟩
  | .hbm, ⟨39, _⟩ => ⟨S_, .f32⟩
  | .hbm, ⟨40, _⟩ => ⟨S16384, .f32⟩
  | .hbm, ⟨41, _⟩ => ⟨S_, .i32⟩
  | .hbm, ⟨42, _⟩ => ⟨S16384x2, .i32⟩
  | .hbm, ⟨43, _⟩ => ⟨S16384x2, .i1⟩
  | .hbm, ⟨44, _⟩ => ⟨S_, .f32⟩
  | .hbm, ⟨45, _⟩ => ⟨S_, .f32⟩
  | .hbm, ⟨46, _⟩ => ⟨S16384x2, .f32⟩
  | .hbm, ⟨47, _⟩ => ⟨S16384x2, .f32⟩
  | .hbm, ⟨48, _⟩ => ⟨S_, .f32⟩
  | .hbm, ⟨49, _⟩ => ⟨S16384, .f32⟩
  | .hbm, ⟨50, _⟩ => ⟨S_, .i32⟩
  | .hbm, ⟨51, _⟩ => ⟨S16384x2, .i32⟩
  | .hbm, ⟨52, _⟩ => ⟨S16384x2, .i1⟩
  | .hbm, ⟨53, _⟩ => ⟨S_, .f32⟩
  | .hbm, ⟨54, _⟩ => ⟨S_, .f32⟩
  | .hbm, ⟨55, _⟩ => ⟨S16384x2, .f32⟩
  | .hbm, ⟨56, _⟩ => ⟨S16384x2, .f32⟩
  | .hbm, ⟨57, _⟩ => ⟨S_, .f32⟩
  | .hbm, ⟨58, _⟩ => ⟨S16384, .f32⟩
  | .hbm, ⟨59, _⟩ => ⟨S_, .i32⟩
  | .hbm, ⟨60, _⟩ => ⟨S16384x2, .i32⟩
  | .hbm, ⟨61, _⟩ => ⟨S16384x2, .i1⟩
  | .hbm, ⟨62, _⟩ => ⟨S_, .f32⟩
  | .hbm, ⟨63, _⟩ => ⟨S_, .f32⟩
  | .hbm, ⟨64, _⟩ => ⟨S16384x2, .f32⟩
  | .hbm, ⟨65, _⟩ => ⟨S16384x2, .f32⟩
  | .hbm, ⟨66, _⟩ => ⟨S_, .f32⟩
  | .hbm, ⟨67, _⟩ => ⟨S16384, .f32⟩
  | .hbm, ⟨68, _⟩ => ⟨S_, .i32⟩
  | .hbm, ⟨69, _⟩ => ⟨S16384x2, .i32⟩
  | .hbm, ⟨70, _⟩ => ⟨S16384x2, .i1⟩
  | .hbm, ⟨71, _⟩ => ⟨S_, .f32⟩
  | .hbm, ⟨72, _⟩ => ⟨S_, .f32⟩
  | .hbm, ⟨73, _⟩ => ⟨S16384x2, .f32⟩
  | .hbm, ⟨74, _⟩ => ⟨S16384x2, .f32⟩
  | .hbm, ⟨75, _⟩ => ⟨S_, .f32⟩
  | .hbm, ⟨76, _⟩ => ⟨S16384, .f32⟩
  | .hbm, ⟨77, _⟩ => ⟨S1x16384, .f32⟩
  | .hbm, ⟨78, _⟩ => ⟨S1x16384, .f32⟩
  | .hbm, ⟨79, _⟩ => ⟨S1x16384, .f32⟩
  | .hbm, ⟨80, _⟩ => ⟨S1x16384, .f32⟩
  | .hbm, ⟨81, _⟩ => ⟨S1x16384, .f32⟩
  | .hbm, ⟨82, _⟩ => ⟨S1x16384, .f32⟩
  | .hbm, ⟨83, _⟩ => ⟨S1x16384, .f32⟩
  | .hbm, ⟨84, _⟩ => ⟨S1x16384, .f32⟩
  | .hbm, ⟨85, _⟩ => ⟨S8x16384, .f32⟩
  | .hbm, ⟨86, _⟩ => ⟨S8x16384x1, .f32⟩
  | .hbm, ⟨87, _⟩ => ⟨S16384x2048, .bf16⟩
  | .hbm, ⟨88, _⟩ => ⟨S8x2048x2048, .bf16⟩
  | .hbm, ⟨89, _⟩ => ⟨S8x2048x1024, .bf16⟩
  | .hbm, ⟨90, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x256x1, .f32⟩
  | .local _ .vmem, ⟨7, _⟩ => ⟨S1x256x1, .f32⟩
  | .local _ .vmem, ⟨8, _⟩ => ⟨S256x2048, .f32⟩
  | .local _ .vmem, ⟨9, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_cst_5 : Ref sig .tc := ⟨.hbm, 26, rfl⟩
abbrev main_call2_v0 : Ref sig .tc := ⟨.hbm, 27, rfl⟩
abbrev main_call2_v1 : Ref sig .tc := ⟨.hbm, 28, rfl⟩
abbrev main_v10 : Ref sig .tc := ⟨.hbm, 29, rfl⟩
abbrev main_cst_6 : Ref sig .tc := ⟨.hbm, 30, rfl⟩
abbrev main_v11 : Ref sig .tc := ⟨.hbm, 31, rfl⟩
abbrev main_c_7 : Ref sig .tc := ⟨.hbm, 32, rfl⟩
abbrev main_v12 : Ref sig .tc := ⟨.hbm, 33, rfl⟩
abbrev main_v13 : Ref sig .tc := ⟨.hbm, 34, rfl⟩
abbrev main_cst_8 : Ref sig .tc := ⟨.hbm, 35, rfl⟩
abbrev main_call3_v0 : Ref sig .tc := ⟨.hbm, 36, rfl⟩
abbrev main_call3_v1 : Ref sig .tc := ⟨.hbm, 37, rfl⟩
abbrev main_v14 : Ref sig .tc := ⟨.hbm, 38, rfl⟩
abbrev main_cst_9 : Ref sig .tc := ⟨.hbm, 39, rfl⟩
abbrev main_v15 : Ref sig .tc := ⟨.hbm, 40, rfl⟩
abbrev main_c_10 : Ref sig .tc := ⟨.hbm, 41, rfl⟩
abbrev main_v16 : Ref sig .tc := ⟨.hbm, 42, rfl⟩
abbrev main_v17 : Ref sig .tc := ⟨.hbm, 43, rfl⟩
abbrev main_cst_11 : Ref sig .tc := ⟨.hbm, 44, rfl⟩
abbrev main_call4_v0 : Ref sig .tc := ⟨.hbm, 45, rfl⟩
abbrev main_call4_v1 : Ref sig .tc := ⟨.hbm, 46, rfl⟩
abbrev main_v18 : Ref sig .tc := ⟨.hbm, 47, rfl⟩
abbrev main_cst_12 : Ref sig .tc := ⟨.hbm, 48, rfl⟩
abbrev main_v19 : Ref sig .tc := ⟨.hbm, 49, rfl⟩
abbrev main_c_13 : Ref sig .tc := ⟨.hbm, 50, rfl⟩
abbrev main_v20 : Ref sig .tc := ⟨.hbm, 51, rfl⟩
abbrev main_v21 : Ref sig .tc := ⟨.hbm, 52, rfl⟩
abbrev main_cst_14 : Ref sig .tc := ⟨.hbm, 53, rfl⟩
abbrev main_call5_v0 : Ref sig .tc := ⟨.hbm, 54, rfl⟩
abbrev main_call5_v1 : Ref sig .tc := ⟨.hbm, 55, rfl⟩
abbrev main_v22 : Ref sig .tc := ⟨.hbm, 56, rfl⟩
abbrev main_cst_15 : Ref sig .tc := ⟨.hbm, 57, rfl⟩
abbrev main_v23 : Ref sig .tc := ⟨.hbm, 58, rfl⟩
abbrev main_c_16 : Ref sig .tc := ⟨.hbm, 59, rfl⟩
abbrev main_v24 : Ref sig .tc := ⟨.hbm, 60, rfl⟩
abbrev main_v25 : Ref sig .tc := ⟨.hbm, 61, rfl⟩
abbrev main_cst_17 : Ref sig .tc := ⟨.hbm, 62, rfl⟩
abbrev main_call6_v0 : Ref sig .tc := ⟨.hbm, 63, rfl⟩
abbrev main_call6_v1 : Ref sig .tc := ⟨.hbm, 64, rfl⟩
abbrev main_v26 : Ref sig .tc := ⟨.hbm, 65, rfl⟩
abbrev main_cst_18 : Ref sig .tc := ⟨.hbm, 66, rfl⟩
abbrev main_v27 : Ref sig .tc := ⟨.hbm, 67, rfl⟩
abbrev main_c_19 : Ref sig .tc := ⟨.hbm, 68, rfl⟩
abbrev main_v28 : Ref sig .tc := ⟨.hbm, 69, rfl⟩
abbrev main_v29 : Ref sig .tc := ⟨.hbm, 70, rfl⟩
abbrev main_cst_20 : Ref sig .tc := ⟨.hbm, 71, rfl⟩
abbrev main_call7_v0 : Ref sig .tc := ⟨.hbm, 72, rfl⟩
abbrev main_call7_v1 : Ref sig .tc := ⟨.hbm, 73, rfl⟩
abbrev main_v30 : Ref sig .tc := ⟨.hbm, 74, rfl⟩
abbrev main_cst_21 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384x2 : S_.BroadcastsInDim S16384x2 (![] : Fin 0 → Fin S16384x2.rank)
  reducesTo_S16384x2_S16384_d1 : S16384x2.ReducesTo [1] S16384
  h_S_ : 0 < S_.numel
  bcast_S16384_S1x16384_1 : S16384.BroadcastsInDim S1x16384 (![1] : Fin 1 → Fin S1x16384.rank)
  concatenates_S1x16384_S1x16384_S1x16384_S1x16384_S1x16384_S1x16384_S1x16384_S1x16384_S8x16384_d0 : Shape.Concatenates [S1x16384, S1x16384, S1x16384, S1x16384, S1x16384, S1x16384, S1x16384, S1x16384] S8x16384 0
  bcast_S8x16384_S8x16384x1_0_1 : S8x16384.BroadcastsInDim S8x16384x1 (![0, 1] : Fin 2 → Fin S8x16384x1.rank)
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x2048_o0_0_S256x1024 : S256x2048.Slices ![0, 0] S256x1024
  slices_S256x2048_o0_1024_S256x1024 : S256x2048.Slices ![0, 1024] S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  dot_S256x2048_S2048x2048_S256x2048_1_1_0_0_n_n_wf : DotDims.WF S256x2048 S2048x2048 S256x2048 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .bf16 = 32 ∨ (Rect.block (s := S16384x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x16384x1.size a
  hwx0_3 : ∀ i : grid0.Coords, EltTy.bits .f32 = 32 ∨ (Rect.block (s := S8x16384x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v42) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x2 : Shape := ⟨2, ![16384, 2]⟩
abbrev S8x2048x2048 : Shape := ⟨3, ![8, 2048, 2048]⟩
abbrev S8x2048x1024 : Shape := ⟨3, ![8, 2048, 1024]⟩
abbrev S_ : Shape := ⟨0, ![]⟩
abbrev S16384 : Shape := ⟨1, ![16384]⟩
abbrev S1x2048x2048 : Shape := ⟨3, ![1, 2048, 2048]⟩
abbrev S2048x2048 : Shape := ⟨2, ![2048, 2048]⟩
abbrev S16384x1024 : Shape := ⟨2, ![16384, 1024]⟩
abbrev S16384x1 : Shape := ⟨2, ![16384, 1]⟩
abbrev S1x2048x1024 : Shape := ⟨3, ![1, 2048, 1024]⟩
abbrev S2048x1024 : Shape := ⟨2, ![2048, 1024]⟩
abbrev S1024x2048 : Shape := ⟨2, ![1024, 2048]⟩

abbrev nBuf : Space → Nat
  | .hbm => 271
  | .vmem => 0
  | .smem => 0
  | _ => 0

abbrev hbmTy0_0 (i : Nat) : BufTy := match i % 128 with
  | 0 => ⟨S16384x2048, .f32⟩
  | 1 => ⟨S16384x2, .i32⟩
  | 2 => ⟨S16384x2, .f32⟩
  | 3 => ⟨S8x2048x2048, .f32⟩
  | 4 => ⟨S8x2048x1024, .f32⟩
  | 5 => ⟨S_, .f32⟩
  | 6 => ⟨S16384x2048, .f32⟩
  | 7 => ⟨S_, .i32⟩
  | 8 => ⟨S16384x2, .i32⟩
  | 9 => ⟨S16384x2, .i1⟩
  | 10 => ⟨S_, .f32⟩
  | 11 => ⟨S_, .f32⟩
  | 12 => ⟨S16384x2, .f32⟩
  | 13 => ⟨S16384x2, .f32⟩
  | 14 => ⟨S_, .f32⟩
  | 15 => ⟨S16384, .f32⟩
  | 16 => ⟨S1x2048x2048, .f32⟩
  | 17 => ⟨S2048x2048, .f32⟩
  | 18 => ⟨S2048x2048, .f32⟩
  | 19 => ⟨S16384x2048, .f32⟩
  | 20 => ⟨S16384x1024, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S16384x1, .f32⟩
  | 33 => ⟨S1x2048x1024, .f32⟩
  | 34 => ⟨S2048x1024, .f32⟩
  | 35 => ⟨S1024x2048, .f32⟩
  | 36 => ⟨S16384x2048, .f32⟩
  | 37 => ⟨S16384x2048, .f32⟩
  | 38 => ⟨S16384x2048, .f32⟩
  | 39 => ⟨S16384x2048, .f32⟩
  | 40 => ⟨S_, .i32⟩
  | 41 => ⟨S16384x2, .i32⟩
  | 42 => ⟨S16384x2, .i1⟩
  | 43 => ⟨S_, .f32⟩
  | 44 => ⟨S_, .f32⟩
  | 45 => ⟨S16384x2, .f32⟩
  | 46 => ⟨S16384x2, .f32⟩
  | 47 => ⟨S_, .f32⟩
  | 48 => ⟨S16384, .f32⟩
  | 49 => ⟨S1x2048x2048, .f32⟩
  | 50 => ⟨S2048x2048, .f32⟩
  | 51 => ⟨S2048x2048, .f32⟩
  | 52 => ⟨S16384x2048, .f32⟩
  | 53 => ⟨S16384x1024, .f32⟩
  | 54 => ⟨S16384x1024, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S_, .f32⟩
  | 61 => ⟨S16384x1024, .f32⟩
  | 62 => ⟨S16384x1024, .f32⟩
  | 63 => ⟨S16384x1024, .f32⟩
  | 64 => ⟨S16384x1024, .f32⟩
  | 65 => ⟨S16384x1, .f32⟩
  | 66 => ⟨S1x2048x1024, .f32⟩
  | 67 => ⟨S2048x1024, .f32⟩
  | 68 => ⟨S1024x2048, .f32⟩
  | 69 => ⟨S16384x2048, .f32⟩
  | 70 => ⟨S16384x2048, .f32⟩
  | 71 => ⟨S16384x2048, .f32⟩
  | 72 => ⟨S16384x2048, .f32⟩
  | 73 => ⟨S_, .i32⟩
  | 74 => ⟨S16384x2, .i32⟩
  | 75 => ⟨S16384x2, .i1⟩
  | 76 => ⟨S_, .f32⟩
  | 77 => ⟨S_, .f32⟩
  | 78 => ⟨S16384x2, .f32⟩
  | 79 => ⟨S16384x2, .f32⟩
  | 80 => ⟨S_, .f32⟩
  | 81 => ⟨S16384, .f32⟩
  | 82 => ⟨S1x2048x2048, .f32⟩
  | 83 => ⟨S2048x2048, .f32⟩
  | 84 => ⟨S2048x2048, .f32⟩
  | 85 => ⟨S16384x2048, .f32⟩
  | 86 => ⟨S16384x1024, .f32⟩
  | 87 => ⟨S16384x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S16384x1024, .f32⟩
  | 97 => ⟨S16384x1024, .f32⟩
  | 98 => ⟨S16384x1, .f32⟩
  | 99 => ⟨S1x2048x1024, .f32⟩
  | 100 => ⟨S2048x1024, .f32⟩
  | 101 => ⟨S1024x2048, .f32⟩
  | 102 => ⟨S16384x2048, .f32⟩
  | 103 => ⟨S16384x2048, .f32⟩
  | 104 => ⟨S16384x2048, .f32⟩
  | 105 => ⟨S16384x2048, .f32⟩
  | 106 => ⟨S_, .i32⟩
  | 107 => ⟨S16384x2, .i32⟩
  | 108 => ⟨S16384x2, .i1⟩
  | 109 => ⟨S_, .f32⟩
  | 110 => ⟨S_, .f32⟩
  | 111 => ⟨S16384x2, .f32⟩
  | 112 => ⟨S16384x2, .f32⟩
  | 113 => ⟨S_, .f32⟩
  | 114 => ⟨S16384, .f32⟩
  | 115 => ⟨S1x2048x2048, .f32⟩
  | 116 => ⟨S2048x2048, .f32⟩
  | 117 => ⟨S2048x2048, .f32⟩
  | 118 => ⟨S16384x2048, .f32⟩
  | 119 => ⟨S16384x1024, .f32⟩
  | 120 => ⟨S16384x1024, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S_, .f32⟩
  | 127 => ⟨S16384x1024, .f32⟩
  | _ => ⟨S16384x2048, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1, .f32⟩
  | 4 => ⟨S1x2048x1024, .f32⟩
  | 5 => ⟨S2048x1024, .f32⟩
  | 6 => ⟨S1024x2048, .f32⟩
  | 7 => ⟨S16384x2048, .f32⟩
  | 8 => ⟨S16384x2048, .f32⟩
  | 9 => ⟨S16384x2048, .f32⟩
  | 10 => ⟨S16384x2048, .f32⟩
  | 11 => ⟨S_, .i32⟩
  | 12 => ⟨S16384x2, .i32⟩
  | 13 => ⟨S16384x2, .i1⟩
  | 14 => ⟨S_, .f32⟩
  | 15 => ⟨S_, .f32⟩
  | 16 => ⟨S16384x2, .f32⟩
  | 17 => ⟨S16384x2, .f32⟩
  | 18 => ⟨S_, .f32⟩
  | 19 => ⟨S16384, .f32⟩
  | 20 => ⟨S1x2048x2048, .f32⟩
  | 21 => ⟨S2048x2048, .f32⟩
  | 22 => ⟨S2048x2048, .f32⟩
  | 23 => ⟨S16384x2048, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S16384x1024, .f32⟩
  | 36 => ⟨S16384x1, .f32⟩
  | 37 => ⟨S1x2048x1024, .f32⟩
  | 38 => ⟨S2048x1024, .f32⟩
  | 39 => ⟨S1024x2048, .f32⟩
  | 40 => ⟨S16384x2048, .f32⟩
  | 41 => ⟨S16384x2048, .f32⟩
  | 42 => ⟨S16384x2048, .f32⟩
  | 43 => ⟨S16384x2048, .f32⟩
  | 44 => ⟨S_, .i32⟩
  | 45 => ⟨S16384x2, .i32⟩
  | 46 => ⟨S16384x2, .i1⟩
  | 47 => ⟨S_, .f32⟩
  | 48 => ⟨S_, .f32⟩
  | 49 => ⟨S16384x2, .f32⟩
  | 50 => ⟨S16384x2, .f32⟩
  | 51 => ⟨S_, .f32⟩
  | 52 => ⟨S16384, .f32⟩
  | 53 => ⟨S1x2048x2048, .f32⟩
  | 54 => ⟨S2048x2048, .f32⟩
  | 55 => ⟨S2048x2048, .f32⟩
  | 56 => ⟨S16384x2048, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x1024, .f32⟩
  | 68 => ⟨S16384x1024, .f32⟩
  | 69 => ⟨S16384x1, .f32⟩
  | 70 => ⟨S1x2048x1024, .f32⟩
  | 71 => ⟨S2048x1024, .f32⟩
  | 72 => ⟨S1024x2048, .f32⟩
  | 73 => ⟨S16384x2048, .f32⟩
  | 74 => ⟨S16384x2048, .f32⟩
  | 75 => ⟨S16384x2048, .f32⟩
  | 76 => ⟨S16384x2048, .f32⟩
  | 77 => ⟨S_, .i32⟩
  | 78 => ⟨S16384x2, .i32⟩
  | 79 => ⟨S16384x2, .i1⟩
  | 80 => ⟨S_, .f32⟩
  | 81 => ⟨S_, .f32⟩
  | 82 => ⟨S16384x2, .f32⟩
  | 83 => ⟨S16384x2, .f32⟩
  | 84 => ⟨S_, .f32⟩
  | 85 => ⟨S16384, .f32⟩
  | 86 => ⟨S1x2048x2048, .f32⟩
  | 87 => ⟨S2048x2048, .f32⟩
  | 88 => ⟨S2048x2048, .f32⟩
  | 89 => ⟨S16384x2048, .f32⟩
  | 90 => ⟨S16384x1024, .f32⟩
  | 91 => ⟨S16384x1024, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S_, .f32⟩
  | 98 => ⟨S16384x1024, .f32⟩
  | 99 => ⟨S16384x1024, .f32⟩
  | 100 => ⟨S16384x1024, .f32⟩
  | 101 => ⟨S16384x1024, .f32⟩
  | 102 => ⟨S16384x1, .f32⟩
  | 103 => ⟨S1x2048x1024, .f32⟩
  | 104 => ⟨S2048x1024, .f32⟩
  | 105 => ⟨S1024x2048, .f32⟩
  | 106 => ⟨S16384x2048, .f32⟩
  | 107 => ⟨S16384x2048, .f32⟩
  | 108 => ⟨S16384x2048, .f32⟩
  | 109 => ⟨S16384x2048, .f32⟩
  | 110 => ⟨S_, .i32⟩
  | 111 => ⟨S16384x2, .i32⟩
  | 112 => ⟨S16384x2, .i1⟩
  | 113 => ⟨S_, .f32⟩
  | 114 => ⟨S_, .f32⟩
  | 115 => ⟨S16384x2, .f32⟩
  | 116 => ⟨S16384x2, .f32⟩
  | 117 => ⟨S_, .f32⟩
  | 118 => ⟨S16384, .f32⟩
  | 119 => ⟨S1x2048x2048, .f32⟩
  | 120 => ⟨S2048x2048, .f32⟩
  | 121 => ⟨S2048x2048, .f32⟩
  | 122 => ⟨S16384x2048, .f32⟩
  | 123 => ⟨S16384x1024, .f32⟩
  | 124 => ⟨S16384x1024, .f32⟩
  | 125 => ⟨S16384x1024, .f32⟩
  | 126 => ⟨S16384x1024, .f32⟩
  | 127 => ⟨S_, .f32⟩
  | _ => ⟨S16384x2048, .f32⟩

abbrev hbmTy0_2 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S16384x1024, .f32⟩
  | 6 => ⟨S16384x1024, .f32⟩
  | 7 => ⟨S16384x1, .f32⟩
  | 8 => ⟨S1x2048x1024, .f32⟩
  | 9 => ⟨S2048x1024, .f32⟩
  | 10 => ⟨S1024x2048, .f32⟩
  | 11 => ⟨S16384x2048, .f32⟩
  | 12 => ⟨S16384x2048, .f32⟩
  | 13 => ⟨S16384x2048, .f32⟩
  | 14 => ⟨S16384x2048, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_call4_v0 : Ref sig .tc := ⟨.hbm, 77, rfl⟩
abbrev main_call4_v1 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_8 : Ref sig .tc := ⟨.hbm, 106, rfl⟩
abbrev main_v61 : Ref sig .tc := ⟨.hbm, 107, rfl⟩
abbrev main_v62 : Ref sig .tc := ⟨.hbm, 108, rfl⟩
abbrev main_cst_9 : Ref sig .tc := ⟨.hbm, 109, rfl⟩
abbrev main_call6_v0 : Ref sig .tc := ⟨.hbm, 110, rfl⟩
abbrev main_call6_v1 : Ref sig .tc := ⟨.hbm, 111, rfl⟩
abbrev main_v63 : Ref sig .tc := ⟨.hbm, 112, rfl⟩
abbrev main_cst_10 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call7_v0 : Ref sig .tc := ⟨.hbm, 121, rfl⟩
abbrev main_call7_v1 : Ref sig .tc := ⟨.hbm, 122, rfl⟩
abbrev main_call7_cst : Ref sig .tc := ⟨.hbm, 123, rfl⟩
abbrev main_call7_v2 : Ref sig .tc := ⟨.hbm, 124, rfl⟩
abbrev main_call7_v3 : Ref sig .tc := ⟨.hbm, 125, rfl⟩
abbrev main_call7_cst_0 : Ref sig .tc := ⟨.hbm, 126, rfl⟩
abbrev main_call7_v4 : Ref sig .tc := ⟨.hbm, 127, rfl⟩
abbrev main_call7_v5 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_11 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_call8_v0 : Ref sig .tc := ⟨.hbm, 143, rfl⟩
abbrev main_call8_v1 : Ref sig .tc := ⟨.hbm, 144, rfl⟩
abbrev main_v83 : Ref sig .tc := ⟨.hbm, 145, rfl⟩
abbrev main_cst_13 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call9_v0 : Ref sig .tc := ⟨.hbm, 154, rfl⟩
abbrev main_call9_v1 : Ref sig .tc := ⟨.hbm, 155, rfl⟩
abbrev main_call9_cst : Ref sig .tc := ⟨.hbm, 156, rfl⟩
abbrev main_call9_v2 : Ref sig .tc := ⟨.hbm, 157, rfl⟩
abbrev main_call9_v3 : Ref sig .tc := ⟨.hbm, 158, rfl⟩
abbrev main_call9_cst_0 : Ref sig .tc := ⟨.hbm, 159, rfl⟩
abbrev main_call9_v4 : Ref sig .tc := ⟨.hbm, 160, rfl⟩
abbrev main_call9_v5 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_c_14 : Ref sig .tc := ⟨.hbm, 172, rfl⟩
abbrev main_v101 : Ref sig .tc := ⟨.hbm, 173, rfl⟩
abbrev main_v102 : Ref sig .tc := ⟨.hbm, 174, rfl⟩
abbrev main_cst_15 : Ref sig .tc := ⟨.hbm, 175, rfl⟩
abbrev main_call10_v0 : Ref sig .tc := ⟨.hbm, 176, rfl⟩
abbrev main_call10_v1 : Ref sig .tc := ⟨.hbm, 177, rfl⟩
abbrev main_v103 : Ref sig .tc := ⟨.hbm, 178, rfl⟩
abbrev main_cst_16 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_call11_v0 : Ref sig .tc := ⟨.hbm, 187, rfl⟩
abbrev main_call11_v1 : Ref sig .tc := ⟨.hbm, 188, rfl⟩
abbrev main_call11_cst : Ref sig .tc := ⟨.hbm, 189, rfl⟩
abbrev main_call11_v2 : Ref sig .tc := ⟨.hbm, 190, rfl⟩
abbrev main_call11_v3 : Ref sig .tc := ⟨.hbm, 191, rfl⟩
abbrev main_call11_cst_0 : Ref sig .tc := ⟨.hbm, 192, rfl⟩
abbrev main_call11_v4 : Ref sig .tc := ⟨.hbm, 193, rfl⟩
abbrev main_call11_v5 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_17 : Ref sig .tc := ⟨.hbm, 205, rfl⟩
abbrev main_v121 : Ref sig .tc := ⟨.hbm, 206, rfl⟩
abbrev main_v122 : Ref sig .tc := ⟨.hbm, 207, rfl⟩
abbrev main_cst_18 : Ref sig .tc := ⟨.hbm, 208, rfl⟩
abbrev main_call12_v0 : Ref sig .tc := ⟨.hbm, 209, rfl⟩
abbrev main_call12_v1 : Ref sig .tc := ⟨.hbm, 210, rfl⟩
abbrev main_v123 : Ref sig .tc := ⟨.hbm, 211, rfl⟩
abbrev main_cst_19 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_call13_v0 : Ref sig .tc := ⟨.hbm, 220, rfl⟩
abbrev main_call13_v1 : Ref sig .tc := ⟨.hbm, 221, rfl⟩
abbrev main_call13_cst : Ref sig .tc := ⟨.hbm, 222, rfl⟩
abbrev main_call13_v2 : Ref sig .tc := ⟨.hbm, 223, rfl⟩
abbrev main_call13_v3 : Ref sig .tc := ⟨.hbm, 224, rfl⟩
abbrev main_call13_cst_0 : Ref sig .tc := ⟨.hbm, 225, rfl⟩
abbrev main_call13_v4 : Ref sig .tc := ⟨.hbm, 226, rfl⟩
abbrev main_call13_v5 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_c_20 : Ref sig .tc := ⟨.hbm, 238, rfl⟩
abbrev main_v141 : Ref sig .tc := ⟨.hbm, 239, rfl⟩
abbrev main_v142 : Ref sig .tc := ⟨.hbm, 240, rfl⟩
abbrev main_cst_21 : Ref sig .tc := ⟨.hbm, 241, rfl⟩
abbrev main_call14_v0 : Ref sig .tc := ⟨.hbm, 242, rfl⟩
abbrev main_call14_v1 : Ref sig .tc := ⟨.hbm, 243, rfl⟩
abbrev main_v143 : Ref sig .tc := ⟨.hbm, 244, rfl⟩
abbrev main_cst_22 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_call15_v0 : Ref sig .tc := ⟨.hbm, 253, rfl⟩
abbrev main_call15_v1 : Ref sig .tc := ⟨.hbm, 254, rfl⟩
abbrev main_call15_cst : Ref sig .tc := ⟨.hbm, 255, rfl⟩
abbrev main_call15_v2 : Ref sig .tc := ⟨.hbm, 256, rfl⟩
abbrev main_call15_v3 : Ref sig .tc := ⟨.hbm, 257, rfl⟩
abbrev main_call15_cst_0 : Ref sig .tc := ⟨.hbm, 258, rfl⟩
abbrev main_call15_v4 : Ref sig .tc := ⟨.hbm, 259, rfl⟩
abbrev main_call15_v5 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S_S16384x2 : S_.BroadcastsInDim S16384x2 (![] : Fin 0 → Fin S16384x2.rank)
  reducesTo_S16384x2_S16384_d1 : S16384x2.ReducesTo [1] S16384
  h_S_ : 0 < S_.numel
  slices_S8x2048x2048_S1x2048x2048_0_0_0 : S8x2048x2048.Slices ![0, 0, 0] S1x2048x2048
  shapeCasts_S1x2048x2048_S2048x2048 : S1x2048x2048.ShapeCasts S2048x2048
  transposes_S2048x2048_S2048x2048_1_0 : S2048x2048.Transposes [1, 0] S2048x2048
  slices_S16384x2048_S16384x1024_0_0 : S16384x2048.Slices ![0, 0] S16384x1024
  slices_S16384x2048_S16384x1024_0_1024 : S16384x2048.Slices ![0, 1024] S16384x1024
  bcast_S_S16384x1024 : S_.BroadcastsInDim S16384x1024 (![] : Fin 0 → Fin S16384x1024.rank)
  bcast_S16384_S16384x1_0 : S16384.BroadcastsInDim S16384x1 (![0] : Fin 1 → Fin S16384x1.rank)
  slices_S8x2048x1024_S1x2048x1024_0_0_0 : S8x2048x1024.Slices ![0, 0, 0] S1x2048x1024
  shapeCasts_S1x2048x1024_S2048x1024 : S1x2048x1024.ShapeCasts S2048x1024
  transposes_S2048x1024_S1024x2048_1_0 : S2048x1024.Transposes [1, 0] S1024x2048
  bcast_S16384x1_S16384x2048_0_1 : S16384x1.BroadcastsInDim S16384x2048 (![0, 1] : Fin 2 → Fin S16384x2048.rank)
  slices_S8x2048x2048_S1x2048x2048_1_0_0 : S8x2048x2048.Slices ![1, 0, 0] S1x2048x2048
  slices_S8x2048x1024_S1x2048x1024_1_0_0 : S8x2048x1024.Slices ![1, 0, 0] S1x2048x1024
  slices_S8x2048x2048_S1x2048x2048_2_0_0 : S8x2048x2048.Slices ![2, 0, 0] S1x2048x2048
  slices_S8x2048x1024_S1x2048x1024_2_0_0 : S8x2048x1024.Slices ![2, 0, 0] S1x2048x1024
  slices_S8x2048x2048_S1x2048x2048_3_0_0 : S8x2048x2048.Slices ![3, 0, 0] S1x2048x2048
  slices_S8x2048x1024_S1x2048x1024_3_0_0 : S8x2048x1024.Slices ![3, 0, 0] S1x2048x1024
  slices_S8x2048x2048_S1x2048x2048_4_0_0 : S8x2048x2048.Slices ![4, 0, 0] S1x2048x2048
  slices_S8x2048x1024_S1x2048x1024_4_0_0 : S8x2048x1024.Slices ![4, 0, 0] S1x2048x1024
  slices_S8x2048x2048_S1x2048x2048_5_0_0 : S8x2048x2048.Slices ![5, 0, 0] S1x2048x2048
  slices_S8x2048x1024_S1x2048x1024_5_0_0 : S8x2048x1024.Slices ![5, 0, 0] S1x2048x1024
  slices_S8x2048x2048_S1x2048x2048_6_0_0 : S8x2048x2048.Slices ![6, 0, 0] S1x2048x2048
  slices_S8x2048x1024_S1x2048x1024_6_0_0 : S8x2048x1024.Slices ![6, 0, 0] S1x2048x1024
  slices_S8x2048x2048_S1x2048x2048_7_0_0 : S8x2048x2048.Slices ![7, 0, 0] S1x2048x2048
  slices_S8x2048x1024_S1x2048x1024_7_0_0 : S8x2048x1024.Slices ![7, 0, 0] S1x2048x1024
  dot_S16384x2048_S2048x2048_S16384x2048_1_0_0_1_n_n_wf : DotDims.WF S16384x2048 S2048x2048 S16384x2048 [1] [0] [0] [1] [] []
  dot_S16384x1024_S1024x2048_S16384x2048_1_0_0_1_n_n_wf : DotDims.WF S16384x1024 S1024x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.K.Kit.lean ====
/-
  The kernel program up to its region, and the region's input blocks.

  Before the region the program computes, on the host, the eight per-expert routing coefficients (a comparison of the
  routing table with the expert's number, a selection of the router weights, a sum over the two slots), stacks
  them into one array of shape [8, 16384, 1], and converts the hidden states and both weight arrays to the
  matmul format. None of these operations writes an argument array, so the region finds the five arguments as
  the program was launched with them; the arrays the region's windows stage are the converted copies and the
  stacked coefficients. `V` names every buffer's contents when the region is entered, `iblk` a window's block at
  a grid point read off those contents, and `frame_of` reads the frame claim off a run of the region.
-/
import proofs.«109700_j71141838291315_1_alg».proof.Proof.Gen.Kernel.Launch
import proofs.«109700_j71141838291315_1_alg».proof.Proof.Gen.Kernel.Skeleton
import proofs.«109700_j71141838291315_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The stretches of host operations before the region, in program order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Every buffer's contents on core `c` when the region is entered: the launch contents after the host operations. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- The program is its host operations, stretch by stretch, then the region: so the region is entered holding `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: at a point that does
    not fetch it the index map has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: at a point that does
    not fetch it the index map has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: at a point that does
    not fetch it the index map has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: at a point that does
    not fetch it the index map has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- A run of the program ending with every buffer no window stages at its region-entry contents leaves the five
    argument arrays as launched: no window stages an argument (the windows stage the converted copies), and
    no host operation wrote one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch -/

/-- The body's one conditional: "this is the first expert of the token tile", as the body computes it from the second
    grid coordinate. -/
abbrev isFirst (i : grid0.Coords) : Prop := (Scalar.cmpi .ne (Scalar.extui (Scalar.cmpi .eq (BitVec.ofNat 32 (i 1).val) 0#32)) 0#32) = 1#1
/-- The grid runs the eight experts innermost: the condition holds exactly at the points that are multiples of eight. -/
theorem isFirst_iff : ∀ t : Fin cfg0.N, isFirst (grid0.coords t) ↔ t.val % 8 = 0 :=
  (by decide +kernel : ∀ t : Fin grid0.N, isFirst (grid0.coords t) ↔ t.val % 8 = 0)

/-! ## The staging memrefs at a point -/

/-- One staging buffer of the output window, through which its contents are stated. -/
abbrev VO : View sig .tc .vmem S256x2048 .f32 := (Memref.whole cc0_stg4_0 : Memref sig .tc .vmem S256x2048 .f32).view
abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)

end Cert.Kernel.Fr

end
-- ==== Proof.K.RunFirst.lean ====
/-
  The body at the first expert of a token tile. The output block's buffer holds whatever the pipeline left there;
  the body overwrites it with zeros, loads the four input blocks, loads the zeros back and stores their sum with
  this expert's weighted contribution. The run below executes the body symbolically on whole staging buffers and
  finds the list of stores the output buffer ends with.
-/
import proofs.«109700_j71141838291315_1_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the output buffer ends with when the body runs at a first expert, with the proof that from whole
    staging buffers — the inputs at their contents, the output at anything — the body reaches its continuation
    holding the inputs as they were and the output buffer with those stores written. -/
noncomputable def runFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) :
    { L : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.RunLater.lean ====
/-
  The body at a later expert of a token tile. The output block's buffer holds the running sum the expert before
  left; the body loads the four input blocks and the running sum and stores the sum with this expert's weighted
  contribution. The run executes the body symbolically and finds the stores the output buffer ends with.
-/
import proofs.«109700_j71141838291315_1_alg».proof.Proof.K.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the output buffer ends with when the body runs at a later expert, with the proof that from whole
    staging buffers — the inputs at their contents, the output at the running sum `xo` — the body reaches its
    continuation holding the inputs as they were and the output buffer with those stores written. -/
noncomputable def runLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) :
    { L : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.Frame.lean ====
/-
  The region, point by point, and the program's run.

  The grid has 512 points: 64 token tiles, and within a tile the eight experts in order, so point `t` is tile
  `t / 8` and expert `t % 8`. The output window's block depends on the tile only; its staging buffer is written
  back after the tile's last expert and is otherwise carried from point to point. So after point `t` the buffer
  holds: at a first expert, what the body leaves starting from any contents; at a later expert, what the body
  leaves starting from what the point before left (`outsAt`, by recursion on the point). The input windows'
  buffers hold their blocks at every point. With this proof data the body's two runs discharge the pipeline's
  obligation at every point, the library's launch theorem runs the program, and the frame claim is read off
  its post.
-/
import proofs.«109700_j71141838291315_1_alg».proof.Proof.K.RunLater

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first expert the body's stores into the output buffer tile its block, so they cover it. -/
theorem coverFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) (y : S256x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S256x2048.size (by sl_kernel_rfl) y

/-- What a first expert leaves in the output buffer: its stores read back. -/
def outFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) : Vec F S256x2048 .f32 :=
  VO.read (Elt F) (VO.writes (Elt F) VO.junk (runFirst c i arg2 harg2 arg3 harg3 arg4 harg4 arg5 harg5 arg6 harg6 hc0 x0 x1 x2 x3).1)

/-- At a later expert the body's stores into the output buffer tile its block, so they cover it. -/
theorem coverLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) (y : S256x2048.Idx) :
    ∃ pc ∈ (runLater c i arg2 harg2 arg3 harg3 arg4 harg4 arg5 harg5 arg6 harg6 hc0 x0 x1 x2 x3 xo).1, y ∈ pc.1.set :=
  View.cover_of_tiledL (runLater c i arg2 harg2 arg3 harg3 arg4 harg4 arg5 harg5 arg6 harg6 hc0 x0 x1 x2 x3 xo).1 S256x2048.size (by sl_kernel_rfl) y

/-- What a later expert leaves in the output buffer, from the running sum `xo`: its stores read back. -/
def outLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) : Vec F S256x2048 .f32 :=
  VO.read (Elt F) (VO.writes (Elt F) VO.junk (runLater c i arg2 harg2 arg3 harg3 arg4 harg4 arg5 harg5 arg6 harg6 hc0 x0 x1 x2 x3 xo).1)

/-! ## The running sum, point by point -/

/-- What the output window's staging buffer holds after the body at point `n`: a first expert starts afresh, a later
    one continues from what point `n - 1` left (the buffer is not written back in between). -/
def outsAt (c : Dev nD) : (n : ℕ) → n < cfg0.N → Vec F S256x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first expert. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later expert: the body's result over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running sum; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later expert the output window's buffer holds what the body left at the point before: the point is not the
    first, and the buffer is written back only after a tile's last expert. -/
theorem before4_later (c : Dev nD) (t : Fin cfg0.N) (h0 : ¬t.val % 8 = 0) (d) :
    (dats m 0 c).before 4 t d = (outsAt m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point is a first expert or a later one, and at a
    later one the output's buffer holds the running sum; so the matching run applies, and the invariant passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 512 := lt_of_lt_of_eq t.isLt (show cfg0.N = 512 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later m c t h0]
    simp only [before4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the pipeline's write-backs make of the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KI.Kit.lean ====
/-
  The kernel program up to its region, and the region's input blocks.

  Before the region the program computes, on the host, the eight per-expert routing coefficients (a comparison of the
  routing table with the expert's number, a selection of the router weights, a sum over the two slots), stacks
  them into one array of shape [8, 16384, 1], and converts the hidden states and both weight arrays to the
  matmul format. None of these operations writes an argument array, so the region finds the five arguments as
  the program was launched with them; the arrays the region's windows stage are the converted copies and the
  stacked coefficients. `V` names every buffer's contents when the region is entered, `iblk` a window's block at
  a grid point read off those contents, and `frame_of` reads the frame claim off a run of the region.
-/
import proofs.«109700_j71141838291315_1_alg».proof.Proof.Gen.KernelIdeal.Launch
import proofs.«109700_j71141838291315_1_alg».proof.Proof.Gen.KernelIdeal.Skeleton
import proofs.«109700_j71141838291315_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The stretches of host operations before the region, in program order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Every buffer's contents on core `c` when the region is entered: the launch contents after the host operations. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- The program is its host operations, stretch by stretch, then the region: so the region is entered holding `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: at a point that does
    not fetch it the index map has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: at a point that does
    not fetch it the index map has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: at a point that does
    not fetch it the index map has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: at a point that does
    not fetch it the index map has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- A run of the program ending with every buffer no window stages at its region-entry contents leaves the five
    argument arrays as launched: no window stages an argument (the windows stage the converted copies), and
    no host operation wrote one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch -/

/-- The body's one conditional: "this is the first expert of the token tile", as the body computes it from the second
    grid coordinate. -/
abbrev isFirst (i : grid0.Coords) : Prop := (Scalar.cmpi .ne (Scalar.extui (Scalar.cmpi .eq (BitVec.ofNat 32 (i 1).val) 0#32)) 0#32) = 1#1
/-- The grid runs the eight experts innermost: the condition holds exactly at the points that are multiples of eight. -/
theorem isFirst_iff : ∀ t : Fin cfg0.N, isFirst (grid0.coords t) ↔ t.val % 8 = 0 :=
  (by decide +kernel : ∀ t : Fin grid0.N, isFirst (grid0.coords t) ↔ t.val % 8 = 0)

/-! ## The staging memrefs at a point -/

/-- One staging buffer of the output window, through which its contents are stated. -/
abbrev VO : View sig .tc .vmem S256x2048 .f32 := (Memref.whole cc0_stg4_0 : Memref sig .tc .vmem S256x2048 .f32).view
abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)

end Cert.KernelIdeal.Fr

end
-- ==== Proof.KI.RunFirst.lean ====
/-
  The body at the first expert of a token tile. The output block's buffer holds whatever the pipeline left there;
  the body overwrites it with zeros, loads the four input blocks, loads the zeros back and stores their sum with
  this expert's weighted contribution. The run below executes the body symbolically on whole staging buffers and
  finds the list of stores the output buffer ends with.
-/
import proofs.«109700_j71141838291315_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the output buffer ends with when the body runs at a first expert, with the proof that from whole
    staging buffers — the inputs at their contents, the output at anything — the body reaches its continuation
    holding the inputs as they were and the output buffer with those stores written. -/
noncomputable def runFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) :
    { L : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.RunLater.lean ====
/-
  The body at a later expert of a token tile. The output block's buffer holds the running sum the expert before
  left; the body loads the four input blocks and the running sum and stores the sum with this expert's weighted
  contribution. The run executes the body symbolically and finds the stores the output buffer ends with.
-/
import proofs.«109700_j71141838291315_1_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the output buffer ends with when the body runs at a later expert, with the proof that from whole
    staging buffers — the inputs at their contents, the output at the running sum `xo` — the body reaches its
    continuation holding the inputs as they were and the output buffer with those stores written. -/
noncomputable def runLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) :
    { L : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.Frame.lean ====
/-
  The region, point by point, and the program's run.

  The grid has 512 points: 64 token tiles, and within a tile the eight experts in order, so point `t` is tile
  `t / 8` and expert `t % 8`. The output window's block depends on the tile only; its staging buffer is written
  back after the tile's last expert and is otherwise carried from point to point. So after point `t` the buffer
  holds: at a first expert, what the body leaves starting from any contents; at a later expert, what the body
  leaves starting from what the point before left (`outsAt`, by recursion on the point). The input windows'
  buffers hold their blocks at every point. With this proof data the body's two runs discharge the pipeline's
  obligation at every point, the library's launch theorem runs the program, and the frame claim is read off
  its post.
-/
import proofs.«109700_j71141838291315_1_alg».proof.Proof.KI.RunLater

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first expert the body's stores into the output buffer tile its block, so they cover it. -/
theorem coverFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) (y : S256x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S256x2048.size (by sl_kernel_rfl) y

/-- What a first expert leaves in the output buffer: its stores read back. -/
def outFirst (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : isFirst i)
    (x0 : Vec F S256x2048 .bf16) (x1 : Vec F S1x2048x2048 .bf16) (x2 : Vec F S1x2048x1024 .bf16) (x3 : Vec F S1x256x1 .f32) : Vec F S256x2048 .f32 :=
  VO.read (Elt F) (VO.writes (Elt F) VO.junk (runFirst c i arg2 harg2 arg3 harg3 arg4 harg4 arg5 harg5 arg6 harg6 hc0 x0 x1 x2 x3).1)

/-- At a later expert the body's stores into the output buffer tile its block, so they cover it. -/
theorem coverLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) (y : S256x2048.Idx) :
    ∃ pc ∈ (runLater c i arg2 harg2 arg3 harg3 arg4 harg4 arg5 harg5 arg6 harg6 hc0 x0 x1 x2 x3 xo).1, y ∈ pc.1.set :=
  View.cover_of_tiledL (runLater c i arg2 harg2 arg3 harg3 arg4 harg4 arg5 harg5 arg6 harg6 hc0 x0 x1 x2 x3 xo).1 S256x2048.size (by sl_kernel_rfl) y

/-- What a later expert leaves in the output buffer, from the running sum `xo`: its stores read back. -/
def outLater (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc0 : ¬isFirst i)
    (x0 : Vec F S256x2048 .bf16) (x1 : Vec F S1x2048x2048 .bf16) (x2 : Vec F S1x2048x1024 .bf16) (x3 : Vec F S1x256x1 .f32) (xo : Vec F S256x2048 .f32) : Vec F S256x2048 .f32 :=
  VO.read (Elt F) (VO.writes (Elt F) VO.junk (runLater c i arg2 harg2 arg3 harg3 arg4 harg4 arg5 harg5 arg6 harg6 hc0 x0 x1 x2 x3 xo).1)

/-! ## The running sum, point by point -/

/-- What the output window's staging buffer holds after the body at point `n`: a first expert starts afresh, a later
    one continues from what point `n - 1` left (the buffer is not written back in between). -/
def outsAt (c : Dev nD) : (n : ℕ) → n < cfg0.N → Vec F S256x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first expert. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later expert: the body's result over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running sum; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later expert the output window's buffer holds what the body left at the point before: the point is not the
    first, and the buffer is written back only after a tile's last expert. -/
theorem before4_later (c : Dev nD) (t : Fin cfg0.N) (h0 : ¬t.val % 8 = 0) (d) :
    (dats m 0 c).before 4 t d = (outsAt m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point is a first expert or a later one, and at a
    later one the output's buffer holds the running sum; so the matching run applies, and the invariant passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 512 := lt_of_lt_of_eq t.isLt (show cfg0.N = 512 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later m c t h0]
    simp only [before4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the pipeline's write-backs make of the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KI.Pieces.lean ====
/-
  What the body leaves in the output block, as arithmetic.

  At either kind of point the body's last store covers the whole output block, so what the block holds afterwards is
  that store's value: the body's update `k0_pay2` of the four input blocks and of the block's contents as the body
  loaded them — at a later expert the running sum it was handed, at a first expert the zeros it had just stored
  (`k0_pay1`).
-/
import proofs.«109700_j71141838291315_1_alg».proof.Proof.KI.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A later expert leaves the update of the running sum `xo` by this expert's blocks. -/
theorem out_later (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc : ¬isFirst i)
    (x0 : Vec F S256x2048 .bf16) (x1 : Vec F S1x2048x2048 .bf16) (x2 : Vec F S1x2048x1024 .bf16) (x3 : Vec F S1x256x1 .f32) (xo : Vec F S256x2048 .f32) :
    outLater c i arg2 harg2 arg3 harg3 arg4 harg4 arg5 harg5 arg6 harg6 hc x0 x1 x2 x3 xo = k0_pay2 x0 x1 x2 x3 xo := by
  unfold outLater
  rw [View.read_writes_eq_canon _ _ _ (coverLater c i arg2 harg2 arg3 harg3 arg4 harg4 arg5 harg5 arg6 harg6 hc x0 x1 x2 x3 xo)]
  unfold runLater
  dsimp only
  rw [View.canon_unit_zero hz2]
  simp only [View.readAt_eq_ld, harg2.read_unread, harg3.read_unread, harg4.read_unread, harg5.read_unread, harg6.read_unread,
    View.ld_unit_zero (S := S256x2048) hz2, View.ld_unit_zero (S := S1x2048x2048) hz3, View.ld_unit_zero (S := S1x2048x1024) hz3,
    View.ld_unit_zero (S := S1x256x1) hz3]

/-- A first expert leaves the update of the zero block by this expert's blocks. -/
theorem out_first (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x1024 .bf16) (harg4 : arg4.IsWhole) (arg5 : Memref sig .tc .vmem S1x256x1 .f32) (harg5 : arg5.IsWhole) (arg6 : Memref sig .tc .vmem S256x2048 .f32) (harg6 : arg6.IsWhole) (hc : isFirst i)
    (x0 : Vec F S256x2048 .bf16) (x1 : Vec F S1x2048x2048 .bf16) (x2 : Vec F S1x2048x1024 .bf16) (x3 : Vec F S1x256x1 .f32) :
    outFirst c i arg2 harg2 arg3 harg3 arg4 harg4 arg5 harg5 arg6 harg6 hc x0 x1 x2 x3 = k0_pay2 x0 x1 x2 x3 (k0_pay1 (F := F)) := by
  unfold outFirst
  rw [View.read_writes_eq_canon _ _ _ (coverFirst c i arg2 harg2 arg3 harg3 arg4 harg4 arg5 harg5 arg6 harg6 hc x0 x1 x2 x3)]
  unfold runFirst
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread,
    View.ld_unit_zero (S := S256x2048) hz2, View.ld_unit_zero (S := S1x2048x2048) hz3, View.ld_unit_zero (S := S1x2048x1024) hz3,
    View.ld_unit_zero (S := S1x256x1) hz3]

/-- The running sum after point `n`, as arithmetic: a first expert updates the zero block, a later one what the point
    before left. -/
def chain (c : Dev nD) : (n : ℕ) → n < cfg0.N → Vec F S256x2048 .f32
  | 0, h => k0_pay2 (iblk m c 0 ⟨0, h⟩) (iblk m c 1 ⟨0, h⟩) (iblk m c 2 ⟨0, h⟩) (iblk m c 3 ⟨0, h⟩) (k0_pay1 (F := F))
  | n + 1, h =>
    if (n + 1) % 8 = 0 then
      k0_pay2 (iblk m c 0 ⟨n + 1, h⟩) (iblk m c 1 ⟨n + 1, h⟩) (iblk m c 2 ⟨n + 1, h⟩) (iblk m c 3 ⟨n + 1, h⟩) (k0_pay1 (F := F))
    else
      k0_pay2 (iblk m c 0 ⟨n + 1, h⟩) (iblk m c 1 ⟨n + 1, h⟩) (iblk m c 2 ⟨n + 1, h⟩) (iblk m c 3 ⟨n + 1, h⟩) (chain c n (Nat.lt_of_succ_lt h))

/-- What the output buffer holds after point `n` is that arithmetic, by induction on the point. -/
theorem outsAt_eq (c : Dev nD) : ∀ (n : ℕ) (h : n < cfg0.N), outsAt m c n h = chain m c n h
  | 0, h => (outsAt_first m c ⟨0, h⟩ rfl).trans (out_first ..)
  | n + 1, h => by
    by_cases h0 : (n + 1) % 8 = 0
    · rw [outsAt_first m c ⟨n + 1, h⟩ h0, out_first]
      show _ = if (n + 1) % 8 = 0 then _ else _
      rw [if_pos h0]
    · rw [outsAt_later m c ⟨n + 1, h⟩ h0, out_later]
      show _ = if (n + 1) % 8 = 0 then _ else _
      rw [if_neg h0]
      show k0_pay2 _ _ _ _ (outsAt m c n _) = k0_pay2 _ _ _ _ (chain m c n _)
      rw [outsAt_eq c n]

end Cert.KernelIdeal.Val

end
-- ==== Proof.Stack.lean ====
/-
  The routing coefficients, stacked: what the kernel program's host operations hand the kernel as its coefficient array.

  Each of the eight experts has one row of 16384 coefficients, one per token. The program gives each row a leading axis
  of size one, lays the eight `[1, 16384]` arrays end to end along that axis into an `[8, 16384]` array, and gives that
  a trailing axis of size one. So the array it hands the kernel holds, at `(e, t, 0)`, expert `e`'s coefficient for
  token `t`: nothing is computed, every element is moved.

  A unit axis added by a broadcast is read at an index by dropping that coordinate; the stack is read by the
  concatenation of equal pieces, where the coordinate along the axis, divided by the pieces' common extent (here one),
  names the piece. The three shape conditions are hypotheses, typed as the program states them, so that the program's
  own facts apply.
-/
import proofs.«109700_j71141838291315_1_alg».proof.KernelIdeal
import Idealize.ShloMosaic.Lib.Pipeline.Value
import Idealize.ShloMosaic.Lib.ValueIdx

namespace Cert.MoeStack

open Cert.KernelIdeal Idealize.ShloMosaic Idealize.ShloMosaic.ValueIdx

variable {α : Type}

/-- A row `[16384]` given a leading unit axis reads `(u, t)` at `t`. -/
theorem row_apply (x : S16384.Idx → α) (hb1 : S16384.BroadcastsInDim S1x16384 (![1] : Fin 1 → Fin S1x16384.rank))
    (u : Fin 1) (t : Fin 16384) :
    broadcastInDim S1x16384 ![1] hb1 x (ix2 u t) = x (ix1 t) :=
  broadcastInDim_apply _ hb1 x (ix2 u t) (ix1 t) (fun a => match a with
    | ⟨0, _⟩ => by show t.val = if (16384 : ℕ) = 1 then 0 else t.val; rw [if_neg (by decide)])

/-- An `[8, 16384]` array given a trailing unit axis reads `(e, t, c)` at `(e, t)`. -/
theorem column_apply (y : S8x16384.Idx → α)
    (hb3 : S8x16384.BroadcastsInDim S8x16384x1 (![0, 1] : Fin 2 → Fin S8x16384x1.rank))
    (e : Fin 8) (t : Fin 16384) (c : Fin 1) :
    broadcastInDim S8x16384x1 ![0, 1] hb3 y (ix3 e t c) = y (ix2 e t) :=
  broadcastInDim_apply _ hb3 y (ix3 e t c) (ix2 e t) (fun a => match a with
    | ⟨0, _⟩ => by show e.val = if (8 : ℕ) = 1 then 0 else e.val; rw [if_neg (by decide)]
    | ⟨1, _⟩ => by show t.val = if (16384 : ℕ) = 1 then 0 else t.val; rw [if_neg (by decide)])

/-- Eight `[1, 16384]` arrays laid end to end along the first axis read `(e, t)` in piece `e`, at `(0, t)`: every
    piece has extent one along that axis, so the coordinate `e` over one is the piece and its remainder is zero. -/
theorem rows_apply (x : Fin 8 → (S1x16384.Idx → α))
    (hcat : Shape.Concatenates [S1x16384, S1x16384, S1x16384, S1x16384, S1x16384, S1x16384, S1x16384, S1x16384] S8x16384 0)
    (e : Fin 8) (t : Fin 16384) :
    concatenate S8x16384 0 [⟨S1x16384, x 0⟩, ⟨S1x16384, x 1⟩, ⟨S1x16384, x 2⟩, ⟨S1x16384, x 3⟩, ⟨S1x16384, x 4⟩, ⟨S1x16384, x 5⟩, ⟨S1x16384, x 6⟩, ⟨S1x16384, x 7⟩] hcat (ix2 e t)
      = x e (ix2 (0 : Fin 1) t) :=
  concatenate_ofFn_apply (t := S8x16384) (s₁ := S1x16384) 0 x hcat rfl 1 rfl (ix2 e t) e (Nat.div_one _)
    (ix2 (0 : Fin 1) t) (Nat.mod_one _).symm
    (fun b hb => match b, hb with
      | ⟨0, _⟩, hb => absurd (Fin.ext rfl) hb
      | ⟨1, _⟩, _ => rfl)

/-- The stacked coefficients at `(e, t, 0)` are expert `e`'s row at token `t`. -/
theorem stack_apply (v : Fin 8 → (S16384.Idx → α))
    (hb1 : S16384.BroadcastsInDim S1x16384 (![1] : Fin 1 → Fin S1x16384.rank))
    (hcat : Shape.Concatenates [S1x16384, S1x16384, S1x16384, S1x16384, S1x16384, S1x16384, S1x16384, S1x16384] S8x16384 0)
    (hb3 : S8x16384.BroadcastsInDim S8x16384x1 (![0, 1] : Fin 2 → Fin S8x16384x1.rank))
    (e : Fin 8) (t : Fin 16384) :
    broadcastInDim S8x16384x1 ![0, 1] hb3
        (concatenate S8x16384 0 [⟨S1x16384, broadcastInDim S1x16384 ![1] hb1 (v 0)⟩, ⟨S1x16384, broadcastInDim S1x16384 ![1] hb1 (v 1)⟩, ⟨S1x16384, broadcastInDim S1x16384 ![1] hb1 (v 2)⟩, ⟨S1x16384, broadcastInDim S1x16384 ![1] hb1 (v 3)⟩, ⟨S1x16384, broadcastInDim S1x16384 ![1] hb1 (v 4)⟩, ⟨S1x16384, broadcastInDim S1x16384 ![1] hb1 (v 5)⟩, ⟨S1x16384, broadcastInDim S1x16384 ![1] hb1 (v 6)⟩, ⟨S1x16384, broadcastInDim S1x16384 ![1] hb1 (v 7)⟩] hcat)
        (ix3 e t 0)
      = v e (ix1 t) :=
  (column_apply _ hb3 e t 0).trans
    ((rows_apply (fun n => broadcastInDim S1x16384 ![1] hb1 (v n)) hcat e t).trans (row_apply (v e) hb1 0 t))

end Cert.MoeStack
-- ==== Proof.Spec.lean ====
/-
  What both programs compute, as one function of the argument arrays, index by index, on the extended reals.

  A mixture of experts over 16384 tokens with hidden width 2048, eight experts and intermediate width 1024.
  For expert `e` and token `t` the fused projection is `proj e t j = ∑ k, x[t,k] · w13[e,j,k]` for `j < 2048`;
  its lower half is the gate and its upper half the value, the activation is
  `act e t i = (g · logistic g) · u` with `g = proj e t i`, `u = proj e t (1024 + i)`, and the down projection is
  `down e t h = ∑ i, act e t i · w2[e,h,i]`. With a routing coefficient `coef e t` per expert and token, the
  result at `(t, h)` is the left-nested sum `((0 + coef 0 t · down 0 t h) + coef 1 t · down 1 t h) + …` over the
  experts in order. The coefficient is a parameter here: each program computes it by the same host operations
  from the routing table and the router weights, and the two are identified where the programs meet.
  No law of the extended reals beyond the order of the additions is used, so no input need be finite.
-/
import Idealize.ShloMosaic.PureOps.Ideal
import Idealize.ShloMosaic.Lib.ValueIdx

noncomputable section

open scoped BigOperators

namespace Cert.MoeSpec

open Idealize.ShloMosaic Idealize.ShloMosaic.ValueIdx

/-- The hidden states, `[16384, 2048]`. -/
abbrev Hid := (⟨2, ![16384, 2048]⟩ : Shape).Idx → EReal
/-- The fused gate and value weights, `[8, 2048, 2048]`: expert, output row, hidden column. -/
abbrev W13 := (⟨3, ![8, 2048, 2048]⟩ : Shape).Idx → EReal
/-- The down-projection weights, `[8, 2048, 1024]`: expert, hidden row, intermediate column. -/
abbrev W2 := (⟨3, ![8, 2048, 1024]⟩ : Shape).Idx → EReal

/-- Column `i` of the gate half of the fused projection. -/
def lo (i : Fin 1024) : Fin 2048 := ⟨i.val, by have := i.isLt; omega⟩
/-- Column `i` of the value half of the fused projection. -/
def hi (i : Fin 1024) : Fin 2048 := ⟨1024 + i.val, by have := i.isLt; omega⟩

/-- Row `t` of the hidden states against row `j` of expert `e`'s fused weights. -/
def proj (x : Hid) (w13 : W13) (e : Fin 8) (t : Fin 16384) (j : Fin 2048) : EReal :=
  ∑ k : Fin 2048, x (ix2 t k) * w13 (ix3 e j k)

/-- The gated activation: `(g · logistic g) · u`. -/
def act (x : Hid) (w13 : W13) (e : Fin 8) (t : Fin 16384) (i : Fin 1024) : EReal :=
  proj x w13 e t (lo i) * Ideal.logistic (proj x w13 e t (lo i)) * proj x w13 e t (hi i)

/-- The activation against row `h` of expert `e`'s down projection. -/
def down (x : Hid) (w13 : W13) (w2 : W2) (e : Fin 8) (t : Fin 16384) (h : Fin 2048) : EReal :=
  ∑ i : Fin 1024, act x w13 e t i * w2 (ix3 e h i)

/-- Expert `e`'s contribution to the result at `(t, h)`. -/
def term (coef : Fin 8 → Fin 16384 → EReal) (x : Hid) (w13 : W13) (w2 : W2) (e : Fin 8) (t : Fin 16384) (h : Fin 2048) : EReal :=
  coef e t * down x w13 w2 e t h

/-- The first `n` experts' contributions, added in order onto zero. -/
def accum (coef : Fin 8 → Fin 16384 → EReal) (x : Hid) (w13 : W13) (w2 : W2) (t : Fin 16384) (h : Fin 2048) : ℕ → EReal
  | 0 => 0
  | n + 1 => accum coef x w13 w2 t h n + (if hn : n < 8 then term coef x w13 w2 ⟨n, hn⟩ t h else 0)

theorem accum_zero (coef : Fin 8 → Fin 16384 → EReal) (x : Hid) (w13 : W13) (w2 : W2) (t : Fin 16384) (h : Fin 2048) :
    accum coef x w13 w2 t h 0 = 0 := rfl

theorem accum_succ (coef : Fin 8 → Fin 16384 → EReal) (x : Hid) (w13 : W13) (w2 : W2) (t : Fin 16384) (h : Fin 2048)
    (n : ℕ) (hn : n < 8) :
    accum coef x w13 w2 t h (n + 1) = accum coef x w13 w2 t h n + term coef x w13 w2 ⟨n, hn⟩ t h := by
  show accum coef x w13 w2 t h n + (if hn : n < 8 then term coef x w13 w2 ⟨n, hn⟩ t h else 0) = _
  rw [dif_pos hn]

/-- The result: all eight experts. -/
def G (coef : Fin 8 → Fin 16384 → EReal) (x : Hid) (w13 : W13) (w2 : W2) (t : Fin 16384) (h : Fin 2048) : EReal :=
  accum coef x w13 w2 t h 8

end Cert.MoeSpec

end
-- ==== Proof.KI.Blocks.lean ====
/-
  The region's input blocks, read at coordinates.

  The arrays the windows stage are what the host operations before the region made of the arguments: the hidden
  states and the two weight arrays converted to the matmul format (the identity on the extended reals), and the eight
  coefficient rows stacked into an array of shape [8, 16384, 1]. Point `t` of the grid is token tile `t / 8` and
  expert `t % 8`: the hidden-state window's block is rows `256 · (t / 8) …` of the hidden states, the weight
  windows' blocks are expert `t % 8`'s slices, and the coefficient window's block is rows `256 · (t / 8) …` of
  expert `t % 8`'s coefficient row. So each block entry is an entry of an argument array (or of a coefficient
  row) at the coordinates below.
-/
import proofs.«109700_j71141838291315_1_alg».proof.Proof.KI.Frame
import proofs.«109700_j71141838291315_1_alg».proof.Proof.Stack
import proofs.«109700_j71141838291315_1_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.StableHlo Idealize.ShloMosaic.ValueIdx

/-- The routing coefficient of every token for the expert numbered `ce`, as the host operations before the region compute
    it: the router weight of each slot routed to the expert, zero for the other slots, summed over the two slots. -/
def kcoef {F : FTy → Type} [FloatOps F] (ce : BitVec 32) (x1 : (⟨S16384x2, .i32⟩ : BufTy).Contents (Elt F)) (x2 : (⟨S16384x2, .f32⟩ : BufTy).Contents (Elt F)) :
    (⟨S16384, .f32⟩ : BufTy).Contents (Elt F) :=
  Host.reduceAdd (select (cmpi .eq x1 (broadcastInDim S16384x2 ![] bcast_S_S16384x2 (constantI S_ 32 ce))) x2 (broadcastInDim S16384x2 ![] bcast_S_S16384x2 (id (constant S_ .f32 0x00000000#32)))) (constant S_ .f32 0x00000000#32) reducesTo_S16384x2_S16384_d1 h_S_

section entry

variable {F : FTy → Type} [FloatOps F]
variable (m : (ℓ : Loc nD τ sig) → Buf (Elt F) ℓ)

set_option maxHeartbeats 4000000 in
/-- At region entry the staged hidden states are the argument, converted. -/
theorem V_hidden (c : Dev nD) : V m c main_v42 = (truncf (F := F) (s := S16384x2048) .bf16 (m ((c : Thread nD τ).loc main_arg0)) bitsLt_bf16_f32 : FVec F S16384x2048 .bf16) := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 4000000 in
/-- At region entry the staged fused weights are the argument, converted. -/
theorem V_w13 (c : Dev nD) : V m c main_v43 = (truncf (F := F) (s := S8x2048x2048) .bf16 (m ((c : Thread nD τ).loc main_arg3)) bitsLt_bf16_f32 : FVec F S8x2048x2048 .bf16) := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 4000000 in
/-- At region entry the staged down weights are the argument, converted. -/
theorem V_w2 (c : Dev nD) : V m c main_v44 = (truncf (F := F) (s := S8x2048x1024) .bf16 (m ((c : Thread nD τ).loc main_arg4)) bitsLt_bf16_f32 : FVec F S8x2048x1024 .bf16) := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 4000000 in
/-- At region entry the staged coefficients are the eight experts' coefficient rows, stacked. -/
theorem V_coef (c : Dev nD) : V m c main_v41 = (broadcastInDim S8x16384x1 ![0, 1] bcast_S8x16384_S8x16384x1_0_1 (concatenate S8x16384 0 [⟨S1x16384, broadcastInDim S1x16384 ![1] bcast_S16384_S1x16384_1 (kcoef 0#32 (m ((c : Thread nD τ).loc main_arg1)) (m ((c : Thread nD τ).loc main_arg2)))⟩, ⟨S1x16384, broadcastInDim S1x16384 ![1] bcast_S16384_S1x16384_1 (kcoef 1#32 (m ((c : Thread nD τ).loc main_arg1)) (m ((c : Thread nD τ).loc main_arg2)))⟩, ⟨S1x16384, broadcastInDim S1x16384 ![1] bcast_S16384_S1x16384_1 (kcoef 2#32 (m ((c : Thread nD τ).loc main_arg1)) (m ((c : Thread nD τ).loc main_arg2)))⟩, ⟨S1x16384, broadcastInDim S1x16384 ![1] bcast_S16384_S1x16384_1 (kcoef 3#32 (m ((c : Thread nD τ).loc main_arg1)) (m ((c : Thread nD τ).loc main_arg2)))⟩, ⟨S1x16384, broadcastInDim S1x16384 ![1] bcast_S16384_S1x16384_1 (kcoef 4#32 (m ((c : Thread nD τ).loc main_arg1)) (m ((c : Thread nD τ).loc main_arg2)))⟩, ⟨S1x16384, broadcastInDim S1x16384 ![1] bcast_S16384_S1x16384_1 (kcoef 5#32 (m ((c : Thread nD τ).loc main_arg1)) (m ((c : Thread nD τ).loc main_arg2)))⟩, ⟨S1x16384, broadcastInDim S1x16384 ![1] bcast_S16384_S1x16384_1 (kcoef 6#32 (m ((c : Thread nD τ).loc main_arg1)) (m ((c : Thread nD τ).loc main_arg2)))⟩, ⟨S1x16384, broadcastInDim S1x16384 ![1] bcast_S16384_S1x16384_1 (kcoef 7#32 (m ((c : Thread nD τ).loc main_arg1)) (m ((c : Thread nD τ).loc main_arg2)))⟩] concatenates_S1x16384_S1x16384_S1x16384_S1x16384_S1x16384_S1x16384_S1x16384_S1x16384_S8x16384_d0) : FVec F S8x16384x1 .f32) := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

end entry

/-! ## The index maps, decided over the grid -/

/-- Point `t` is token tile `t / 8` and expert `t % 8`: each window's block index on each axis. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 3) = t.val % 8 ∧ win0_3.index t (1 : Fin 3) = t.val / 8 ∧ win0_3.index t (2 : Fin 3) = 0
    ∧ win0_4.index t (0 : Fin 2) = t.val / 8 ∧ win0_4.index t (1 : Fin 2) = 0 :=
  (by decide +kernel : ∀ t : Fin grid0.N, _)

theorem N_512 : cfg0.N = 512 := N_0

/-- The expert of a point. -/
def expertOf (t : Fin cfg0.N) : Fin 8 := ⟨t.val % 8, Nat.mod_lt _ (by decide)⟩
/-- Row `r` of a point's token tile, as a token. -/
def tokenOf (t : Fin cfg0.N) (r : Fin 256) : Fin 16384 :=
  ⟨256 * (t.val / 8) + r.val, by have h1 : t.val < 512 := lt_of_lt_of_eq t.isLt N_512; have h2 := r.isLt; omega⟩

/-! ## The blocks at coordinates, on the extended reals -/

section ideal

variable (m : (ℓ : Loc nD τ sig) → Buf (Elt Ideal) ℓ)

/-- The hidden states, the fused weights and the down weights the program was launched with. -/
abbrev X (c : Dev nD) : Cert.MoeSpec.Hid := m ((c : Thread nD τ).loc main_arg0)
abbrev A13 (c : Dev nD) : Cert.MoeSpec.W13 := m ((c : Thread nD τ).loc main_arg3)
abbrev A2 (c : Dev nD) : Cert.MoeSpec.W2 := m ((c : Thread nD τ).loc main_arg4)
/-- The routing coefficient of expert `e` and token `t`. -/
def coefK (c : Dev nD) : Fin 8 → Fin 16384 → EReal :=
  fun e t => kcoef (F := Ideal) (BitVec.ofNat 32 e.val) (m ((c : Thread nD τ).loc main_arg1)) (m ((c : Thread nD τ).loc main_arg2)) (ix1 t)

/-- The hidden-state block at a point: rows of the point's token tile. -/
theorem blk0_apply (c : Dev nD) (t : Fin cfg0.N) (r : Fin 256) (k : Fin 2048) :
    (iblk m c 0 t : Vec Ideal S256x2048 .bf16) (ix2 r k) = X m c (ix2 (tokenOf t r) k) := by
  obtain ⟨e0, e1, -⟩ := idx_facts t
  unfold iblk
  rw [View.read_apply]
  show V m c main_v42 _ = _
  rw [V_hidden]
  show m ((c : Thread nD τ).loc main_arg0) _ = m ((c : Thread nD τ).loc main_arg0) _
  congr 1
  funext a
  apply Fin.ext
  match a with
  | ⟨0, _⟩ => show win0_0.index t (0 : Fin 2) * 256 + 1 * r.val = 256 * (t.val / 8) + r.val; rw [e0]; omega
  | ⟨1, _⟩ => show win0_0.index t (1 : Fin 2) * 2048 + 1 * k.val = k.val; rw [e1]; omega

/-- The fused-weights block at a point: the point's expert's slice. -/
theorem blk1_apply (c : Dev nD) (t : Fin cfg0.N) (j : Fin 2048) (k : Fin 2048) :
    (iblk m c 1 t : Vec Ideal S1x2048x2048 .bf16) (ix3 0 j k) = A13 m c (ix3 (expertOf t) j k) := by
  obtain ⟨-, -, e2, e3, e4, -⟩ := idx_facts t
  unfold iblk
  rw [View.read_apply]
  show V m c main_v43 _ = _
  rw [V_w13]
  show m ((c : Thread nD τ).loc main_arg3) _ = m ((c : Thread nD τ).loc main_arg3) _
  congr 1
  funext a
  apply Fin.ext
  match a with
  | ⟨0, _⟩ => show win0_1.index t (0 : Fin 3) * 1 + 1 * 0 = t.val % 8; rw [e2]; omega
  | ⟨1, _⟩ => show win0_1.index t (1 : Fin 3) * 2048 + 1 * j.val = j.val; rw [e3]; omega
  | ⟨2, _⟩ => show win0_1.index t (2 : Fin 3) * 2048 + 1 * k.val = k.val; rw [e4]; omega

/-- The down-weights block at a point: the point's expert's slice. -/
theorem blk2_apply (c : Dev nD) (t : Fin cfg0.N) (h : Fin 2048) (i : Fin 1024) :
    (iblk m c 2 t : Vec Ideal S1x2048x1024 .bf16) (ix3 0 h i) = A2 m c (ix3 (expertOf t) h i) := by
  obtain ⟨-, -, -, -, -, e5, e6, e7, -⟩ := idx_facts t
  unfold iblk
  rw [View.read_apply]
  show V m c main_v44 _ = _
  rw [V_w2]
  show m ((c : Thread nD τ).loc main_arg4) _ = m ((c : Thread nD τ).loc main_arg4) _
  congr 1
  funext a
  apply Fin.ext
  match a with
  | ⟨0, _⟩ => show win0_2.index t (0 : Fin 3) * 1 + 1 * 0 = t.val % 8; rw [e5]; omega
  | ⟨1, _⟩ => show win0_2.index t (1 : Fin 3) * 2048 + 1 * h.val = h.val; rw [e6]; omega
  | ⟨2, _⟩ => show win0_2.index t (2 : Fin 3) * 1024 + 1 * i.val = i.val; rw [e7]; omega

/-- The coefficient block at a point: the point's expert's coefficients of the tile's tokens. -/
theorem blk3_apply (c : Dev nD) (t : Fin cfg0.N) (r : Fin 256) :
    (iblk m c 3 t : Vec Ideal S1x256x1 .f32) (ix3 0 r 0) = coefK m c (expertOf t) (tokenOf t r) := by
  obtain ⟨-, -, -, -, -, -, -, -, e8, e9, e10, -⟩ := idx_facts t
  unfold iblk
  rw [View.read_apply]
  show V m c main_v41 _ = _
  rw [V_coef]
  have hi : (((cfg0.win 3).blk t).view.emb (ix3 (0 : Fin 1) r (0 : Fin 1)) : S8x16384x1.Idx) = ix3 (expertOf t) (tokenOf t r) (0 : Fin 1) := by
    funext a
    apply Fin.ext
    match a with
    | ⟨0, _⟩ => show win0_3.index t (0 : Fin 3) * 1 + 1 * 0 = t.val % 8; rw [e8]; omega
    | ⟨1, _⟩ => show win0_3.index t (1 : Fin 3) * 256 + 1 * r.val = 256 * (t.val / 8) + r.val; rw [e9]; omega
    | ⟨2, _⟩ => show win0_3.index t (2 : Fin 3) * 1 + 1 * 0 = 0; rw [e10]
  rw [hi]
  exact Cert.MoeStack.stack_apply (fun e : Fin 8 => kcoef (F := Ideal) (BitVec.ofNat 32 e.val) (m ((c : Thread nD τ).loc main_arg1)) (m ((c : Thread nD τ).loc main_arg2)))
    bcast_S16384_S1x16384_1 concatenates_S1x16384_S1x16384_S1x16384_S1x16384_S1x16384_S1x16384_S1x16384_S1x16384_S8x16384_d0
    bcast_S8x16384_S8x16384x1_0_1 (expertOf t) (tokenOf t r)

end ideal

end Cert.KernelIdeal.Val

end
-- ==== Proof.Payload.lean ====
/-
  The kernel body's arithmetic read at one element, on the extended reals.

  At one expert the body holds a block of 256 tokens' hidden states `x` (256 × 2048), that expert's fused gate and
  value weights `w13` (2048 × 2048, stored with a leading axis of size one), its down-projection weights `w2`
  (2048 × 1024, likewise), one routing coefficient per token (256 × 1, likewise) and the output block as it stands.
  It forms the fused projection `p[r, j] = ∑ k, x[r, k] · w13[j, k]` by contracting the LAST axis of both operands into
  a zero accumulator, cuts it into the gate half `g = p[:, 0:1024]` and the value half `u = p[:, 1024:2048]`, forms the
  gated activation `(g · logistic g) · u` (the change of float format after it is the identity on the extended reals),
  contracts that against `w2` in the same way, scales each row by its token's coefficient and adds the result onto
  the output block. At the first expert of a tile the block is first set to zero.

  Every operation that is not elementwise is read at an index once, over plain variables of the literal shapes: the
  three casts that drop the leading unit axis, the column broadcast 256 × 1 → 256 × 2048, the two half cuts and the two
  contractions. The two stored values at `(r, h)` are then a composition of those readings.
-/
import proofs.«109700_j71141838291315_1_alg».proof.Proof.Gen.KernelIdeal.Skeleton
import proofs.«109700_j71141838291315_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.MoePay

open Cert.KernelIdeal Cert.KernelIdeal.Gen Idealize.ShloMosaic Idealize.ShloMosaic.ValueIdx

/-! ## The layout operations at an index -/

section Layout
variable {α : Type}

/-- The fused weights' block `[1, 2048, 2048]` viewed `[2048, 2048]` reads `(j, k)` at `(0, j, k)`. -/
theorem w13_block_apply (x : S1x2048x2048.Idx → α) (hc : S1x2048x2048.ShapeCasts S2048x2048) (j k : Fin 2048) :
    shapeCast S2048x2048 x hc (ix2 j k) = x (ix3 0 j k) :=
  shapeCast_1ab_ab_apply x hc j k

/-- The down-projection weights' block `[1, 2048, 1024]` viewed `[2048, 1024]` reads `(h, i)` at `(0, h, i)`. -/
theorem w2_block_apply (x : S1x2048x1024.Idx → α) (hc : S1x2048x1024.ShapeCasts S2048x1024) (h : Fin 2048) (i : Fin 1024) :
    shapeCast S2048x1024 x hc (ix2 h i) = x (ix3 0 h i) :=
  shapeCast_1ab_ab_apply x hc h i

/-- The coefficients' block `[1, 256, 1]` viewed `[256, 1]` reads `(r, c)` at `(0, r, c)`. -/
theorem coef_block_apply (x : S1x256x1.Idx → α) (hc : S1x256x1.ShapeCasts S256x1) (r : Fin 256) (c : Fin 1) :
    shapeCast S256x1 x hc (ix2 r c) = x (ix3 0 r c) :=
  shapeCast_1ab_ab_apply x hc r c

/-- One column `[256, 1]` broadcast over 2048 columns reads, at `(r, j)`, the column at row `r`. -/
theorem coef_column_apply (x : S256x1.Idx → α) (hb : S256x1.Broadcasts S256x2048) (r : Fin 256) (j : Fin 2048) :
    broadcastTo S256x2048 x hb (ix2 r j) = x (ix2 r (0 : Fin 1)) := by
  refine broadcastTo_apply x hb (ix2 r j) (ix2 r (0 : Fin 1)) fun ax => ?_
  match ax with
  | ⟨0, _⟩ =>
    show r.val = if (256 : ℕ) = 1 then 0 else r.val
    rw [if_neg (by decide)]
  | ⟨1, _⟩ => rfl

/-- The gate half `[:, 0:1024]` of a `[256, 2048]` array reads `(r, i)` at column `i`. -/
theorem gate_half_apply (x : S256x2048.Idx → α) (hs : S256x2048.Slices ![0, 0] S256x1024) (r : Fin 256) (i : Fin 1024) :
    extractStridedSlice S256x1024 ![0, 0] x hs (ix2 r i) = x (ix2 r (MoeSpec.lo i)) :=
  slice2_axis1_apply 0 x hs r i (MoeSpec.lo i) (Nat.zero_add i.val).symm

/-- The value half `[:, 1024:2048]` of a `[256, 2048]` array reads `(r, i)` at column `1024 + i`. -/
theorem value_half_apply (x : S256x2048.Idx → α) (hs : S256x2048.Slices ![0, 1024] S256x1024) (r : Fin 256) (i : Fin 1024) :
    extractStridedSlice S256x1024 ![0, 1024] x hs (ix2 r i) = x (ix2 r (MoeSpec.hi i)) :=
  slice2_axis1_apply 1024 x hs r i (MoeSpec.hi i) rfl

end Layout

/-- The logistic function of a vector at an index is the extended reals' logistic of the element. -/
theorem logistic_apply {s : Shape} {φ : FTy} (a : FVec Ideal s φ) (i : s.Idx) : logistic a i = Ideal.logistic (a i) := rfl

/-! ## The fused projection: a contraction of the last axis of both operands, 2048 terms -/

theorem proj_lhs_row (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem proj_lhs_col (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem proj_rhs_row (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem proj_rhs_col (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The fused projection at `(r, j)`: row `r` of the left operand against ROW `j` of the right one. -/
theorem proj_apply (a : FVec Ideal S256x2048 .bf16) (b : FVec Ideal S2048x2048 .bf16) (r : Fin 256) (j : Fin 2048) :
    matmul dot_S256x2048_S2048x2048_S256x2048_1_1_0_0_n_n none a b (constant (F := Ideal) S256x2048 .f32 0x00000000#32) (ix2 r j)
      = ∑ k : Fin 2048, a (ix2 r k) * b (ix2 j k) := by
  refine (Ideal.matmul_constant_zero_apply dot_S256x2048_S2048x2048_S256x2048_1_1_0_0_n_n none a b (ix2 r j)).trans ?_
  rw [← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 r j) ((contrEquiv1 dot_S256x2048_S2048x2048_S256x2048_1_1_0_0_n_n 2048 rfl rfl).symm k) = ix2 r k := funext fun c => Fin.ext (by
    match c with
    | ⟨0, _⟩ => exact proj_lhs_row _ _
    | ⟨1, _⟩ => exact (proj_lhs_col _ _).trans hk)
  have er : dot_S256x2048_S2048x2048_S256x2048_1_1_0_0_n_n.rhsIdx (ix2 r j) ((contrEquiv1 dot_S256x2048_S2048x2048_S256x2048_1_1_0_0_n_n 2048 rfl rfl).symm k) = ix2 j k := funext fun c => Fin.ext (by
    match c with
    | ⟨0, _⟩ => exact proj_rhs_row _ _
    | ⟨1, _⟩ => exact (proj_rhs_col _ _).trans hk)
  rw [el, er]

/-! ## The down projection: the same contraction, 1024 terms -/

theorem down_lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem down_lhs_col (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem down_rhs_row (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem down_rhs_col (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The down projection at `(r, h)`: row `r` of the left operand against ROW `h` of the right one. -/
theorem down_apply (a : FVec Ideal S256x1024 .bf16) (b : FVec Ideal S2048x1024 .bf16) (r : Fin 256) (h : Fin 2048) :
    matmul dot_S256x1024_S2048x1024_S256x2048_1_1_0_0_n_n none a b (constant (F := Ideal) S256x2048 .f32 0x00000000#32) (ix2 r h)
      = ∑ i : Fin 1024, a (ix2 r i) * b (ix2 h i) := by
  refine (Ideal.matmul_constant_zero_apply dot_S256x1024_S2048x1024_S256x2048_1_1_0_0_n_n none a b (ix2 r h)).trans ?_
  rw [← Equiv.sum_comp (contrEquiv1 dot_S256x1024_S2048x1024_S256x2048_1_1_0_0_n_n 1024 rfl rfl).symm]
  refine Finset.sum_congr rfl fun i _ => ?_
  have hi := contrEquiv1_symm_val dot_S256x1024_S2048x1024_S256x2048_1_1_0_0_n_n 1024 rfl rfl i
  have el : dot_S256x1024_S2048x1024_S256x2048_1_1_0_0_n_n.lhsIdx (ix2 r h) ((contrEquiv1 dot_S256x1024_S2048x1024_S256x2048_1_1_0_0_n_n 1024 rfl rfl).symm i) = ix2 r i := funext fun c => Fin.ext (by
    match c with
    | ⟨0, _⟩ => exact down_lhs_row _ _
    | ⟨1, _⟩ => exact (down_lhs_col _ _).trans hi)
  have er : dot_S256x1024_S2048x1024_S256x2048_1_1_0_0_n_n.rhsIdx (ix2 r h) ((contrEquiv1 dot_S256x1024_S2048x1024_S256x2048_1_1_0_0_n_n 1024 rfl rfl).symm i) = ix2 h i := funext fun c => Fin.ext (by
    match c with
    | ⟨0, _⟩ => exact down_rhs_row _ _
    | ⟨1, _⟩ => exact (down_rhs_col _ _).trans hi)
  rw [el, er]

/-! ## The body's values at an index -/

/-- Row `r` of the hidden-state block against row `j` of the expert's fused weights. -/
def blockProj (v3 : Vec Ideal S256x2048 .bf16) (v5 : Vec Ideal S1x2048x2048 .bf16) (r : Fin 256) (j : Fin 2048) : EReal :=
  ∑ k : Fin 2048, v3 (ix2 r k) * v5 (ix3 0 j k)

theorem blockProj_def (v3 : Vec Ideal S256x2048 .bf16) (v5 : Vec Ideal S1x2048x2048 .bf16) (r : Fin 256) (j : Fin 2048) :
    blockProj v3 v5 r j = ∑ k : Fin 2048, v3 (ix2 r k) * v5 (ix3 0 j k) := rfl

/-- The fused projection of the two loaded blocks, through their casts, at `(r, j)`. -/
theorem fused_apply (v3 : Vec Ideal S256x2048 .bf16) (v5 : Vec Ideal S1x2048x2048 .bf16)
    (hc3 : S256x2048.ShapeCasts S256x2048) (hc5 : S1x2048x2048.ShapeCasts S2048x2048) (r : Fin 256) (j : Fin 2048) :
    matmul (φ₁ := .bf16) (φ₂ := .bf16) dot_S256x2048_S2048x2048_S256x2048_1_1_0_0_n_n none (shapeCast S256x2048 v3 hc3) (shapeCast S2048x2048 v5 hc5) (constant (F := Ideal) S256x2048 .f32 0x00000000#32) (ix2 r j)
      = blockProj v3 v5 r j := by
  refine (proj_apply _ _ r j).trans ?_
  refine Finset.sum_congr rfl fun k _ => ?_
  rw [shapeCast_self, w13_block_apply]

/-- The gated activation `(g · logistic g) · u` of a fused projection `m`, after the change of format, at `(r, i)`. -/
theorem act_apply (m : FVec Ideal S256x2048 .f32) (h0 : S256x2048.Slices ![0, 0] S256x1024)
    (h1 : S256x2048.Slices ![0, 1024] S256x1024) (ht : FTy.bits .bf16 < FTy.bits .f32) (r : Fin 256) (i : Fin 1024) :
    truncf .bf16 (mulf (mulf (extractStridedSlice S256x1024 ![0, 0] m h0) (logistic (extractStridedSlice S256x1024 ![0, 0] m h0)))
        (extractStridedSlice S256x1024 ![0, 1024] m h1)) ht (ix2 r i)
      = m (ix2 r (MoeSpec.lo i)) * Ideal.logistic (m (ix2 r (MoeSpec.lo i))) * m (ix2 r (MoeSpec.hi i)) := by
  rw [truncf_apply, mulf_apply, mulf_apply, logistic_apply, gate_half_apply, value_half_apply]

/-- The value stored at the first expert of a tile is zero everywhere. -/
theorem pay1_apply (r : Fin 256) (h : Fin 2048) : k0_pay1 (F := Ideal) (ix2 r h) = 0 := by
  unfold k0_pay1
  exact Ideal.ofBits_zero_f32

/-- The value stored at every expert, at `(r, h)`: the output block there plus the token's coefficient times the
    down projection of the gated activation of the fused projection. -/
theorem pay2_apply (v3 : Vec Ideal S256x2048 .bf16) (v5 : Vec Ideal S1x2048x2048 .bf16) (v14 : Vec Ideal S1x2048x1024 .bf16)
    (v17 : Vec Ideal S1x256x1 .f32) (v19 : Vec Ideal S256x2048 .f32) (r : Fin 256) (h : Fin 2048) :
    k0_pay2 (F := Ideal) v3 v5 v14 v17 v19 (ix2 r h)
      = v19 (ix2 r h) + v17 (ix3 0 r 0) * ∑ i : Fin 1024,
          (blockProj v3 v5 r (MoeSpec.lo i) * Ideal.logistic (blockProj v3 v5 r (MoeSpec.lo i))
            * blockProj v3 v5 r (MoeSpec.hi i)) * v14 (ix3 0 h i) := by
  unfold k0_pay2
  refine (addf_apply _ _ (ix2 r h)).trans ?_
  refine congrArg₂ (· + ·) (congrFun (shapeCast_self v19 _) (ix2 r h)) ?_
  refine (mulf_apply _ _ (ix2 r h)).trans ?_
  refine congrArg₂ (· * ·) ((coef_column_apply _ _ r h).trans (coef_block_apply v17 _ r 0)) ?_
  refine (down_apply _ _ r h).trans ?_
  refine Finset.sum_congr rfl fun i _ => ?_
  refine congrArg₂ (· * ·) ?_ (w2_block_apply v14 _ h i)
  refine (act_apply _ _ _ _ r i).trans ?_
  rw [fused_apply v3 v5 _ _ r (MoeSpec.lo i), fused_apply v3 v5 _ _ r (MoeSpec.hi i)]

/-- The same with the fused projection written out as its sum. -/
theorem pay2_apply_sums (v3 : Vec Ideal S256x2048 .bf16) (v5 : Vec Ideal S1x2048x2048 .bf16) (v14 : Vec Ideal S1x2048x1024 .bf16)
    (v17 : Vec Ideal S1x256x1 .f32) (v19 : Vec Ideal S256x2048 .f32) (r : Fin 256) (h : Fin 2048) :
    k0_pay2 (F := Ideal) v3 v5 v14 v17 v19 (ix2 r h)
      = v19 (ix2 r h) + v17 (ix3 0 r 0) * ∑ i : Fin 1024,
          ((∑ k : Fin 2048, v3 (ix2 r k) * v5 (ix3 0 (MoeSpec.lo i) k))
            * Ideal.logistic (∑ k : Fin 2048, v3 (ix2 r k) * v5 (ix3 0 (MoeSpec.lo i) k))
            * (∑ k : Fin 2048, v3 (ix2 r k) * v5 (ix3 0 (MoeSpec.hi i) k))) * v14 (ix3 0 h i) :=
  pay2_apply v3 v5 v14 v17 v19 r h

end Cert.MoePay

end
-- ==== Proof.KI.Value.lean ====
/-
  The kernel's result array, on the extended reals.

  Within a token tile the output block's buffer is updated expert by expert: after expert `e` it holds, at row `r`
  and column `h`, the first `e + 1` experts' contributions to token `256 · tile + r` added in order onto zero
  (`chain_value`, by induction on the point: a first expert starts from the zero block, a later one adds its
  contribution to what the expert before left). The block is written back after the tile's last expert, when it
  holds all eight contributions; the 64 tiles' blocks tile the result array, so the array ends as the
  specification's function of the arguments, index by index.
-/
import proofs.«109700_j71141838291315_1_alg».proof.Proof.KI.Pieces
import proofs.«109700_j71141838291315_1_alg».proof.Proof.KI.Blocks
import proofs.«109700_j71141838291315_1_alg».proof.Proof.Payload
import proofs.«109700_j71141838291315_1_alg».proof.Proof.Spec

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.ValueIdx

variable (m : (ℓ : Loc nD τ sig) → Buf (Elt Ideal) ℓ) (ρ : Dev nD → PrngReg)

/-- The body's update at a point, read at a row and a column: what the block held, plus the point's expert's
    contribution to the row's token. -/
theorem step_apply (c : Dev nD) (t : Fin cfg0.N) (prev : Vec Ideal S256x2048 .f32) (r : Fin 256) (h : Fin 2048) :
    k0_pay2 (F := Ideal) (iblk m c 0 t) (iblk m c 1 t) (iblk m c 2 t) (iblk m c 3 t) prev (ix2 r h)
      = prev (ix2 r h) + Cert.MoeSpec.term (coefK m c) (X m c) (A13 m c) (A2 m c) (expertOf t) (tokenOf t r) h := by
  refine (Cert.MoePay.pay2_apply_sums _ _ _ _ _ r h).trans ?_
  unfold Cert.MoeSpec.term Cert.MoeSpec.down Cert.MoeSpec.act Cert.MoeSpec.proj
  simp only [blk0_apply, blk1_apply, blk2_apply, blk3_apply]

/-- The zero block the first expert of a tile stores. -/
theorem zero_apply (r : Fin 256) (h : Fin 2048) : k0_pay1 (F := Ideal) (ix2 r h) = 0 := Cert.MoePay.pay1_apply r h

/-- After point `n` the output block holds, at row `r` and column `h`, the contributions of the experts up to the
    point's, in order. -/
theorem chain_value (c : Dev nD) (r : Fin 256) (h : Fin 2048) : ∀ (n : ℕ) (hn : n < cfg0.N),
    chain m c n hn (ix2 r h)
      = Cert.MoeSpec.accum (coefK m c) (X m c) (A13 m c) (A2 m c) (tokenOf ⟨n, hn⟩ r) h (n % 8 + 1)
  | 0, hn => by
    show k0_pay2 (F := Ideal) _ _ _ _ _ (ix2 r h) = _
    rw [step_apply, zero_apply, Cert.MoeSpec.accum_succ _ _ _ _ _ _ 0 (by decide), Cert.MoeSpec.accum_zero]
    rfl
  | n + 1, hn => by
    by_cases h0 : (n + 1) % 8 = 0
    · show (if (n + 1) % 8 = 0 then _ else _ : Vec Ideal S256x2048 .f32) (ix2 r h) = _
      rw [if_pos h0, step_apply, zero_apply, h0, Cert.MoeSpec.accum_succ _ _ _ _ _ _ 0 (by decide), Cert.MoeSpec.accum_zero]
      have he : expertOf (⟨n + 1, hn⟩ : Fin cfg0.N) = ⟨0, by decide⟩ := Fin.ext h0
      rw [he]
    · show (if (n + 1) % 8 = 0 then _ else _ : Vec Ideal S256x2048 .f32) (ix2 r h) = _
      rw [if_neg h0, step_apply, chain_value c r h n (Nat.lt_of_succ_lt hn)]
      have hm : (n + 1) % 8 = n % 8 + 1 := by omega
      have hlt : n % 8 + 1 < 8 := by omega
      have htok : tokenOf (⟨n, Nat.lt_of_succ_lt hn⟩ : Fin cfg0.N) r = tokenOf (⟨n + 1, hn⟩ : Fin cfg0.N) r :=
        Fin.ext (by show 256 * (n / 8) + r.val = 256 * ((n + 1) / 8) + r.val; omega)
      have he : expertOf (⟨n + 1, hn⟩ : Fin cfg0.N) = ⟨n % 8 + 1, hlt⟩ := Fin.ext hm
      rw [htok, he, hm, Cert.MoeSpec.accum_succ _ _ _ _ _ _ (n % 8 + 1) hlt]

/-- The result array, as the specification's function of the arguments. -/
def result (c : Dev nD) : S16384x2048.Idx → EReal :=
  fun i => Cert.MoeSpec.G (coefK m c) (X m c) (A13 m c) (A2 m c) (i 0) (i 1)

/-- What a tile's last expert writes back is the tile's block of `result`. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  obtain ⟨-, -, -, -, -, -, -, -, -, -, -, e11, e12⟩ := idx_facts t
  show (cfg0.win 4).cut (grid0.coords t) ((dats m 0 c).after 4 t) = _
  rw [after4, outsAt_eq]
  funext j
  obtain ⟨r, hh, rfl⟩ : ∃ (r : Fin 256) (hh : Fin 2048), j = ix2 r hh := ⟨j 0, j 1, eq_ix2 j⟩
  show chain m c t.val t.isLt (ix2 r hh) = result m c (((cfg0.win 4).blk t).view.emb (ix2 r hh))
  rw [chain_value, h7]
  have hi : (((cfg0.win 4).blk t).view.emb (ix2 r hh) : S16384x2048.Idx) = ix2 (tokenOf t r) hh := by
    funext a
    apply Fin.ext
    match a with
    | ⟨0, _⟩ => show win0_4.index t (0 : Fin 2) * 256 + 1 * r.val = 256 * (t.val / 8) + r.val; rw [e11]; omega
    | ⟨1, _⟩ => show win0_4.index t (1 : Fin 2) * 2048 + 1 * hh.val = hh.val; rw [e12]; omega
  rw [hi]
  rfl

/-- An index of the result array is in point `t`'s block iff each coordinate is in the block's range on its axis. -/
theorem mem_blk (t : Fin cfg0.N) (i : S16384x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v45).slice (win0_4.rect t)).set ↔ _
  rw [View.set_slice_whole, Rect.mem_set_unit]
  exact Iff.rfl

/-- Every index of the result array is in the block some tile's last expert writes back. -/
theorem cover (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have hlt : 8 * ((i 0).val / 256) + 7 < cfg0.N := lt_of_lt_of_eq (by omega : 8 * ((i 0).val / 256) + 7 < 512) N_512.symm
  refine ⟨⟨8 * ((i 0).val / 256) + 7, hlt⟩, (flush0_4 _).mpr (by show (8 * ((i 0).val / 256) + 7) % 8 = 7; omega), ?_⟩
  obtain ⟨-, -, -, -, -, -, -, -, -, -, -, e11, e12⟩ := idx_facts ⟨8 * ((i 0).val / 256) + 7, hlt⟩
  rw [mem_blk]
  intro a
  match a with
  | ⟨0, _⟩ =>
    show win0_4.index _ (0 : Fin 2) * 256 ≤ (i 0).val ∧ (i 0).val < win0_4.index _ (0 : Fin 2) * 256 + 256
    rw [e11]; show (8 * ((i 0).val / 256) + 7) / 8 * 256 ≤ (i 0).val ∧ (i 0).val < (8 * ((i 0).val / 256) + 7) / 8 * 256 + 256; omega
  | ⟨1, _⟩ =>
    show win0_4.index _ (1 : Fin 2) * 2048 ≤ (i 1).val ∧ (i 1).val < win0_4.index _ (1 : Fin 2) * 2048 + 2048
    rw [e12]; omega

/-- The result array after the run. -/
theorem final (c : Dev nD) : (dats m 0 c).arrAt 4 cfg0.N = result m c :=
  (dats m 0 c).arrAt_eq_of_cover 4 (result m c) (flushed_eq m c) (cover)

/-- The kernel's run with its result named: the result array is the specification's function of the launch
    arguments, and the arguments are unchanged. -/
theorem run : θ_run defs (onTc (τ := τ) (main (F := Ideal))) ⟨m, fun _ => 0, ρ⟩ fun r => ∀ c : Dev nD,
      r.2.mem ((c : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.RefTerm.lean ====
/-
  The reference program's result as one composed term of its argument arrays.

  The reference runs the eight experts one after the other on whole arrays. For expert `e` it forms the routing
  coefficient of every token (the router weights of the slots routed to `e`, summed over the two slots), takes the
  expert's slice of the fused weights, multiplies the hidden states by its transpose, splits the product into
  its gate and value halves, applies `g · (1 / (1 + exp (−g)))` to the gate half and multiplies by the value half,
  multiplies by the transpose of the expert's slice of the down weights, scales each token's row by its
  coefficient, and adds the product onto the running result, which starts at zero. `expertStep` is one such
  update with the expert's slice offsets and number as parameters; `refTerm` nests the eight.
-/
import proofs.«109700_j71141838291315_1_alg».proof.Proof.Gen.ReferenceIdeal

noncomputable section

namespace Cert.MoeRef

open Cert.ReferenceIdeal Cert.ReferenceIdeal.Gen Idealize.ShloMosaic Idealize.ShloMosaic.TcCoe Idealize.SL.Sem

variable {F : FTy → Type} [FloatOps F]

/-- The routing coefficient of every token for the expert numbered `ce`: the router weight of each slot routed to it,
    zero for the other slots, summed over the two slots. -/
def coefArr (ce : BitVec 32) (x1 : (⟨S16384x2, .i32⟩ : BufTy).Contents (Elt F)) (x2 : (⟨S16384x2, .f32⟩ : BufTy).Contents (Elt F)) :
    (⟨S16384, .f32⟩ : BufTy).Contents (Elt F) :=
  Host.reduceAdd (select (cmpi .eq x1 (broadcastInDim S16384x2 ![] bcast_S_S16384x2 (constantI S_ 32 ce))) x2 (broadcastInDim S16384x2 ![] bcast_S_S16384x2 (id (constant S_ .f32 0x00000000#32)))) (constant S_ .f32 0x00000000#32) reducesTo_S16384x2_S16384_d1 h_S_

/-- The hidden states against the transpose of one expert's fused weights (the slice at offsets `off13`). -/
def fusedArr (off13 : Fin 3 → ℕ) (h13 : S8x2048x2048.Slices off13 S1x2048x2048)
    (x0 : (⟨S16384x2048, .f32⟩ : BufTy).Contents (Elt F)) (x3 : (⟨S8x2048x2048, .f32⟩ : BufTy).Contents (Elt F)) :
    (⟨S16384x2048, .f32⟩ : BufTy).Contents (Elt F) :=
  Host.dotGeneral dot_S16384x2048_S2048x2048_S16384x2048_1_0_0_1_n_n none x0 (transpose S2048x2048 [1, 0] (shapeCast _ (extractStridedSlice S1x2048x2048 off13 x3 h13) shapeCasts_S1x2048x2048_S2048x2048) transposes_S2048x2048_S2048x2048_1_0)

/-- One expert's update of the running result `prev`. -/
def expertStep (off13 : Fin 3 → ℕ) (h13 : S8x2048x2048.Slices off13 S1x2048x2048) (off2 : Fin 3 → ℕ) (h2 : S8x2048x1024.Slices off2 S1x2048x1024)
    (ce : BitVec 32)
    (x0 : (⟨S16384x2048, .f32⟩ : BufTy).Contents (Elt F)) (x1 : (⟨S16384x2, .i32⟩ : BufTy).Contents (Elt F)) (x2 : (⟨S16384x2, .f32⟩ : BufTy).Contents (Elt F))
    (x3 : (⟨S8x2048x2048, .f32⟩ : BufTy).Contents (Elt F)) (x4 : (⟨S8x2048x1024, .f32⟩ : BufTy).Contents (Elt F))
    (prev : (⟨S16384x2048, .f32⟩ : BufTy).Contents (Elt F)) : (⟨S16384x2048, .f32⟩ : BufTy).Contents (Elt F) :=
  addf prev (mulf (broadcastInDim S16384x2048 ![0, 1] bcast_S16384x1_S16384x2048_0_1 (broadcastInDim S16384x1 ![0] bcast_S16384_S16384x1_0 (coefArr ce x1 x2))) (Host.dotGeneral dot_S16384x1024_S1024x2048_S16384x2048_1_0_0_1_n_n none (mulf (mulf (extractStridedSlice S16384x1024 ![0, 0] (fusedArr off13 h13 x0 x3) slices_S16384x2048_S16384x1024_0_0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] (fusedArr off13 h13 x0 x3) slices_S16384x2048_S16384x1024_0_0)))))) (extractStridedSlice S16384x1024 ![0, 1024] (fusedArr off13 h13 x0 x3) slices_S16384x2048_S16384x1024_0_1024)) (transpose S1024x2048 [1, 0] (shapeCast _ (extractStridedSlice S1x2048x1024 off2 x4 h2) shapeCasts_S1x2048x1024_S2048x1024) transposes_S2048x1024_S1024x2048_1_0)))

/-- The reference's result: the eight experts' updates, in order, of the zero array. -/
def refTerm (x0 : (⟨S16384x2048, .f32⟩ : BufTy).Contents (Elt F)) (x1 : (⟨S16384x2, .i32⟩ : BufTy).Contents (Elt F)) (x2 : (⟨S16384x2, .f32⟩ : BufTy).Contents (Elt F))
    (x3 : (⟨S8x2048x2048, .f32⟩ : BufTy).Contents (Elt F)) (x4 : (⟨S8x2048x1024, .f32⟩ : BufTy).Contents (Elt F)) : (⟨S16384x2048, .f32⟩ : BufTy).Contents (Elt F) :=
  expertStep ![7, 0, 0] slices_S8x2048x2048_S1x2048x2048_7_0_0 ![7, 0, 0] slices_S8x2048x1024_S1x2048x1024_7_0_0 7#32 x0 x1 x2 x3 x4
  (expertStep ![6, 0, 0] slices_S8x2048x2048_S1x2048x2048_6_0_0 ![6, 0, 0] slices_S8x2048x1024_S1x2048x1024_6_0_0 6#32 x0 x1 x2 x3 x4
  (expertStep ![5, 0, 0] slices_S8x2048x2048_S1x2048x2048_5_0_0 ![5, 0, 0] slices_S8x2048x1024_S1x2048x1024_5_0_0 5#32 x0 x1 x2 x3 x4
  (expertStep ![4, 0, 0] slices_S8x2048x2048_S1x2048x2048_4_0_0 ![4, 0, 0] slices_S8x2048x1024_S1x2048x1024_4_0_0 4#32 x0 x1 x2 x3 x4
  (expertStep ![3, 0, 0] slices_S8x2048x2048_S1x2048x2048_3_0_0 ![3, 0, 0] slices_S8x2048x1024_S1x2048x1024_3_0_0 3#32 x0 x1 x2 x3 x4
  (expertStep ![2, 0, 0] slices_S8x2048x2048_S1x2048x2048_2_0_0 ![2, 0, 0] slices_S8x2048x1024_S1x2048x1024_2_0_0 2#32 x0 x1 x2 x3 x4
  (expertStep ![1, 0, 0] slices_S8x2048x2048_S1x2048x2048_1_0_0 ![1, 0, 0] slices_S8x2048x1024_S1x2048x1024_1_0_0 1#32 x0 x1 x2 x3 x4
  (expertStep ![0, 0, 0] slices_S8x2048x2048_S1x2048x2048_0_0_0 ![0, 0, 0] slices_S8x2048x1024_S1x2048x1024_0_0_0 0#32 x0 x1 x2 x3 x4
  (broadcastInDim S16384x2048 ![] bcast_S_S16384x2048 (constant S_ .f32 0x00000000#32)))))))))

end Cert.MoeRef

end
-- ==== Proof.RefStep.lean ====
/-
  One expert's update of the reference's running result, read at an index, is the specification's term; the
  reference's result is the specification.

  Every stage of an expert's update is read at an index. The slice of the weight array at the expert's offset, flattened
  to a matrix and transposed, only renames the index: entry `(k, j)` is the weight `[e, j, k]`. A contraction of two
  matrices is the sum over the contracted axis of the products. The two halves of the fused projection are its columns
  `i` and `1024 + i`. The constant `0x3F800000` is one, so `g · (1 / (1 + exp (-g)))` is `g` times the logistic function
  of `g`, by the definition of the latter. The coefficient, broadcast along the hidden axis, is the token's coefficient.
  The additions and multiplications come in the specification's own order, so no law of the extended reals is used.
-/
import proofs.«109700_j71141838291315_1_alg».proof.Proof.RefTerm
import proofs.«109700_j71141838291315_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.MoeRef

open Cert.ReferenceIdeal Cert.ReferenceIdeal.Gen Idealize.ShloMosaic Idealize.ShloMosaic.ValueIdx Cert.MoeSpec

/-- The hidden states as the program holds them. -/
abbrev XH := (⟨S16384x2048, .f32⟩ : BufTy).Contents (Elt Ideal)
/-- The routing table. -/
abbrev XT := (⟨S16384x2, .i32⟩ : BufTy).Contents (Elt Ideal)
/-- The router weights. -/
abbrev XR := (⟨S16384x2, .f32⟩ : BufTy).Contents (Elt Ideal)
/-- The fused gate and value weights. -/
abbrev XW13 := (⟨S8x2048x2048, .f32⟩ : BufTy).Contents (Elt Ideal)
/-- The down-projection weights. -/
abbrev XW2 := (⟨S8x2048x1024, .f32⟩ : BufTy).Contents (Elt Ideal)

/-! ## Layout: an expert's weights, sliced out, flattened and transposed -/

section Layout
variable {F : FTy → Type} [FloatOps F]

/-- Expert `e`'s fused weights, sliced out of the weight array, flattened to a matrix and transposed: entry `(k, j)` is `w13[e, j, k]`. -/
theorem w13T_read (e : Fin 8) (off : Fin 3 → ℕ) (hs : S8x2048x2048.Slices off S1x2048x2048) (hoff : off = ![e.val, 0, 0])
    (w : (⟨S8x2048x2048, .f32⟩ : BufTy).Contents (Elt F)) (k : Fin 2048) (j : Fin 2048) :
    transpose S2048x2048 [1, 0] (shapeCast _ (extractStridedSlice S1x2048x2048 off w hs) shapeCasts_S1x2048x2048_S2048x2048) transposes_S2048x2048_S2048x2048_1_0 (ix2 k j)
      = w (ix3 e j k) := by
  subst hoff
  refine (transpose_apply [1, 0] _ transposes_S2048x2048_S2048x2048_1_0 (ix2 k j) (ix2 j k) (fun b => match b with
    | ⟨0, _⟩ => rfl
    | ⟨1, _⟩ => rfl)).trans ?_
  refine (shapeCast_apply _ shapeCasts_S1x2048x2048_S2048x2048 (ix2 j k) (ix3 (0 : Fin 1) j k) (by
    rewrite [Shape.rowMajor_val_three, Shape.rowMajor_val_two]
    show (0 * 2048 + j.val) * 2048 + k.val = j.val * 2048 + k.val
    omega)).trans ?_
  exact extractStridedSlice_apply ![e.val, 0, 0] w hs (ix3 (0 : Fin 1) j k) (ix3 e j k) (fun a => match a with
    | ⟨0, _⟩ => by show e.val = e.val + 0; omega
    | ⟨1, _⟩ => by show j.val = 0 + j.val; omega
    | ⟨2, _⟩ => by show k.val = 0 + k.val; omega)

/-- Expert `e`'s down-projection weights, sliced out, flattened and transposed: entry `(i, h)` is `w2[e, h, i]`. -/
theorem w2T_read (e : Fin 8) (off : Fin 3 → ℕ) (hs : S8x2048x1024.Slices off S1x2048x1024) (hoff : off = ![e.val, 0, 0])
    (w : (⟨S8x2048x1024, .f32⟩ : BufTy).Contents (Elt F)) (k : Fin 1024) (j : Fin 2048) :
    transpose S1024x2048 [1, 0] (shapeCast _ (extractStridedSlice S1x2048x1024 off w hs) shapeCasts_S1x2048x1024_S2048x1024) transposes_S2048x1024_S1024x2048_1_0 (ix2 k j)
      = w (ix3 e j k) := by
  subst hoff
  refine (transpose_apply [1, 0] _ transposes_S2048x1024_S1024x2048_1_0 (ix2 k j) (ix2 j k) (fun b => match b with
    | ⟨0, _⟩ => rfl
    | ⟨1, _⟩ => rfl)).trans ?_
  refine (shapeCast_apply _ shapeCasts_S1x2048x1024_S2048x1024 (ix2 j k) (ix3 (0 : Fin 1) j k) (by
    rewrite [Shape.rowMajor_val_three, Shape.rowMajor_val_two]
    show (0 * 2048 + j.val) * 1024 + k.val = j.val * 1024 + k.val
    omega)).trans ?_
  exact extractStridedSlice_apply ![e.val, 0, 0] w hs (ix3 (0 : Fin 1) j k) (ix3 e j k) (fun a => match a with
    | ⟨0, _⟩ => by show e.val = e.val + 0; omega
    | ⟨1, _⟩ => by show j.val = 0 + j.val; omega
    | ⟨2, _⟩ => by show k.val = 0 + k.val; omega)

/-- The token's coefficient, made a column and broadcast along the hidden axis, reads the coefficient of the token. -/
theorem coefBcast_read (c : (⟨S16384, .f32⟩ : BufTy).Contents (Elt F)) (t : Fin 16384) (h : Fin 2048) :
    broadcastInDim S16384x2048 ![0, 1] bcast_S16384x1_S16384x2048_0_1
        (broadcastInDim S16384x1 ![0] bcast_S16384_S16384x1_0 c) (ix2 t h) = c (ix1 t) :=
  (broadcastInDim_apply _ bcast_S16384x1_S16384x2048_0_1 _ (ix2 t h) (ix2 t (0 : Fin 1)) (fun a => match a with
    | ⟨0, _⟩ => by show t.val = if (16384 : Nat) = 1 then 0 else t.val; rw [if_neg (by decide)]
    | ⟨1, _⟩ => by show 0 = if (1 : Nat) = 1 then 0 else h.val; rw [if_pos rfl])).trans
  (broadcastInDim_apply _ bcast_S16384_S16384x1_0 c (ix2 t (0 : Fin 1)) (ix1 t) (fun a => match a with
    | ⟨0, _⟩ => by show t.val = if (16384 : Nat) = 1 then 0 else t.val; rw [if_neg (by decide)]))

end Layout

/-! ## The two contractions -/

/-- The left operand's index at output index `i` and contraction index `q`: the output's row … -/
theorem dotFused_read_l0 (i : S16384x2048.Idx) (q : dot_S16384x2048_S2048x2048_S16384x2048_1_0_0_1_n_n.contr.Idx) : (dot_S16384x2048_S2048x2048_S16384x2048_1_0_0_1_n_n.lhsIdx i q 0).val = (i 0).val := by
  unfold DotDims.lhsIdx
  rw [dif_neg (show ¬(0 : Fin S16384x2048.rank) ∈ dot_S16384x2048_S2048x2048_S16384x2048_1_0_0_1_n_n.lhsBatch by decide),
    dif_pos (show (0 : Fin S16384x2048.rank) ∈ dot_S16384x2048_S2048x2048_S16384x2048_1_0_0_1_n_n.lhsNonContracting by decide)]
  rfl
/-- … and the contraction coordinate. -/
theorem dotFused_read_l1 (i : S16384x2048.Idx) (q : dot_S16384x2048_S2048x2048_S16384x2048_1_0_0_1_n_n.contr.Idx) : (dot_S16384x2048_S2048x2048_S16384x2048_1_0_0_1_n_n.lhsIdx i q 1).val = (q ⟨0, by decide⟩).val :=
  dot_S16384x2048_S2048x2048_S16384x2048_1_0_0_1_n_n.lhsIdx_val_of_single rfl i q
/-- The right operand's index: the contraction coordinate … -/
theorem dotFused_read_r0 (i : S16384x2048.Idx) (q : dot_S16384x2048_S2048x2048_S16384x2048_1_0_0_1_n_n.contr.Idx) : (dot_S16384x2048_S2048x2048_S16384x2048_1_0_0_1_n_n.rhsIdx i q 0).val = (q ⟨0, by decide⟩).val :=
  dot_S16384x2048_S2048x2048_S16384x2048_1_0_0_1_n_n.rhsIdx_val_of_single rfl i q
/-- … and the output's column. -/
theorem dotFused_read_r1 (i : S16384x2048.Idx) (q : dot_S16384x2048_S2048x2048_S16384x2048_1_0_0_1_n_n.contr.Idx) : (dot_S16384x2048_S2048x2048_S16384x2048_1_0_0_1_n_n.rhsIdx i q 1).val = (i 1).val := by
  unfold DotDims.rhsIdx
  rw [dif_neg (show ¬(1 : Fin S2048x2048.rank) ∈ dot_S16384x2048_S2048x2048_S16384x2048_1_0_0_1_n_n.rhsBatch by decide),
    dif_pos (show (1 : Fin S2048x2048.rank) ∈ dot_S16384x2048_S2048x2048_S16384x2048_1_0_0_1_n_n.rhsNonContracting by decide)]
  rfl

/-- The first contraction, hidden states against a `[2048, 2048]` matrix, read at `(t, j)`: the sum over the hidden axis. -/
theorem dotFused_read (lhs : FVec Ideal S16384x2048 .f32) (rhs : FVec Ideal S2048x2048 .f32) (t : Fin 16384) (j : Fin 2048) :
    (Host.dotGeneral dot_S16384x2048_S2048x2048_S16384x2048_1_0_0_1_n_n none lhs rhs : FVec Ideal S16384x2048 .f32) (ix2 t j)
      = ∑ k : Fin 2048, lhs (ix2 t k) * rhs (ix2 k j) := by
  simp only [Host.dotGeneral]
  rw [Ideal.dotGeneral_apply, ← Equiv.sum_comp (contrEquiv1 dot_S16384x2048_S2048x2048_S16384x2048_1_0_0_1_n_n 2048 rfl rfl).symm]
  refine Finset.sum_congr rfl fun k _ => ?_
  have hk := contrEquiv1_symm_val dot_S16384x2048_S2048x2048_S16384x2048_1_0_0_1_n_n 2048 rfl rfl k
  have el : dot_S16384x2048_S2048x2048_S16384x2048_1_0_0_1_n_n.lhsIdx (ix2 t j) ((contrEquiv1 dot_S16384x2048_S2048x2048_S16384x2048_1_0_0_1_n_n 2048 rfl rfl).symm k) = ix2 t k :=
    funext fun a => Fin.ext (by
      match a with
      | ⟨0, _⟩ => exact dotFused_read_l0 _ _
      | ⟨1, _⟩ => exact (dotFused_read_l1 _ _).trans hk)
  have er : dot_S16384x2048_S2048x2048_S16384x2048_1_0_0_1_n_n.rhsIdx (ix2 t j) ((contrEquiv1 dot_S16384x2048_S2048x2048_S16384x2048_1_0_0_1_n_n 2048 rfl rfl).symm k) = ix2 k j :=
    funext fun a => Fin.ext (by
      match a with
      | ⟨0, _⟩ => exact (dotFused_read_r0 _ _).trans hk
      | ⟨1, _⟩ => exact dotFused_read_r1 _ _)
  rw [el, er]

/-- The left operand's index at output index `i` and contraction index `q`: the output's row … -/
theorem dotDown_read_l0 (i : S16384x2048.Idx) (q : dot_S16384x1024_S1024x2048_S16384x2048_1_0_0_1_n_n.contr.Idx) : (dot_S16384x1024_S1024x2048_S16384x2048_1_0_0_1_n_n.lhsIdx i q 0).val = (i 0).val := by
  unfold DotDims.lhsIdx
  rw [dif_neg (show ¬(0 : Fin S16384x1024.rank) ∈ dot_S16384x1024_S1024x2048_S16384x2048_1_0_0_1_n_n.lhsBatch by decide),
    dif_pos (show (0 : Fin S16384x1024.rank) ∈ dot_S16384x1024_S1024x2048_S16384x2048_1_0_0_1_n_n.lhsNonContracting by decide)]
  rfl
/-- … and the contraction coordinate. -/
theorem dotDown_read_l1 (i : S16384x2048.Idx) (q : dot_S16384x1024_S1024x2048_S16384x2048_1_0_0_1_n_n.contr.Idx) : (dot_S16384x1024_S1024x2048_S16384x2048_1_0_0_1_n_n.lhsIdx i q 1).val = (q ⟨0, by decide⟩).val :=
  dot_S16384x1024_S1024x2048_S16384x2048_1_0_0_1_n_n.lhsIdx_val_of_single rfl i q
/-- The right operand's index: the contraction coordinate … -/
theorem dotDown_read_r0 (i : S16384x2048.Idx) (q : dot_S16384x1024_S1024x2048_S16384x2048_1_0_0_1_n_n.contr.Idx) : (dot_S16384x1024_S1024x2048_S16384x2048_1_0_0_1_n_n.rhsIdx i q 0).val = (q ⟨0, by decide⟩).val :=
  dot_S16384x1024_S1024x2048_S16384x2048_1_0_0_1_n_n.rhsIdx_val_of_single rfl i q
/-- … and the output's column. -/
theorem dotDown_read_r1 (i : S16384x2048.Idx) (q : dot_S16384x1024_S1024x2048_S16384x2048_1_0_0_1_n_n.contr.Idx) : (dot_S16384x1024_S1024x2048_S16384x2048_1_0_0_1_n_n.rhsIdx i q 1).val = (i 1).val := by
  unfold DotDims.rhsIdx
  rw [dif_neg (show ¬(1 : Fin S1024x2048.rank) ∈ dot_S16384x1024_S1024x2048_S16384x2048_1_0_0_1_n_n.rhsBatch by decide),
    dif_pos (show (1 : Fin S1024x2048.rank) ∈ dot_S16384x1024_S1024x2048_S16384x2048_1_0_0_1_n_n.rhsNonContracting by decide)]
  rfl

/-- The second contraction, activations against a `[1024, 2048]` matrix, read at `(t, h)`: the sum over the intermediate axis. -/
theorem dotDown_read (lhs : FVec Ideal S16384x1024 .f32) (rhs : FVec Ideal S1024x2048 .f32) (t : Fin 16384) (j : Fin 2048) :
    (Host.dotGeneral dot_S16384x1024_S1024x2048_S16384x2048_1_0_0_1_n_n none lhs rhs : FVec Ideal S16384x2048 .f32) (ix2 t j)
      = ∑ k : Fin 1024, lhs (ix2 t k) * rhs (ix2 k j) := by
  simp only [Host.dotGeneral]
  rw [Ideal.dotGeneral_apply, ← Equiv.sum_comp (contrEquiv1 dot_S16384x1024_S1024x2048_S16384x2048_1_0_0_1_n_n 1024 rfl rfl).symm]
  refine Finset.sum_congr rfl fun k _ => ?_
  have hk := contrEquiv1_symm_val dot_S16384x1024_S1024x2048_S16384x2048_1_0_0_1_n_n 1024 rfl rfl k
  have el : dot_S16384x1024_S1024x2048_S16384x2048_1_0_0_1_n_n.lhsIdx (ix2 t j) ((contrEquiv1 dot_S16384x1024_S1024x2048_S16384x2048_1_0_0_1_n_n 1024 rfl rfl).symm k) = ix2 t k :=
    funext fun a => Fin.ext (by
      match a with
      | ⟨0, _⟩ => exact dotDown_read_l0 _ _
      | ⟨1, _⟩ => exact (dotDown_read_l1 _ _).trans hk)
  have er : dot_S16384x1024_S1024x2048_S16384x2048_1_0_0_1_n_n.rhsIdx (ix2 t j) ((contrEquiv1 dot_S16384x1024_S1024x2048_S16384x2048_1_0_0_1_n_n 1024 rfl rfl).symm k) = ix2 k j :=
    funext fun a => Fin.ext (by
      match a with
      | ⟨0, _⟩ => exact (dotDown_read_r0 _ _).trans hk
      | ⟨1, _⟩ => exact dotDown_read_r1 _ _)
  rw [el, er]

/-! ## One expert -/

/-- The hidden states against the transpose of expert `e`'s fused weights is the specification's fused projection. -/
theorem fused_read (e : Fin 8) (off13 : Fin 3 → ℕ) (h13 : S8x2048x2048.Slices off13 S1x2048x2048) (ho13 : off13 = ![e.val, 0, 0])
    (x0 : XH) (x3 : XW13) (t : Fin 16384) (j : Fin 2048) :
    fusedArr (F := Ideal) off13 h13 x0 x3 (ix2 t j) = proj x0 x3 e t j := by
  unfold fusedArr proj
  rw [dotFused_read]
  exact Finset.sum_congr rfl fun k _ => by rw [w13T_read e off13 h13 ho13 x3 k j]

/-- The gate half times `1 / (1 + exp (-gate))` times the value half, read at `(t, i)`: with `g` and `u` the columns `i`
    and `1024 + i` of the fused projection, it is `g · logistic g · u`. -/
theorem act_read (y : FVec Ideal S16384x2048 .f32) (t : Fin 16384) (i : Fin 1024) :
    (mulf (mulf (extractStridedSlice S16384x1024 ![0, 0] y slices_S16384x2048_S16384x1024_0_0)
        (Host.divf (broadcastInDim S16384x1024 ![] bcast_S_S16384x1024 (constant S_ .f32 0x3F800000#32))
          (addf (broadcastInDim S16384x1024 ![] bcast_S_S16384x1024 (constant S_ .f32 0x3F800000#32))
            (Host.exp (Host.negf (extractStridedSlice S16384x1024 ![0, 0] y slices_S16384x2048_S16384x1024_0_0))))))
      (extractStridedSlice S16384x1024 ![0, 1024] y slices_S16384x2048_S16384x1024_0_1024) : FVec Ideal S16384x1024 .f32) (ix2 t i)
      = y (ix2 t (lo i)) * Ideal.logistic (y (ix2 t (lo i))) * y (ix2 t (hi i)) := by
  have hg : extractStridedSlice S16384x1024 ![0, 0] y slices_S16384x2048_S16384x1024_0_0 (ix2 t i) = y (ix2 t (lo i)) :=
    extractStridedSlice_apply ![0, 0] y slices_S16384x2048_S16384x1024_0_0 (ix2 t i) (ix2 t (lo i)) (fun a => match a with
      | ⟨0, _⟩ => by show t.val = 0 + t.val; omega
      | ⟨1, _⟩ => by show i.val = 0 + i.val; omega)
  have hu : extractStridedSlice S16384x1024 ![0, 1024] y slices_S16384x2048_S16384x1024_0_1024 (ix2 t i) = y (ix2 t (hi i)) :=
    extractStridedSlice_apply ![0, 1024] y slices_S16384x2048_S16384x1024_0_1024 (ix2 t i) (ix2 t (hi i)) (fun a => match a with
      | ⟨0, _⟩ => by show t.val = 0 + t.val; omega
      | ⟨1, _⟩ => by show 1024 + i.val = 1024 + i.val; omega)
  have h1 : broadcastInDim S16384x1024 ![] bcast_S_S16384x1024 (constant (F := Ideal) S_ .f32 0x3F800000#32) (ix2 t i) = (1 : EReal) :=
    (broadcastInDim_scalar_apply bcast_S_S16384x1024 _ (ix2 t i)).trans Ideal.ofBits_one_f32
  simp only [mulf_apply, hostDivf_apply, addf_apply, Host.exp, Host.negf, Ideal.hostUnary_exp_def, Ideal.hostNegf_def,
    Ideal.negf_def, hg, hu, h1]
  rfl

/-- ONE EXPERT'S UPDATE READ AT `(t, h)`: the running result there plus the token's coefficient times the specification's
    down projection for expert `e`. -/
theorem expertStep_apply (e : Fin 8) (off13 : Fin 3 → ℕ) (h13 : S8x2048x2048.Slices off13 S1x2048x2048)
    (off2 : Fin 3 → ℕ) (h2 : S8x2048x1024.Slices off2 S1x2048x1024)
    (ho13 : off13 = ![e.val, 0, 0]) (ho2 : off2 = ![e.val, 0, 0]) (ce : BitVec 32)
    (x0 : XH) (x1 : XT) (x2 : XR) (x3 : XW13) (x4 : XW2) (prev : XH) (t : Fin 16384) (h : Fin 2048) :
    expertStep (F := Ideal) off13 h13 off2 h2 ce x0 x1 x2 x3 x4 prev (ix2 t h)
      = prev (ix2 t h) + coefArr (F := Ideal) ce x1 x2 (ix1 t) * down x0 x3 x4 e t h := by
  unfold expertStep
  rw [addf_apply, mulf_apply, coefBcast_read, dotDown_read]
  unfold down
  refine congrArg (fun s => prev (ix2 t h) + coefArr (F := Ideal) ce x1 x2 (ix1 t) * s) (Finset.sum_congr rfl fun i _ => ?_)
  rw [act_read, w2T_read e off2 h2 ho2 x4 i h, fused_read e off13 h13 ho13 x0 x3 t (lo i),
    fused_read e off13 h13 ho13 x0 x3 t (hi i)]
  rfl

/-! ## All eight experts -/

/-- The routing coefficient of expert `e` and token `t`, as the program computes it. -/
def coefRef (x1 : XT) (x2 : XR) : Fin 8 → Fin 16384 → EReal :=
  fun e t => coefArr (F := Ideal) (BitVec.ofNat 32 e.val) x1 x2 (ix1 t)

/-- One expert's update adds the specification's term for that expert. -/
theorem expertStep_term (e : Fin 8) (off13 : Fin 3 → ℕ) (h13 : S8x2048x2048.Slices off13 S1x2048x2048)
    (off2 : Fin 3 → ℕ) (h2 : S8x2048x1024.Slices off2 S1x2048x1024)
    (ho13 : off13 = ![e.val, 0, 0]) (ho2 : off2 = ![e.val, 0, 0]) (ce : BitVec 32) (hce : ce = BitVec.ofNat 32 e.val)
    (x0 : XH) (x1 : XT) (x2 : XR) (x3 : XW13) (x4 : XW2) (prev : XH) (t : Fin 16384) (h : Fin 2048) :
    expertStep (F := Ideal) off13 h13 off2 h2 ce x0 x1 x2 x3 x4 prev (ix2 t h)
      = prev (ix2 t h) + term (coefRef x1 x2) x0 x3 x4 e t h := by
  subst hce
  exact expertStep_apply e off13 h13 off2 h2 ho13 ho2 _ x0 x1 x2 x3 x4 prev t h

/-- The running result starts from the zero array. -/
theorem zero_read (t : Fin 16384) (h : Fin 2048) :
    broadcastInDim S16384x2048 ![] bcast_S_S16384x2048 (constant (F := Ideal) S_ .f32 0x00000000#32) (ix2 t h) = (0 : EReal) :=
  (broadcastInDim_scalar_apply bcast_S_S16384x2048 _ (ix2 t h)).trans Ideal.ofBits_zero_f32

/-- The specification's sum, written out: the eight terms added in order onto zero. -/
theorem G_terms (coef : Fin 8 → Fin 16384 → EReal) (x : Hid) (w13 : W13) (w2 : W2) (t : Fin 16384) (h : Fin 2048) :
    G coef x w13 w2 t h
      = 0 + term coef x w13 w2 (⟨0, by omega⟩ : Fin 8) t h + term coef x w13 w2 (⟨1, by omega⟩ : Fin 8) t h + term coef x w13 w2 (⟨2, by omega⟩ : Fin 8) t h
          + term coef x w13 w2 (⟨3, by omega⟩ : Fin 8) t h + term coef x w13 w2 (⟨4, by omega⟩ : Fin 8) t h + term coef x w13 w2 (⟨5, by omega⟩ : Fin 8) t h
          + term coef x w13 w2 (⟨6, by omega⟩ : Fin 8) t h + term coef x w13 w2 (⟨7, by omega⟩ : Fin 8) t h := by
  have h8 : accum coef x w13 w2 t h 8 = accum coef x w13 w2 t h 7 + term coef x w13 w2 (⟨7, by omega⟩ : Fin 8) t h :=
    accum_succ coef x w13 w2 t h 7 (by omega)
  have h7 : accum coef x w13 w2 t h 7 = accum coef x w13 w2 t h 6 + term coef x w13 w2 (⟨6, by omega⟩ : Fin 8) t h :=
    accum_succ coef x w13 w2 t h 6 (by omega)
  have h6 : accum coef x w13 w2 t h 6 = accum coef x w13 w2 t h 5 + term coef x w13 w2 (⟨5, by omega⟩ : Fin 8) t h :=
    accum_succ coef x w13 w2 t h 5 (by omega)
  have h5 : accum coef x w13 w2 t h 5 = accum coef x w13 w2 t h 4 + term coef x w13 w2 (⟨4, by omega⟩ : Fin 8) t h :=
    accum_succ coef x w13 w2 t h 4 (by omega)
  have h4 : accum coef x w13 w2 t h 4 = accum coef x w13 w2 t h 3 + term coef x w13 w2 (⟨3, by omega⟩ : Fin 8) t h :=
    accum_succ coef x w13 w2 t h 3 (by omega)
  have h3 : accum coef x w13 w2 t h 3 = accum coef x w13 w2 t h 2 + term coef x w13 w2 (⟨2, by omega⟩ : Fin 8) t h :=
    accum_succ coef x w13 w2 t h 2 (by omega)
  have h2 : accum coef x w13 w2 t h 2 = accum coef x w13 w2 t h 1 + term coef x w13 w2 (⟨1, by omega⟩ : Fin 8) t h :=
    accum_succ coef x w13 w2 t h 1 (by omega)
  have h1 : accum coef x w13 w2 t h 1 = accum coef x w13 w2 t h 0 + term coef x w13 w2 (⟨0, by omega⟩ : Fin 8) t h :=
    accum_succ coef x w13 w2 t h 0 (by omega)
  show accum coef x w13 w2 t h 8 = _
  rw [h8, h7, h6, h5, h4, h3, h2, h1, accum_zero]

/-- THE REFERENCE'S RESULT IS THE SPECIFICATION, element by element. -/
theorem ref_eq (x0 : XH) (x1 : XT) (x2 : XR) (x3 : XW13) (x4 : XW2) (t : Fin 16384) (h : Fin 2048) :
    refTerm (F := Ideal) x0 x1 x2 x3 x4 (ix2 t h) = G (coefRef x1 x2) x0 x3 x4 t h := by
  unfold refTerm
  rw [G_terms,
    expertStep_term (⟨7, by omega⟩ : Fin 8) _ _ _ _ rfl rfl _ rfl,
    expertStep_term (⟨6, by omega⟩ : Fin 8) _ _ _ _ rfl rfl _ rfl,
    expertStep_term (⟨5, by omega⟩ : Fin 8) _ _ _ _ rfl rfl _ rfl,
    expertStep_term (⟨4, by omega⟩ : Fin 8) _ _ _ _ rfl rfl _ rfl,
    expertStep_term (⟨3, by omega⟩ : Fin 8) _ _ _ _ rfl rfl _ rfl,
    expertStep_term (⟨2, by omega⟩ : Fin 8) _ _ _ _ rfl rfl _ rfl,
    expertStep_term (⟨1, by omega⟩ : Fin 8) _ _ _ _ rfl rfl _ rfl,
    expertStep_term (⟨0, by omega⟩ : Fin 8) _ _ _ _ rfl rfl _ rfl,
    zero_read]

end Cert.MoeRef

end
-- ==== Proof.RefRun.lean ====
/-
  The reference program's run, read back.

  The reference is a straight line of 266 array operations and nothing else: it builds the zero array, and then, for each
  of the eight experts in order, the 33 operations that form that expert's term and add it onto the running result.
  A straight line terminates on every weakly fair execution and leaves each buffer at the fold of its operations'
  results over the launch contents; what remains is to compute that fold at the result buffer and at the arguments.

  The 266 operations are kept as twelve short lists. The program is printed in four windows of statements whose
  boundaries fall inside experts 2, 5 and 7, so those three experts' operations are two lists each: every window is then
  an append of whole lists, and so is every expert. The fold is computed one expert at a time from an ARBITRARY
  valuation `W`: an expert reads only the five arguments and the running result, writes neither the arguments nor
  anything a later expert reads except the new running result, and leaves that at `expertStep` of what it read.
  Chaining the eight from the zero array gives `refTerm`.
-/
import proofs.«109700_j71141838291315_1_alg».proof.Proof.RefTerm
import Idealize.ShloMosaic.Lib.StableHlo.Run

noncomputable section

namespace Cert.MoeRef

open Cert.ReferenceIdeal Cert.ReferenceIdeal.Gen Idealize.ShloMosaic Idealize.ShloMosaic.TcCoe Idealize.SL.Sem Idealize.ShloMosaic.StableHlo

variable {F : FTy → Type} [FloatOps F]

/-! ## The operations, in twelve lists -/

/-- The running result starts as the zero array. -/
def opsZero : List (HloOp τ sig (Elt F)) :=
  [ nullary main_cst (constant S_ .f32 0x00000000#32),
    unary main_cst main_v0 (broadcastInDim S16384x2048 ![] bcast_S_S16384x2048 : (⟨S_, .f32⟩ : BufTy).Contents (Elt F) → (⟨S16384x2048, .f32⟩ : BufTy).Contents (Elt F)) ]

/-- Expert 0. -/
def opsE0 : List (HloOp τ sig (Elt F)) :=
  [ nullary main_c (constantI S_ 32 0#32),
    unary main_c main_v1 (broadcastInDim S16384x2 ![] bcast_S_S16384x2 : (⟨S_, .i32⟩ : BufTy).Contents (Elt F) → (⟨S16384x2, .i32⟩ : BufTy).Contents (Elt F)),
    binary main_arg1 main_v1 main_v2 (cmpi .eq : (⟨S16384x2, .i32⟩ : BufTy).Contents (Elt F) → (⟨S16384x2, .i32⟩ : BufTy).Contents (Elt F) → (⟨S16384x2, .i1⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S16384x2, .f32⟩) main_call0_v1) (broadcastInDim S16384x2 ![] bcast_S_S16384x2),
    TRef.ternary (TRef.of (T := ⟨S16384x2, .i1⟩) main_v2) (TRef.of (T := ⟨S16384x2, .f32⟩) main_arg2) (TRef.of (T := ⟨S16384x2, .f32⟩) main_call0_v1) (TRef.of (T := ⟨S16384x2, .f32⟩) main_v3) select,
    nullary main_cst_1 (constant S_ .f32 0x00000000#32),
    binary main_v3 main_cst_1 main_v4 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v5 ((extractStridedSlice S1x2048x2048 ![0, 0, 0] · slices_S8x2048x2048_S1x2048x2048_0_0_0) : (⟨S8x2048x2048, .f32⟩ : BufTy).Contents (Elt F) → (⟨S1x2048x2048, .f32⟩ : BufTy).Contents (Elt F)),
    reshape main_v5 main_v6 rfl shapeCasts_S1x2048x2048_S2048x2048,
    unary main_v6 main_v7 ((transpose S2048x2048 [1, 0] · transposes_S2048x2048_S2048x2048_1_0) : (⟨S2048x2048, .f32⟩ : BufTy).Contents (Elt F) → (⟨S2048x2048, .f32⟩ : BufTy).Contents (Elt F)),
    binary main_arg0 main_v7 main_v8 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v8 main_v9 ((extractStridedSlice S16384x1024 ![0, 0] · slices_S16384x2048_S16384x1024_0_0) : (⟨S16384x2048, .f32⟩ : BufTy).Contents (Elt F) → (⟨S16384x1024, .f32⟩ : BufTy).Contents (Elt F)),
    unary main_v8 main_v10 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v9) (TRef.of (T := ⟨S16384x1024, .f32⟩) main_call1_v0) Host.negf,
    TRef.unary (TRef.of (T := ⟨S16384x1024, .f32⟩) main_call1_v0) (TRef.of (T := ⟨S16384x1024, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S16384x1024, .f32⟩) main_call1_v2) (broadcastInDim S16384x1024 ![] bcast_S_S16384x1024),
    TRef.binary (TRef.of (T := ⟨S16384x1024, .f32⟩) main_call1_v2) (TRef.of (T := ⟨S16384x1024, .f32⟩) main_call1_v1) (TRef.of (T := ⟨S16384x1024, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S16384x1024, .f32⟩) main_call1_v4) (broadcastInDim S16384x1024 ![] bcast_S_S16384x1024),
    TRef.binary (TRef.of (T := ⟨S16384x1024, .f32⟩) main_call1_v4) (TRef.of (T := ⟨S16384x1024, .f32⟩) main_call1_v3) (TRef.of (T := ⟨S16384x1024, .f32⟩) main_call1_v5) Host.divf,
    TRef.binary (TRef.of (T := ⟨S16384x1024, .f32⟩) main_v9) (TRef.of (T := ⟨S16384x1024, .f32⟩) main_call1_v5) (TRef.of (T := ⟨S16384x1024, .f32⟩) main_v11) mulf,
    binary main_v11 main_v10 main_v12 (mulf : (⟨S16384x1024, .f32⟩ : BufTy).Contents (Elt F) → (⟨S16384x1024, .f32⟩ : BufTy).Contents (Elt F) → (⟨S16384x1024, .f32⟩ : BufTy).Contents (Elt F)),
    unary main_v4 main_v13 (broadcastInDim S16384x1 ![0] bcast_S16384_S16384x1_0 : (⟨S16384, .f32⟩ : BufTy).Contents (Elt F) → (⟨S16384x1, .f32⟩ : BufTy).Contents (Elt F)),
    unary main_arg4 main_v14 ((extractStridedSlice S1x2048x1024 ![0, 0, 0] · slices_S8x2048x1024_S1x2048x1024_0_0_0) : (⟨S8x2048x1024, .f32⟩ : BufTy).Contents (Elt F) → (⟨S1x2048x1024, .f32⟩ : BufTy).Contents (Elt F)),
    reshape main_v14 main_v15 rfl shapeCasts_S1x2048x1024_S2048x1024,
    unary main_v15 main_v16 ((transpose S1024x2048 [1, 0] · transposes_S2048x1024_S1024x2048_1_0) : (⟨S2048x1024, .f32⟩ : BufTy).Contents (Elt F) → (⟨S1024x2048, .f32⟩ : BufTy).Contents (Elt F)),
    binary main_v12 main_v16 main_v17 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v13 main_v18 (broadcastInDim S16384x2048 ![0, 1] bcast_S16384x1_S16384x2048_0_1 : (⟨S16384x1, .f32⟩ : BufTy).Contents (Elt F) → (⟨S16384x2048, .f32⟩ : BufTy).Contents (Elt F)),
    binary main_v18 main_v17 main_v19 (mulf : (⟨S16384x2048, .f32⟩ : BufTy).Contents (Elt F) → (⟨S16384x2048, .f32⟩ : BufTy).Contents (Elt F) → (⟨S16384x2048, .f32⟩ : BufTy).Contents (Elt F)),
    binary main_v0 main_v19 main_v20 (addf : (⟨S16384x2048, .f32⟩ : BufTy).Contents (Elt F) → (⟨S16384x2048, .f32⟩ : BufTy).Contents (Elt F) → (⟨S16384x2048, .f32⟩ : BufTy).Contents (Elt F)) ]

/-- Expert 1. -/
def opsE1 : List (HloOp τ sig (Elt F)) :=
  [ nullary main_c_2 (constantI S_ 32 1#32),
    unary main_c_2 main_v21 (broadcastInDim S16384x2 ![] bcast_S_S16384x2 : (⟨S_, .i32⟩ : BufTy).Contents (Elt F) → (⟨S16384x2, .i32⟩ : BufTy).Contents (Elt F)),
    binary main_arg1 main_v21 main_v22 (cmpi .eq : (⟨S16384x2, .i32⟩ : BufTy).Contents (Elt F) → (⟨S16384x2, .i32⟩ : BufTy).Contents (Elt F) → (⟨S16384x2, .i1⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S16384x2, .f32⟩) main_call2_v1) (broadcastInDim S16384x2 ![] bcast_S_S16384x2),
    TRef.ternary (TRef.of (T := ⟨S16384x2, .i1⟩) main_v22) (TRef.of (T := ⟨S16384x2, .f32⟩) main_arg2) (TRef.of (T := ⟨S16384x2, .f32⟩) main_call2_v1) (TRef.of (T := ⟨S16384x2, .f32⟩) main_v23) select,
    nullary main_cst_4 (constant S_ .f32 0x00000000#32),
    binary main_v23 main_cst_4 main_v24 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v25 ((extractStridedSlice S1x2048x2048 ![1, 0, 0] · slices_S8x2048x2048_S1x2048x2048_1_0_0) : (⟨S8x2048x2048, .f32⟩ : BufTy).Contents (Elt F) → (⟨S1x2048x2048, .f32⟩ : BufTy).Contents (Elt F)),
    reshape main_v25 main_v26 rfl shapeCasts_S1x2048x2048_S2048x2048,
    unary main_v26 main_v27 ((transpose S2048x2048 [1, 0] · transposes_S2048x2048_S2048x2048_1_0) : (⟨S2048x2048, .f32⟩ : BufTy).Contents (Elt F) → (⟨S2048x2048, .f32⟩ : BufTy).Contents (Elt F)),
    binary main_arg0 main_v27 main_v28 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v28 main_v29 ((extractStridedSlice S16384x1024 ![0, 0] · slices_S16384x2048_S16384x1024_0_0) : (⟨S16384x2048, .f32⟩ : BufTy).Contents (Elt F) → (⟨S16384x1024, .f32⟩ : BufTy).Contents (Elt F)),
    unary main_v28 main_v30 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v29) (TRef.of (T := ⟨S16384x1024, .f32⟩) main_call3_v0) Host.negf,
    TRef.unary (TRef.of (T := ⟨S16384x1024, .f32⟩) main_call3_v0) (TRef.of (T := ⟨S16384x1024, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S16384x1024, .f32⟩) main_call3_v2) (broadcastInDim S16384x1024 ![] bcast_S_S16384x1024),
    TRef.binary (TRef.of (T := ⟨S16384x1024, .f32⟩) main_call3_v2) (TRef.of (T := ⟨S16384x1024, .f32⟩) main_call3_v1) (TRef.of (T := ⟨S16384x1024, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S16384x1024, .f32⟩) main_call3_v4) (broadcastInDim S16384x1024 ![] bcast_S_S16384x1024),
    TRef.binary (TRef.of (T := ⟨S16384x1024, .f32⟩) main_call3_v4) (TRef.of (T := ⟨S16384x1024, .f32⟩) main_call3_v3) (TRef.of (T := ⟨S16384x1024, .f32⟩) main_call3_v5) Host.divf,
    TRef.binary (TRef.of (T := ⟨S16384x1024, .f32⟩) main_v29) (TRef.of (T := ⟨S16384x1024, .f32⟩) main_call3_v5) (TRef.of (T := ⟨S16384x1024, .f32⟩) main_v31) mulf,
    binary main_v31 main_v30 main_v32 (mulf : (⟨S16384x1024, .f32⟩ : BufTy).Contents (Elt F) → (⟨S16384x1024, .f32⟩ : BufTy).Contents (Elt F) → (⟨S16384x1024, .f32⟩ : BufTy).Contents (Elt F)),
    unary main_v24 main_v33 (broadcastInDim S16384x1 ![0] bcast_S16384_S16384x1_0 : (⟨S16384, .f32⟩ : BufTy).Contents (Elt F) → (⟨S16384x1, .f32⟩ : BufTy).Contents (Elt F)),
    unary main_arg4 main_v34 ((extractStridedSlice S1x2048x1024 ![1, 0, 0] · slices_S8x2048x1024_S1x2048x1024_1_0_0) : (⟨S8x2048x1024, .f32⟩ : BufTy).Contents (Elt F) → (⟨S1x2048x1024, .f32⟩ : BufTy).Contents (Elt F)),
    reshape main_v34 main_v35 rfl shapeCasts_S1x2048x1024_S2048x1024,
    unary main_v35 main_v36 ((transpose S1024x2048 [1, 0] · transposes_S2048x1024_S1024x2048_1_0) : (⟨S2048x1024, .f32⟩ : BufTy).Contents (Elt F) → (⟨S1024x2048, .f32⟩ : BufTy).Contents (Elt F)),
    binary main_v32 main_v36 main_v37 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v33 main_v38 (broadcastInDim S16384x2048 ![0, 1] bcast_S16384x1_S16384x2048_0_1 : (⟨S16384x1, .f32⟩ : BufTy).Contents (Elt F) → (⟨S16384x2048, .f32⟩ : BufTy).Contents (Elt F)),
    binary main_v38 main_v37 main_v39 (mulf : (⟨S16384x2048, .f32⟩ : BufTy).Contents (Elt F) → (⟨S16384x2048, .f32⟩ : BufTy).Contents (Elt F) → (⟨S16384x2048, .f32⟩ : BufTy).Contents (Elt F)),
    binary main_v20 main_v39 main_v40 (addf : (⟨S16384x2048, .f32⟩ : BufTy).Contents (Elt F) → (⟨S16384x2048, .f32⟩ : BufTy).Contents (Elt F) → (⟨S16384x2048, .f32⟩ : BufTy).Contents (Elt F)) ]

/-- Expert 2, up to the gate half of its fused product. -/
def opsE2a : List (HloOp τ sig (Elt F)) :=
  [ nullary main_c_5 (constantI S_ 32 2#32),
    unary main_c_5 main_v41 (broadcastInDim S16384x2 ![] bcast_S_S16384x2 : (⟨S_, .i32⟩ : BufTy).Contents (Elt F) → (⟨S16384x2, .i32⟩ : BufTy).Contents (Elt F)),
    binary main_arg1 main_v41 main_v42 (cmpi .eq : (⟨S16384x2, .i32⟩ : BufTy).Contents (Elt F) → (⟨S16384x2, .i32⟩ : BufTy).Contents (Elt F) → (⟨S16384x2, .i1⟩ : BufTy).Contents (Elt F)),
    nullary main_cst_6 (constant S_ .f32 0x00000000#32),
    TRef.unary (TRef.of (T := ⟨S_, .f32⟩) main_cst_6) (TRef.of (T := ⟨S_, .f32⟩) main_call4_v0) id,
    TRef.unary (TRef.of (T := ⟨S_, .f32⟩) main_call4_v0) (TRef.of (T := ⟨S16384x2, .f32⟩) main_call4_v1) (broadcastInDim S16384x2 ![] bcast_S_S16384x2),
    TRef.ternary (TRef.of (T := ⟨S16384x2, .i1⟩) main_v42) (TRef.of (T := ⟨S16384x2, .f32⟩) main_arg2) (TRef.of (T := ⟨S16384x2, .f32⟩) main_call4_v1) (TRef.of (T := ⟨S16384x2, .f32⟩) main_v43) select,
    nullary main_cst_7 (constant S_ .f32 0x00000000#32),
    binary main_v43 main_cst_7 main_v44 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v45 ((extractStridedSlice S1x2048x2048 ![2, 0, 0] · slices_S8x2048x2048_S1x2048x2048_2_0_0) : (⟨S8x2048x2048, .f32⟩ : BufTy).Contents (Elt F) → (⟨S1x2048x2048, .f32⟩ : BufTy).Contents (Elt F)),
    reshape main_v45 main_v46 rfl shapeCasts_S1x2048x2048_S2048x2048,
    unary main_v46 main_v47 ((transpose S2048x2048 [1, 0] · transposes_S2048x2048_S2048x2048_1_0) : (⟨S2048x2048, .f32⟩ : BufTy).Contents (Elt F) → (⟨S2048x2048, .f32⟩ : BufTy).Contents (Elt F)),
    binary main_arg0 main_v47 main_v48 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v48 main_v49 ((extractStridedSlice S16384x1024 ![0, 0] · slices_S16384x2048_S16384x1024_0_0) : (⟨S16384x2048, .f32⟩ : BufTy).Contents (Elt F) → (⟨S16384x1024, .f32⟩ : BufTy).Contents (Elt F)) ]

/-- Expert 2, from the value half on. -/
def opsE2b : List (HloOp τ sig (Elt F)) :=
  [ unary main_v48 main_v50 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v49) (TRef.of (T := ⟨S16384x1024, .f32⟩) main_call5_v0) Host.negf,
    TRef.unary (TRef.of (T := ⟨S16384x1024, .f32⟩) main_call5_v0) (TRef.of (T := ⟨S16384x1024, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S16384x1024, .f32⟩) main_call5_v2) (broadcastInDim S16384x1024 ![] bcast_S_S16384x1024),
    TRef.binary (TRef.of (T := ⟨S16384x1024, .f32⟩) main_call5_v2) (TRef.of (T := ⟨S16384x1024, .f32⟩) main_call5_v1) (TRef.of (T := ⟨S16384x1024, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S16384x1024, .f32⟩) main_call5_v4) (broadcastInDim S16384x1024 ![] bcast_S_S16384x1024),
    TRef.binary (TRef.of (T := ⟨S16384x1024, .f32⟩) main_call5_v4) (TRef.of (T := ⟨S16384x1024, .f32⟩) main_call5_v3) (TRef.of (T := ⟨S16384x1024, .f32⟩) main_call5_v5) Host.divf,
    TRef.binary (TRef.of (T := ⟨S16384x1024, .f32⟩) main_v49) (TRef.of (T := ⟨S16384x1024, .f32⟩) main_call5_v5) (TRef.of (T := ⟨S16384x1024, .f32⟩) main_v51) mulf,
    binary main_v51 main_v50 main_v52 (mulf : (⟨S16384x1024, .f32⟩ : BufTy).Contents (Elt F) → (⟨S16384x1024, .f32⟩ : BufTy).Contents (Elt F) → (⟨S16384x1024, .f32⟩ : BufTy).Contents (Elt F)),
    unary main_v44 main_v53 (broadcastInDim S16384x1 ![0] bcast_S16384_S16384x1_0 : (⟨S16384, .f32⟩ : BufTy).Contents (Elt F) → (⟨S16384x1, .f32⟩ : BufTy).Contents (Elt F)),
    unary main_arg4 main_v54 ((extractStridedSlice S1x2048x1024 ![2, 0, 0] · slices_S8x2048x1024_S1x2048x1024_2_0_0) : (⟨S8x2048x1024, .f32⟩ : BufTy).Contents (Elt F) → (⟨S1x2048x1024, .f32⟩ : BufTy).Contents (Elt F)),
    reshape main_v54 main_v55 rfl shapeCasts_S1x2048x1024_S2048x1024,
    unary main_v55 main_v56 ((transpose S1024x2048 [1, 0] · transposes_S2048x1024_S1024x2048_1_0) : (⟨S2048x1024, .f32⟩ : BufTy).Contents (Elt F) → (⟨S1024x2048, .f32⟩ : BufTy).Contents (Elt F)),
    binary main_v52 main_v56 main_v57 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v53 main_v58 (broadcastInDim S16384x2048 ![0, 1] bcast_S16384x1_S16384x2048_0_1 : (⟨S16384x1, .f32⟩ : BufTy).Contents (Elt F) → (⟨S16384x2048, .f32⟩ : BufTy).Contents (Elt F)),
    binary main_v58 main_v57 main_v59 (mulf : (⟨S16384x2048, .f32⟩ : BufTy).Contents (Elt F) → (⟨S16384x2048, .f32⟩ : BufTy).Contents (Elt F) → (⟨S16384x2048, .f32⟩ : BufTy).Contents (Elt F)),
    binary main_v40 main_v59 main_v60 (addf : (⟨S16384x2048, .f32⟩ : BufTy).Contents (Elt F) → (⟨S16384x2048, .f32⟩ : BufTy).Contents (Elt F) → (⟨S16384x2048, .f32⟩ : BufTy).Contents (Elt F)) ]

/-- Expert 3. -/
def opsE3 : List (HloOp τ sig (Elt F)) :=
  [ nullary main_c_8 (constantI S_ 32 3#32),
    unary main_c_8 main_v61 (broadcastInDim S16384x2 ![] bcast_S_S16384x2 : (⟨S_, .i32⟩ : BufTy).Contents (Elt F) → (⟨S16384x2, .i32⟩ : BufTy).Contents (Elt F)),
    binary main_arg1 main_v61 main_v62 (cmpi .eq : (⟨S16384x2, .i32⟩ : BufTy).Contents (Elt F) → (⟨S16384x2, .i32⟩ : BufTy).Contents (Elt F) → (⟨S16384x2, .i1⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S16384x2, .f32⟩) main_call6_v1) (broadcastInDim S16384x2 ![] bcast_S_S16384x2),
    TRef.ternary (TRef.of (T := ⟨S16384x2, .i1⟩) main_v62) (TRef.of (T := ⟨S16384x2, .f32⟩) main_arg2) (TRef.of (T := ⟨S16384x2, .f32⟩) main_call6_v1) (TRef.of (T := ⟨S16384x2, .f32⟩) main_v63) select,
    nullary main_cst_10 (constant S_ .f32 0x00000000#32),
    binary main_v63 main_cst_10 main_v64 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v65 ((extractStridedSlice S1x2048x2048 ![3, 0, 0] · slices_S8x2048x2048_S1x2048x2048_3_0_0) : (⟨S8x2048x2048, .f32⟩ : BufTy).Contents (Elt F) → (⟨S1x2048x2048, .f32⟩ : BufTy).Contents (Elt F)),
    reshape main_v65 main_v66 rfl shapeCasts_S1x2048x2048_S2048x2048,
    unary main_v66 main_v67 ((transpose S2048x2048 [1, 0] · transposes_S2048x2048_S2048x2048_1_0) : (⟨S2048x2048, .f32⟩ : BufTy).Contents (Elt F) → (⟨S2048x2048, .f32⟩ : BufTy).Contents (Elt F)),
    binary main_arg0 main_v67 main_v68 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v68 main_v69 ((extractStridedSlice S16384x1024 ![0, 0] · slices_S16384x2048_S16384x1024_0_0) : (⟨S16384x2048, .f32⟩ : BufTy).Contents (Elt F) → (⟨S16384x1024, .f32⟩ : BufTy).Contents (Elt F)),
    unary main_v68 main_v70 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v69) (TRef.of (T := ⟨S16384x1024, .f32⟩) main_call7_v0) Host.negf,
    TRef.unary (TRef.of (T := ⟨S16384x1024, .f32⟩) main_call7_v0) (TRef.of (T := ⟨S16384x1024, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S16384x1024, .f32⟩) main_call7_v2) (broadcastInDim S16384x1024 ![] bcast_S_S16384x1024),
    TRef.binary (TRef.of (T := ⟨S16384x1024, .f32⟩) main_call7_v2) (TRef.of (T := ⟨S16384x1024, .f32⟩) main_call7_v1) (TRef.of (T := ⟨S16384x1024, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S16384x1024, .f32⟩) main_call7_v4) (broadcastInDim S16384x1024 ![] bcast_S_S16384x1024),
    TRef.binary (TRef.of (T := ⟨S16384x1024, .f32⟩) main_call7_v4) (TRef.of (T := ⟨S16384x1024, .f32⟩) main_call7_v3) (TRef.of (T := ⟨S16384x1024, .f32⟩) main_call7_v5) Host.divf,
    TRef.binary (TRef.of (T := ⟨S16384x1024, .f32⟩) main_v69) (TRef.of (T := ⟨S16384x1024, .f32⟩) main_call7_v5) (TRef.of (T := ⟨S16384x1024, .f32⟩) main_v71) mulf,
    binary main_v71 main_v70 main_v72 (mulf : (⟨S16384x1024, .f32⟩ : BufTy).Contents (Elt F) → (⟨S16384x1024, .f32⟩ : BufTy).Contents (Elt F) → (⟨S16384x1024, .f32⟩ : BufTy).Contents (Elt F)),
    unary main_v64 main_v73 (broadcastInDim S16384x1 ![0] bcast_S16384_S16384x1_0 : (⟨S16384, .f32⟩ : BufTy).Contents (Elt F) → (⟨S16384x1, .f32⟩ : BufTy).Contents (Elt F)),
    unary main_arg4 main_v74 ((extractStridedSlice S1x2048x1024 ![3, 0, 0] · slices_S8x2048x1024_S1x2048x1024_3_0_0) : (⟨S8x2048x1024, .f32⟩ : BufTy).Contents (Elt F) → (⟨S1x2048x1024, .f32⟩ : BufTy).Contents (Elt F)),
    reshape main_v74 main_v75 rfl shapeCasts_S1x2048x1024_S2048x1024,
    unary main_v75 main_v76 ((transpose S1024x2048 [1, 0] · transposes_S2048x1024_S1024x2048_1_0) : (⟨S2048x1024, .f32⟩ : BufTy).Contents (Elt F) → (⟨S1024x2048, .f32⟩ : BufTy).Contents (Elt F)),
    binary main_v72 main_v76 main_v77 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v73 main_v78 (broadcastInDim S16384x2048 ![0, 1] bcast_S16384x1_S16384x2048_0_1 : (⟨S16384x1, .f32⟩ : BufTy).Contents (Elt F) → (⟨S16384x2048, .f32⟩ : BufTy).Contents (Elt F)),
    binary main_v78 main_v77 main_v79 (mulf : (⟨S16384x2048, .f32⟩ : BufTy).Contents (Elt F) → (⟨S16384x2048, .f32⟩ : BufTy).Contents (Elt F) → (⟨S16384x2048, .f32⟩ : BufTy).Contents (Elt F)),
    binary main_v60 main_v79 main_v80 (addf : (⟨S16384x2048, .f32⟩ : BufTy).Contents (Elt F) → (⟨S16384x2048, .f32⟩ : BufTy).Contents (Elt F) → (⟨S16384x2048, .f32⟩ : BufTy).Contents (Elt F)) ]

/-- Expert 4. -/
def opsE4 : List (HloOp τ sig (Elt F)) :=
  [ nullary main_c_11 (constantI S_ 32 4#32),
    unary main_c_11 main_v81 (broadcastInDim S16384x2 ![] bcast_S_S16384x2 : (⟨S_, .i32⟩ : BufTy).Contents (Elt F) → (⟨S16384x2, .i32⟩ : BufTy).Contents (Elt F)),
    binary main_arg1 main_v81 main_v82 (cmpi .eq : (⟨S16384x2, .i32⟩ : BufTy).Contents (Elt F) → (⟨S16384x2, .i32⟩ : BufTy).Contents (Elt F) → (⟨S16384x2, .i1⟩ : BufTy).Contents (Elt F)),
    nullary main_cst_12 (constant S_ .f32 0x00000000#32),
    TRef.unary (TRef.of (T := ⟨S_, .f32⟩) main_cst_12) (TRef.of (T := ⟨S_, .f32⟩) main_call8_v0) id,
    TRef.unary (TRef.of (T := ⟨S_, .f32⟩) main_call8_v0) (TRef.of (T := ⟨S16384x2, .f32⟩) main_call8_v1) (broadcastInDim S16384x2 ![] bcast_S_S16384x2),
    TRef.ternary (TRef.of (T := ⟨S16384x2, .i1⟩) main_v82) (TRef.of (T := ⟨S16384x2, .f32⟩) main_arg2) (TRef.of (T := ⟨S16384x2, .f32⟩) main_call8_v1) (TRef.of (T := ⟨S16384x2, .f32⟩) main_v83) select,
    nullary main_cst_13 (constant S_ .f32 0x00000000#32),
    binary main_v83 main_cst_13 main_v84 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v85 ((extractStridedSlice S1x2048x2048 ![4, 0, 0] · slices_S8x2048x2048_S1x2048x2048_4_0_0) : (⟨S8x2048x2048, .f32⟩ : BufTy).Contents (Elt F) → (⟨S1x2048x2048, .f32⟩ : BufTy).Contents (Elt F)),
    reshape main_v85 main_v86 rfl shapeCasts_S1x2048x2048_S2048x2048,
    unary main_v86 main_v87 ((transpose S2048x2048 [1, 0] · transposes_S2048x2048_S2048x2048_1_0) : (⟨S2048x2048, .f32⟩ : BufTy).Contents (Elt F) → (⟨S2048x2048, .f32⟩ : BufTy).Contents (Elt F)),
    binary main_arg0 main_v87 main_v88 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v88 main_v89 ((extractStridedSlice S16384x1024 ![0, 0] · slices_S16384x2048_S16384x1024_0_0) : (⟨S16384x2048, .f32⟩ : BufTy).Contents (Elt F) → (⟨S16384x1024, .f32⟩ : BufTy).Contents (Elt F)),
    unary main_v88 main_v90 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v89) (TRef.of (T := ⟨S16384x1024, .f32⟩) main_call9_v0) Host.negf,
    TRef.unary (TRef.of (T := ⟨S16384x1024, .f32⟩) main_call9_v0) (TRef.of (T := ⟨S16384x1024, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S16384x1024, .f32⟩) main_call9_v2) (broadcastInDim S16384x1024 ![] bcast_S_S16384x1024),
    TRef.binary (TRef.of (T := ⟨S16384x1024, .f32⟩) main_call9_v2) (TRef.of (T := ⟨S16384x1024, .f32⟩) main_call9_v1) (TRef.of (T := ⟨S16384x1024, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S16384x1024, .f32⟩) main_call9_v4) (broadcastInDim S16384x1024 ![] bcast_S_S16384x1024),
    TRef.binary (TRef.of (T := ⟨S16384x1024, .f32⟩) main_call9_v4) (TRef.of (T := ⟨S16384x1024, .f32⟩) main_call9_v3) (TRef.of (T := ⟨S16384x1024, .f32⟩) main_call9_v5) Host.divf,
    TRef.binary (TRef.of (T := ⟨S16384x1024, .f32⟩) main_v89) (TRef.of (T := ⟨S16384x1024, .f32⟩) main_call9_v5) (TRef.of (T := ⟨S16384x1024, .f32⟩) main_v91) mulf,
    binary main_v91 main_v90 main_v92 (mulf : (⟨S16384x1024, .f32⟩ : BufTy).Contents (Elt F) → (⟨S16384x1024, .f32⟩ : BufTy).Contents (Elt F) → (⟨S16384x1024, .f32⟩ : BufTy).Contents (Elt F)),
    unary main_v84 main_v93 (broadcastInDim S16384x1 ![0] bcast_S16384_S16384x1_0 : (⟨S16384, .f32⟩ : BufTy).Contents (Elt F) → (⟨S16384x1, .f32⟩ : BufTy).Contents (Elt F)),
    unary main_arg4 main_v94 ((extractStridedSlice S1x2048x1024 ![4, 0, 0] · slices_S8x2048x1024_S1x2048x1024_4_0_0) : (⟨S8x2048x1024, .f32⟩ : BufTy).Contents (Elt F) → (⟨S1x2048x1024, .f32⟩ : BufTy).Contents (Elt F)),
    reshape main_v94 main_v95 rfl shapeCasts_S1x2048x1024_S2048x1024,
    unary main_v95 main_v96 ((transpose S1024x2048 [1, 0] · transposes_S2048x1024_S1024x2048_1_0) : (⟨S2048x1024, .f32⟩ : BufTy).Contents (Elt F) → (⟨S1024x2048, .f32⟩ : BufTy).Contents (Elt F)),
    binary main_v92 main_v96 main_v97 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v93 main_v98 (broadcastInDim S16384x2048 ![0, 1] bcast_S16384x1_S16384x2048_0_1 : (⟨S16384x1, .f32⟩ : BufTy).Contents (Elt F) → (⟨S16384x2048, .f32⟩ : BufTy).Contents (Elt F)),
    binary main_v98 main_v97 main_v99 (mulf : (⟨S16384x2048, .f32⟩ : BufTy).Contents (Elt F) → (⟨S16384x2048, .f32⟩ : BufTy).Contents (Elt F) → (⟨S16384x2048, .f32⟩ : BufTy).Contents (Elt F)),
    binary main_v80 main_v99 main_v100 (addf : (⟨S16384x2048, .f32⟩ : BufTy).Contents (Elt F) → (⟨S16384x2048, .f32⟩ : BufTy).Contents (Elt F) → (⟨S16384x2048, .f32⟩ : BufTy).Contents (Elt F)) ]

/-- Expert 5: which slots are routed to it. -/
def opsE5a : List (HloOp τ sig (Elt F)) :=
  [ nullary main_c_14 (constantI S_ 32 5#32),
    unary main_c_14 main_v101 (broadcastInDim S16384x2 ![] bcast_S_S16384x2 : (⟨S_, .i32⟩ : BufTy).Contents (Elt F) → (⟨S16384x2, .i32⟩ : BufTy).Contents (Elt F)),
    binary main_arg1 main_v101 main_v102 (cmpi .eq : (⟨S16384x2, .i32⟩ : BufTy).Contents (Elt F) → (⟨S16384x2, .i32⟩ : BufTy).Contents (Elt F) → (⟨S16384x2, .i1⟩ : BufTy).Contents (Elt F)) ]

/-- Expert 5, from its coefficients on. -/
def opsE5b : List (HloOp τ sig (Elt F)) :=
  [ nullary main_cst_15 (constant S_ .f32 0x00000000#32),
    TRef.unary (TRef.of (T := ⟨S_, .f32⟩) main_cst_15) (TRef.of (T := ⟨S_, .f32⟩) main_call10_v0) id,
    TRef.unary (TRef.of (T := ⟨S_, .f32⟩) main_call10_v0) (TRef.of (T := ⟨S16384x2, .f32⟩) main_call10_v1) (broadcastInDim S16384x2 ![] bcast_S_S16384x2),
    TRef.ternary (TRef.of (T := ⟨S16384x2, .i1⟩) main_v102) (TRef.of (T := ⟨S16384x2, .f32⟩) main_arg2) (TRef.of (T := ⟨S16384x2, .f32⟩) main_call10_v1) (TRef.of (T := ⟨S16384x2, .f32⟩) main_v103) select,
    nullary main_cst_16 (constant S_ .f32 0x00000000#32),
    binary main_v103 main_cst_16 main_v104 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v105 ((extractStridedSlice S1x2048x2048 ![5, 0, 0] · slices_S8x2048x2048_S1x2048x2048_5_0_0) : (⟨S8x2048x2048, .f32⟩ : BufTy).Contents (Elt F) → (⟨S1x2048x2048, .f32⟩ : BufTy).Contents (Elt F)),
    reshape main_v105 main_v106 rfl shapeCasts_S1x2048x2048_S2048x2048,
    unary main_v106 main_v107 ((transpose S2048x2048 [1, 0] · transposes_S2048x2048_S2048x2048_1_0) : (⟨S2048x2048, .f32⟩ : BufTy).Contents (Elt F) → (⟨S2048x2048, .f32⟩ : BufTy).Contents (Elt F)),
    binary main_arg0 main_v107 main_v108 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v108 main_v109 ((extractStridedSlice S16384x1024 ![0, 0] · slices_S16384x2048_S16384x1024_0_0) : (⟨S16384x2048, .f32⟩ : BufTy).Contents (Elt F) → (⟨S16384x1024, .f32⟩ : BufTy).Contents (Elt F)),
    unary main_v108 main_v110 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v109) (TRef.of (T := ⟨S16384x1024, .f32⟩) main_call11_v0) Host.negf,
    TRef.unary (TRef.of (T := ⟨S16384x1024, .f32⟩) main_call11_v0) (TRef.of (T := ⟨S16384x1024, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S16384x1024, .f32⟩) main_call11_v2) (broadcastInDim S16384x1024 ![] bcast_S_S16384x1024),
    TRef.binary (TRef.of (T := ⟨S16384x1024, .f32⟩) main_call11_v2) (TRef.of (T := ⟨S16384x1024, .f32⟩) main_call11_v1) (TRef.of (T := ⟨S16384x1024, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S16384x1024, .f32⟩) main_call11_v4) (broadcastInDim S16384x1024 ![] bcast_S_S16384x1024),
    TRef.binary (TRef.of (T := ⟨S16384x1024, .f32⟩) main_call11_v4) (TRef.of (T := ⟨S16384x1024, .f32⟩) main_call11_v3) (TRef.of (T := ⟨S16384x1024, .f32⟩) main_call11_v5) Host.divf,
    TRef.binary (TRef.of (T := ⟨S16384x1024, .f32⟩) main_v109) (TRef.of (T := ⟨S16384x1024, .f32⟩) main_call11_v5) (TRef.of (T := ⟨S16384x1024, .f32⟩) main_v111) mulf,
    binary main_v111 main_v110 main_v112 (mulf : (⟨S16384x1024, .f32⟩ : BufTy).Contents (Elt F) → (⟨S16384x1024, .f32⟩ : BufTy).Contents (Elt F) → (⟨S16384x1024, .f32⟩ : BufTy).Contents (Elt F)),
    unary main_v104 main_v113 (broadcastInDim S16384x1 ![0] bcast_S16384_S16384x1_0 : (⟨S16384, .f32⟩ : BufTy).Contents (Elt F) → (⟨S16384x1, .f32⟩ : BufTy).Contents (Elt F)),
    unary main_arg4 main_v114 ((extractStridedSlice S1x2048x1024 ![5, 0, 0] · slices_S8x2048x1024_S1x2048x1024_5_0_0) : (⟨S8x2048x1024, .f32⟩ : BufTy).Contents (Elt F) → (⟨S1x2048x1024, .f32⟩ : BufTy).Contents (Elt F)),
    reshape main_v114 main_v115 rfl shapeCasts_S1x2048x1024_S2048x1024,
    unary main_v115 main_v116 ((transpose S1024x2048 [1, 0] · transposes_S2048x1024_S1024x2048_1_0) : (⟨S2048x1024, .f32⟩ : BufTy).Contents (Elt F) → (⟨S1024x2048, .f32⟩ : BufTy).Contents (Elt F)),
    binary main_v112 main_v116 main_v117 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v113 main_v118 (broadcastInDim S16384x2048 ![0, 1] bcast_S16384x1_S16384x2048_0_1 : (⟨S16384x1, .f32⟩ : BufTy).Contents (Elt F) → (⟨S16384x2048, .f32⟩ : BufTy).Contents (Elt F)),
    binary main_v118 main_v117 main_v119 (mulf : (⟨S16384x2048, .f32⟩ : BufTy).Contents (Elt F) → (⟨S16384x2048, .f32⟩ : BufTy).Contents (Elt F) → (⟨S16384x2048, .f32⟩ : BufTy).Contents (Elt F)),
    binary main_v100 main_v119 main_v120 (addf : (⟨S16384x2048, .f32⟩ : BufTy).Contents (Elt F) → (⟨S16384x2048, .f32⟩ : BufTy).Contents (Elt F) → (⟨S16384x2048, .f32⟩ : BufTy).Contents (Elt F)) ]

/-- Expert 6. -/
def opsE6 : List (HloOp τ sig (Elt F)) :=
  [ nullary main_c_17 (constantI S_ 32 6#32),
    unary main_c_17 main_v121 (broadcastInDim S16384x2 ![] bcast_S_S16384x2 : (⟨S_, .i32⟩ : BufTy).Contents (Elt F) → (⟨S16384x2, .i32⟩ : BufTy).Contents (Elt F)),
    binary main_arg1 main_v121 main_v122 (cmpi .eq : (⟨S16384x2, .i32⟩ : BufTy).Contents (Elt F) → (⟨S16384x2, .i32⟩ : BufTy).Contents (Elt F) → (⟨S16384x2, .i1⟩ : BufTy).Contents (Elt F)),
    nullary main_cst_18 (constant S_ .f32 0x00000000#32),
    TRef.unary (TRef.of (T := ⟨S_, .f32⟩) main_cst_18) (TRef.of (T := ⟨S_, .f32⟩) main_call12_v0) id,
    TRef.unary (TRef.of (T := ⟨S_, .f32⟩) main_call12_v0) (TRef.of (T := ⟨S16384x2, .f32⟩) main_call12_v1) (broadcastInDim S16384x2 ![] bcast_S_S16384x2),
    TRef.ternary (TRef.of (T := ⟨S16384x2, .i1⟩) main_v122) (TRef.of (T := ⟨S16384x2, .f32⟩) main_arg2) (TRef.of (T := ⟨S16384x2, .f32⟩) main_call12_v1) (TRef.of (T := ⟨S16384x2, .f32⟩) main_v123) select,
    nullary main_cst_19 (constant S_ .f32 0x00000000#32),
    binary main_v123 main_cst_19 main_v124 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v125 ((extractStridedSlice S1x2048x2048 ![6, 0, 0] · slices_S8x2048x2048_S1x2048x2048_6_0_0) : (⟨S8x2048x2048, .f32⟩ : BufTy).Contents (Elt F) → (⟨S1x2048x2048, .f32⟩ : BufTy).Contents (Elt F)),
    reshape main_v125 main_v126 rfl shapeCasts_S1x2048x2048_S2048x2048,
    unary main_v126 main_v127 ((transpose S2048x2048 [1, 0] · transposes_S2048x2048_S2048x2048_1_0) : (⟨S2048x2048, .f32⟩ : BufTy).Contents (Elt F) → (⟨S2048x2048, .f32⟩ : BufTy).Contents (Elt F)),
    binary main_arg0 main_v127 main_v128 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v128 main_v129 ((extractStridedSlice S16384x1024 ![0, 0] · slices_S16384x2048_S16384x1024_0_0) : (⟨S16384x2048, .f32⟩ : BufTy).Contents (Elt F) → (⟨S16384x1024, .f32⟩ : BufTy).Contents (Elt F)),
    unary main_v128 main_v130 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v129) (TRef.of (T := ⟨S16384x1024, .f32⟩) main_call13_v0) Host.negf,
    TRef.unary (TRef.of (T := ⟨S16384x1024, .f32⟩) main_call13_v0) (TRef.of (T := ⟨S16384x1024, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S16384x1024, .f32⟩) main_call13_v2) (broadcastInDim S16384x1024 ![] bcast_S_S16384x1024),
    TRef.binary (TRef.of (T := ⟨S16384x1024, .f32⟩) main_call13_v2) (TRef.of (T := ⟨S16384x1024, .f32⟩) main_call13_v1) (TRef.of (T := ⟨S16384x1024, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S16384x1024, .f32⟩) main_call13_v4) (broadcastInDim S16384x1024 ![] bcast_S_S16384x1024),
    TRef.binary (TRef.of (T := ⟨S16384x1024, .f32⟩) main_call13_v4) (TRef.of (T := ⟨S16384x1024, .f32⟩) main_call13_v3) (TRef.of (T := ⟨S16384x1024, .f32⟩) main_call13_v5) Host.divf,
    TRef.binary (TRef.of (T := ⟨S16384x1024, .f32⟩) main_v129) (TRef.of (T := ⟨S16384x1024, .f32⟩) main_call13_v5) (TRef.of (T := ⟨S16384x1024, .f32⟩) main_v131) mulf,
    binary main_v131 main_v130 main_v132 (mulf : (⟨S16384x1024, .f32⟩ : BufTy).Contents (Elt F) → (⟨S16384x1024, .f32⟩ : BufTy).Contents (Elt F) → (⟨S16384x1024, .f32⟩ : BufTy).Contents (Elt F)),
    unary main_v124 main_v133 (broadcastInDim S16384x1 ![0] bcast_S16384_S16384x1_0 : (⟨S16384, .f32⟩ : BufTy).Contents (Elt F) → (⟨S16384x1, .f32⟩ : BufTy).Contents (Elt F)),
    unary main_arg4 main_v134 ((extractStridedSlice S1x2048x1024 ![6, 0, 0] · slices_S8x2048x1024_S1x2048x1024_6_0_0) : (⟨S8x2048x1024, .f32⟩ : BufTy).Contents (Elt F) → (⟨S1x2048x1024, .f32⟩ : BufTy).Contents (Elt F)),
    reshape main_v134 main_v135 rfl shapeCasts_S1x2048x1024_S2048x1024,
    unary main_v135 main_v136 ((transpose S1024x2048 [1, 0] · transposes_S2048x1024_S1024x2048_1_0) : (⟨S2048x1024, .f32⟩ : BufTy).Contents (Elt F) → (⟨S1024x2048, .f32⟩ : BufTy).Contents (Elt F)),
    binary main_v132 main_v136 main_v137 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v133 main_v138 (broadcastInDim S16384x2048 ![0, 1] bcast_S16384x1_S16384x2048_0_1 : (⟨S16384x1, .f32⟩ : BufTy).Contents (Elt F) → (⟨S16384x2048, .f32⟩ : BufTy).Contents (Elt F)),
    binary main_v138 main_v137 main_v139 (mulf : (⟨S16384x2048, .f32⟩ : BufTy).Contents (Elt F) → (⟨S16384x2048, .f32⟩ : BufTy).Contents (Elt F) → (⟨S16384x2048, .f32⟩ : BufTy).Contents (Elt F)),
    binary main_v120 main_v139 main_v140 (addf : (⟨S16384x2048, .f32⟩ : BufTy).Contents (Elt F) → (⟨S16384x2048, .f32⟩ : BufTy).Contents (Elt F) → (⟨S16384x2048, .f32⟩ : BufTy).Contents (Elt F)) ]

/-- Expert 7, up to its slice of the down weights. -/
def opsE7a : List (HloOp τ sig (Elt F)) :=
  [ nullary main_c_20 (constantI S_ 32 7#32),
    unary main_c_20 main_v141 (broadcastInDim S16384x2 ![] bcast_S_S16384x2 : (⟨S_, .i32⟩ : BufTy).Contents (Elt F) → (⟨S16384x2, .i32⟩ : BufTy).Contents (Elt F)),
    binary main_arg1 main_v141 main_v142 (cmpi .eq : (⟨S16384x2, .i32⟩ : BufTy).Contents (Elt F) → (⟨S16384x2, .i32⟩ : BufTy).Contents (Elt F) → (⟨S16384x2, .i1⟩ : BufTy).Contents (Elt F)),
    nullary main_cst_21 (constant S_ .f32 0x00000000#32),
    TRef.unary (TRef.of (T := ⟨S_, .f32⟩) main_cst_21) (TRef.of (T := ⟨S_, .f32⟩) main_call14_v0) id,
    TRef.unary (TRef.of (T := ⟨S_, .f32⟩) main_call14_v0) (TRef.of (T := ⟨S16384x2, .f32⟩) main_call14_v1) (broadcastInDim S16384x2 ![] bcast_S_S16384x2),
    TRef.ternary (TRef.of (T := ⟨S16384x2, .i1⟩) main_v142) (TRef.of (T := ⟨S16384x2, .f32⟩) main_arg2) (TRef.of (T := ⟨S16384x2, .f32⟩) main_call14_v1) (TRef.of (T := ⟨S16384x2, .f32⟩) main_v143) select,
    nullary main_cst_22 (constant S_ .f32 0x00000000#32),
    binary main_v143 main_cst_22 main_v144 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_arg3 main_v145 ((extractStridedSlice S1x2048x2048 ![7, 0, 0] · slices_S8x2048x2048_S1x2048x2048_7_0_0) : (⟨S8x2048x2048, .f32⟩ : BufTy).Contents (Elt F) → (⟨S1x2048x2048, .f32⟩ : BufTy).Contents (Elt F)),
    reshape main_v145 main_v146 rfl shapeCasts_S1x2048x2048_S2048x2048,
    unary main_v146 main_v147 ((transpose S2048x2048 [1, 0] · transposes_S2048x2048_S2048x2048_1_0) : (⟨S2048x2048, .f32⟩ : BufTy).Contents (Elt F) → (⟨S2048x2048, .f32⟩ : BufTy).Contents (Elt F)),
    binary main_arg0 main_v147 main_v148 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_v148 main_v149 ((extractStridedSlice S16384x1024 ![0, 0] · slices_S16384x2048_S16384x1024_0_0) : (⟨S16384x2048, .f32⟩ : BufTy).Contents (Elt F) → (⟨S16384x1024, .f32⟩ : BufTy).Contents (Elt F)),
    unary main_v148 main_v150 ((extractStridedSlice S16384x1024 ![0, 1024] · slices_S16384x2048_S16384x1024_0_1024) : (⟨S16384x2048, .f32⟩ : BufTy).Contents (Elt F) → (⟨S16384x1024, .f32⟩ : BufTy).Contents (Elt F)),
    TRef.unary (TRef.of (T := ⟨S16384x1024, .f32⟩) main_v149) (TRef.of (T := ⟨S16384x1024, .f32⟩) main_call15_v0) Host.negf,
    TRef.unary (TRef.of (T := ⟨S16384x1024, .f32⟩) main_call15_v0) (TRef.of (T := ⟨S16384x1024, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S16384x1024, .f32⟩) main_call15_v2) (broadcastInDim S16384x1024 ![] bcast_S_S16384x1024),
    TRef.binary (TRef.of (T := ⟨S16384x1024, .f32⟩) main_call15_v2) (TRef.of (T := ⟨S16384x1024, .f32⟩) main_call15_v1) (TRef.of (T := ⟨S16384x1024, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S16384x1024, .f32⟩) main_call15_v4) (broadcastInDim S16384x1024 ![] bcast_S_S16384x1024),
    TRef.binary (TRef.of (T := ⟨S16384x1024, .f32⟩) main_call15_v4) (TRef.of (T := ⟨S16384x1024, .f32⟩) main_call15_v3) (TRef.of (T := ⟨S16384x1024, .f32⟩) main_call15_v5) Host.divf,
    TRef.binary (TRef.of (T := ⟨S16384x1024, .f32⟩) main_v149) (TRef.of (T := ⟨S16384x1024, .f32⟩) main_call15_v5) (TRef.of (T := ⟨S16384x1024, .f32⟩) main_v151) mulf,
    binary main_v151 main_v150 main_v152 (mulf : (⟨S16384x1024, .f32⟩ : BufTy).Contents (Elt F) → (⟨S16384x1024, .f32⟩ : BufTy).Contents (Elt F) → (⟨S16384x1024, .f32⟩ : BufTy).Contents (Elt F)),
    unary main_v144 main_v153 (broadcastInDim S16384x1 ![0] bcast_S16384_S16384x1_0 : (⟨S16384, .f32⟩ : BufTy).Contents (Elt F) → (⟨S16384x1, .f32⟩ : BufTy).Contents (Elt F)),
    unary main_arg4 main_v154 ((extractStridedSlice S1x2048x1024 ![7, 0, 0] · slices_S8x2048x1024_S1x2048x1024_7_0_0) : (⟨S8x2048x1024, .f32⟩ : BufTy).Contents (Elt F) → (⟨S1x2048x1024, .f32⟩ : BufTy).Contents (Elt F)) ]

/-- Expert 7: the down projection, the scaling and the addition. -/
def opsE7b : List (HloOp τ sig (Elt F)) :=
  [ reshape main_v154 main_v155 rfl shapeCasts_S1x2048x1024_S2048x1024,
    unary main_v155 main_v156 ((transpose S1024x2048 [1, 0] · transposes_S2048x1024_S1024x2048_1_0) : (⟨S2048x1024, .f32⟩ : BufTy).Contents (Elt F) → (⟨S1024x2048, .f32⟩ : BufTy).Contents (Elt F)),
    binary main_v152 main_v156 main_v157 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_v153 main_v158 (broadcastInDim S16384x2048 ![0, 1] bcast_S16384x1_S16384x2048_0_1 : (⟨S16384x1, .f32⟩ : BufTy).Contents (Elt F) → (⟨S16384x2048, .f32⟩ : BufTy).Contents (Elt F)),
    binary main_v158 main_v157 main_v159 (mulf : (⟨S16384x2048, .f32⟩ : BufTy).Contents (Elt F) → (⟨S16384x2048, .f32⟩ : BufTy).Contents (Elt F) → (⟨S16384x2048, .f32⟩ : BufTy).Contents (Elt F)),
    binary main_v140 main_v159 main_v160 (addf : (⟨S16384x2048, .f32⟩ : BufTy).Contents (Elt F) → (⟨S16384x2048, .f32⟩ : BufTy).Contents (Elt F) → (⟨S16384x2048, .f32⟩ : BufTy).Contents (Elt F)) ]

/-- The program's operations, in order: the zero array, then the eight experts. -/
abbrev ops : List (HloOp τ sig (Elt F)) :=
  opsZero ++ opsE0 ++ opsE1 ++ opsE2a ++ opsE2b ++ opsE3 ++ opsE4 ++ opsE5a ++ opsE5b ++ opsE6 ++ opsE7a ++ opsE7b

/-! ## The program is that straight line

The program is printed in four consecutive windows of statements; a call of an outlined function stands for the
function's operations over that call's buffers. Each window is the straight line of its own operations by unfolding,
and the windows run one after the other. -/

set_option maxRecDepth 8192 in
set_option maxHeartbeats 4000000 in
theorem part0_eq (d : Dev nD) : main_part0 (F := F) d = seq (opsZero ++ opsE0 ++ opsE1 ++ opsE2a) := rfl
set_option maxRecDepth 8192 in
set_option maxHeartbeats 4000000 in
theorem part1_eq (d : Dev nD) : main_part1 (F := F) d = seq (opsE2b ++ opsE3 ++ opsE4 ++ opsE5a) := rfl
set_option maxRecDepth 8192 in
set_option maxHeartbeats 4000000 in
theorem part2_eq (d : Dev nD) : main_part2 (F := F) d = seq (opsE5b ++ opsE6 ++ opsE7a) := rfl
set_option maxRecDepth 8192 in
set_option maxHeartbeats 4000000 in
theorem part3_eq (d : Dev nD) : main_part3 (F := F) d = seq opsE7b := rfl

theorem main_eq (d : Dev nD) : main (F := F) d = seq ops := by
  have h : main (F := F) d
      = (main_part0 (F := F) d >>= fun _ => main_part1 (F := F) d >>= fun _ => main_part2 (F := F) d >>= fun _ => main_part3 (F := F) d) := rfl
  rw [h, part0_eq, part1_eq, part2_eq, part3_eq]
  simp only [ops, seq_append, bind_assoc]

/-! ## The side conditions of a straight line's run -/

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_mem_append {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

theorem opsZero_sub : ∀ op ∈ (opsZero : List (HloOp τ sig (Elt F))), op.bufs ⊆ tcRefs τ sig :=
  List.forall_iff_forall_mem.1 (show (opsZero : List (HloOp τ sig (Elt F))).Forall fun op => op.bufs ⊆ tcRefs τ sig from by
    unfold opsZero
    exact ⟨nullary_bufs_sub .., unary_bufs_sub ..⟩)
theorem opsZero_fresh : ∀ op ∈ (opsZero : List (HloOp τ sig (Elt F))), op.fresh = ∅ :=
  List.forall_iff_forall_mem.1 (show (opsZero : List (HloOp τ sig (Elt F))).Forall fun op => op.fresh = ∅ from by
    unfold opsZero
    exact ⟨rfl, rfl⟩)

theorem opsE0_sub : ∀ op ∈ (opsE0 : List (HloOp τ sig (Elt F))), op.bufs ⊆ tcRefs τ sig :=
  List.forall_iff_forall_mem.1 (show (opsE0 : List (HloOp τ sig (Elt F))).Forall fun op => op.bufs ⊆ tcRefs τ sig from by
    unfold opsE0
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE0_fresh : ∀ op ∈ (opsE0 : List (HloOp τ sig (Elt F))), op.fresh = ∅ :=
  List.forall_iff_forall_mem.1 (show (opsE0 : List (HloOp τ sig (Elt F))).Forall fun op => op.fresh = ∅ from by
    unfold opsE0
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE1_sub : ∀ op ∈ (opsE1 : List (HloOp τ sig (Elt F))), op.bufs ⊆ tcRefs τ sig :=
  List.forall_iff_forall_mem.1 (show (opsE1 : List (HloOp τ sig (Elt F))).Forall fun op => op.bufs ⊆ tcRefs τ sig from by
    unfold opsE1
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE1_fresh : ∀ op ∈ (opsE1 : List (HloOp τ sig (Elt F))), op.fresh = ∅ :=
  List.forall_iff_forall_mem.1 (show (opsE1 : List (HloOp τ sig (Elt F))).Forall fun op => op.fresh = ∅ from by
    unfold opsE1
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE2a_sub : ∀ op ∈ (opsE2a : List (HloOp τ sig (Elt F))), op.bufs ⊆ tcRefs τ sig :=
  List.forall_iff_forall_mem.1 (show (opsE2a : List (HloOp τ sig (Elt F))).Forall fun op => op.bufs ⊆ tcRefs τ sig from by
    unfold opsE2a
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub ..⟩)
theorem opsE2a_fresh : ∀ op ∈ (opsE2a : List (HloOp τ sig (Elt F))), op.fresh = ∅ :=
  List.forall_iff_forall_mem.1 (show (opsE2a : List (HloOp τ sig (Elt F))).Forall fun op => op.fresh = ∅ from by
    unfold opsE2a
    exact ⟨rfl, rfl, rfl, rfl, rfl, rfl, rfl, rfl, rfl, rfl, rfl, rfl, rfl, rfl⟩)

theorem opsE2b_sub : ∀ op ∈ (opsE2b : List (HloOp τ sig (Elt F))), op.bufs ⊆ tcRefs τ sig :=
  List.forall_iff_forall_mem.1 (show (opsE2b : List (HloOp τ sig (Elt F))).Forall fun op => op.bufs ⊆ tcRefs τ sig from by
    unfold opsE2b
    exact ⟨unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE2b_fresh : ∀ op ∈ (opsE2b : List (HloOp τ sig (Elt F))), op.fresh = ∅ :=
  List.forall_iff_forall_mem.1 (show (opsE2b : List (HloOp τ sig (Elt F))).Forall fun op => op.fresh = ∅ from by
    unfold opsE2b
    exact ⟨rfl, rfl, rfl, rfl, rfl, rfl, rfl, rfl, rfl, rfl, rfl, rfl, rfl, rfl, rfl, rfl, rfl, rfl, rfl⟩)

theorem opsE3_sub : ∀ op ∈ (opsE3 : List (HloOp τ sig (Elt F))), op.bufs ⊆ tcRefs τ sig :=
  List.forall_iff_forall_mem.1 (show (opsE3 : List (HloOp τ sig (Elt F))).Forall fun op => op.bufs ⊆ tcRefs τ sig from by
    unfold opsE3
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE3_fresh : ∀ op ∈ (opsE3 : List (HloOp τ sig (Elt F))), op.fresh = ∅ :=
  List.forall_iff_forall_mem.1 (show (opsE3 : List (HloOp τ sig (Elt F))).Forall fun op => op.fresh = ∅ from by
    unfold opsE3
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE4_sub : ∀ op ∈ (opsE4 : List (HloOp τ sig (Elt F))), op.bufs ⊆ tcRefs τ sig :=
  List.forall_iff_forall_mem.1 (show (opsE4 : List (HloOp τ sig (Elt F))).Forall fun op => op.bufs ⊆ tcRefs τ sig from by
    unfold opsE4
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE4_fresh : ∀ op ∈ (opsE4 : List (HloOp τ sig (Elt F))), op.fresh = ∅ :=
  List.forall_iff_forall_mem.1 (show (opsE4 : List (HloOp τ sig (Elt F))).Forall fun op => op.fresh = ∅ from by
    unfold opsE4
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE5a_sub : ∀ op ∈ (opsE5a : List (HloOp τ sig (Elt F))), op.bufs ⊆ tcRefs τ sig :=
  List.forall_iff_forall_mem.1 (show (opsE5a : List (HloOp τ sig (Elt F))).Forall fun op => op.bufs ⊆ tcRefs τ sig from by
    unfold opsE5a
    exact ⟨nullary_bufs_sub .., unary_bufs_sub .., binary_bufs_sub ..⟩)
theorem opsE5a_fresh : ∀ op ∈ (opsE5a : List (HloOp τ sig (Elt F))), op.fresh = ∅ :=
  List.forall_iff_forall_mem.1 (show (opsE5a : List (HloOp τ sig (Elt F))).Forall fun op => op.fresh = ∅ from by
    unfold opsE5a
    exact ⟨rfl, rfl, rfl⟩)

theorem opsE5b_sub : ∀ op ∈ (opsE5b : List (HloOp τ sig (Elt F))), op.bufs ⊆ tcRefs τ sig :=
  List.forall_iff_forall_mem.1 (show (opsE5b : List (HloOp τ sig (Elt F))).Forall fun op => op.bufs ⊆ tcRefs τ sig from by
    unfold opsE5b
    exact ⟨nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE5b_fresh : ∀ op ∈ (opsE5b : List (HloOp τ sig (Elt F))), op.fresh = ∅ :=
  List.forall_iff_forall_mem.1 (show (opsE5b : List (HloOp τ sig (Elt F))).Forall fun op => op.fresh = ∅ from by
    unfold opsE5b
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE6_sub : ∀ op ∈ (opsE6 : List (HloOp τ sig (Elt F))), op.bufs ⊆ tcRefs τ sig :=
  List.forall_iff_forall_mem.1 (show (opsE6 : List (HloOp τ sig (Elt F))).Forall fun op => op.bufs ⊆ tcRefs τ sig from by
    unfold opsE6
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub ..⟩)
theorem opsE6_fresh : ∀ op ∈ (opsE6 : List (HloOp τ sig (Elt F))), op.fresh = ∅ :=
  List.forall_iff_forall_mem.1 (show (opsE6 : List (HloOp τ sig (Elt F))).Forall fun op => op.fresh = ∅ from by
    unfold opsE6
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsE7a_sub : ∀ op ∈ (opsE7a : List (HloOp τ sig (Elt F))), op.bufs ⊆ tcRefs τ sig :=
  List.forall_iff_forall_mem.1 (show (opsE7a : List (HloOp τ sig (Elt F))).Forall fun op => op.bufs ⊆ tcRefs τ sig from by
    unfold opsE7a
    exact ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub ..⟩)
theorem opsE7a_fresh : ∀ op ∈ (opsE7a : List (HloOp τ sig (Elt F))), op.fresh = ∅ :=
  List.forall_iff_forall_mem.1 (show (opsE7a : List (HloOp τ sig (Elt F))).Forall fun op => op.fresh = ∅ from by
    unfold opsE7a
    exact ⟨rfl, rfl, rfl, rfl, rfl, rfl, rfl, rfl, rfl, rfl, rfl, rfl, rfl, rfl, rfl, rfl, rfl, rfl, rfl, rfl, rfl, rfl, rfl, rfl, rfl, rfl, rfl⟩)

theorem opsE7b_sub : ∀ op ∈ (opsE7b : List (HloOp τ sig (Elt F))), op.bufs ⊆ tcRefs τ sig :=
  List.forall_iff_forall_mem.1 (show (opsE7b : List (HloOp τ sig (Elt F))).Forall fun op => op.bufs ⊆ tcRefs τ sig from by
    unfold opsE7b
    exact ⟨reshape_bufs_sub .., unary_bufs_sub .., binary_bufs_sub .., unary_bufs_sub .., binary_bufs_sub .., binary_bufs_sub ..⟩)
theorem opsE7b_fresh : ∀ op ∈ (opsE7b : List (HloOp τ sig (Elt F))), op.fresh = ∅ :=
  List.forall_iff_forall_mem.1 (show (opsE7b : List (HloOp τ sig (Elt F))).Forall fun op => op.fresh = ∅ from by
    unfold opsE7b
    exact ⟨rfl, rfl, rfl, rfl, rfl, rfl⟩)

/-- Every operation touches TensorCore buffers only. -/
theorem ops_sub : (ops : List (HloOp τ sig (Elt F))).Forall fun op => op.bufs ⊆ tcRefs τ sig :=
  List.forall_iff_forall_mem.2 (forall_mem_append (forall_mem_append (forall_mem_append (forall_mem_append (forall_mem_append (forall_mem_append (forall_mem_append (forall_mem_append (forall_mem_append (forall_mem_append (forall_mem_append (opsZero_sub) opsE0_sub) opsE1_sub) opsE2a_sub) opsE2b_sub) opsE3_sub) opsE4_sub) opsE5a_sub) opsE5b_sub) opsE6_sub) opsE7a_sub) opsE7b_sub)

/-- Every operation determines its results. -/
theorem ops_fresh : ∀ op ∈ (ops : List (HloOp τ sig (Elt F))), op.fresh = ∅ :=
  forall_mem_append (forall_mem_append (forall_mem_append (forall_mem_append (forall_mem_append (forall_mem_append (forall_mem_append (forall_mem_append (forall_mem_append (forall_mem_append (forall_mem_append (opsZero_fresh) opsE0_fresh) opsE1_fresh) opsE2a_fresh) opsE2b_fresh) opsE3_fresh) opsE4_fresh) opsE5a_fresh) opsE5b_fresh) opsE6_fresh) opsE7a_fresh) opsE7b_fresh

/-! ## The fold, one expert at a time -/

/-- Two lines run one after the other leave what their concatenation leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first two operations leave the zero array as the running result. -/
theorem zero_result (W : Valuation τ sig (Elt F)) :
    after opsZero W (main_v0 : DevRef τ sig) = broadcastInDim S16384x2048 ![] bcast_S_S16384x2048 (constant S_ .f32 0x00000000#32) := by
  simp only [opsZero]; after_results_simp

theorem zero_args (W : Valuation τ sig (Elt F)) :
    after opsZero W (main_arg0 : DevRef τ sig) = W (main_arg0 : DevRef τ sig)
    ∧ after opsZero W (main_arg1 : DevRef τ sig) = W (main_arg1 : DevRef τ sig)
    ∧ after opsZero W (main_arg2 : DevRef τ sig) = W (main_arg2 : DevRef τ sig)
    ∧ after opsZero W (main_arg3 : DevRef τ sig) = W (main_arg3 : DevRef τ sig)
    ∧ after opsZero W (main_arg4 : DevRef τ sig) = W (main_arg4 : DevRef τ sig) := by
  refine ⟨?_, ?_, ?_, ?_, ?_⟩ <;> (simp only [opsZero]; after_results_simp)

set_option maxRecDepth 8192 in
/-- Expert 0 adds its term onto the running result. -/
theorem expert0_result (W : Valuation τ sig (Elt F)) :
    after opsE0 W (main_v20 : DevRef τ sig)
      = expertStep ![0, 0, 0] slices_S8x2048x2048_S1x2048x2048_0_0_0 ![0, 0, 0] slices_S8x2048x1024_S1x2048x1024_0_0_0 0#32 (W (main_arg0 : DevRef τ sig)) (W (main_arg1 : DevRef τ sig)) (W (main_arg2 : DevRef τ sig)) (W (main_arg3 : DevRef τ sig)) (W (main_arg4 : DevRef τ sig)) (W (main_v0 : DevRef τ sig)) := by
  simp only [opsE0]; after_results_simp <;> rfl

set_option maxRecDepth 8192 in
/-- Expert 0 writes none of the arguments. -/
theorem expert0_args (W : Valuation τ sig (Elt F)) :
    after opsE0 W (main_arg0 : DevRef τ sig) = W (main_arg0 : DevRef τ sig)
    ∧ after opsE0 W (main_arg1 : DevRef τ sig) = W (main_arg1 : DevRef τ sig)
    ∧ after opsE0 W (main_arg2 : DevRef τ sig) = W (main_arg2 : DevRef τ sig)
    ∧ after opsE0 W (main_arg3 : DevRef τ sig) = W (main_arg3 : DevRef τ sig)
    ∧ after opsE0 W (main_arg4 : DevRef τ sig) = W (main_arg4 : DevRef τ sig) := by
  refine ⟨?_, ?_, ?_, ?_, ?_⟩ <;> (simp only [opsE0]; after_results_simp)

set_option maxRecDepth 8192 in
/-- Expert 1 adds its term onto the running result. -/
theorem expert1_result (W : Valuation τ sig (Elt F)) :
    after opsE1 W (main_v40 : DevRef τ sig)
      = expertStep ![1, 0, 0] slices_S8x2048x2048_S1x2048x2048_1_0_0 ![1, 0, 0] slices_S8x2048x1024_S1x2048x1024_1_0_0 1#32 (W (main_arg0 : DevRef τ sig)) (W (main_arg1 : DevRef τ sig)) (W (main_arg2 : DevRef τ sig)) (W (main_arg3 : DevRef τ sig)) (W (main_arg4 : DevRef τ sig)) (W (main_v20 : DevRef τ sig)) := by
  simp only [opsE1]; after_results_simp <;> rfl

set_option maxRecDepth 8192 in
/-- Expert 1 writes none of the arguments. -/
theorem expert1_args (W : Valuation τ sig (Elt F)) :
    after opsE1 W (main_arg0 : DevRef τ sig) = W (main_arg0 : DevRef τ sig)
    ∧ after opsE1 W (main_arg1 : DevRef τ sig) = W (main_arg1 : DevRef τ sig)
    ∧ after opsE1 W (main_arg2 : DevRef τ sig) = W (main_arg2 : DevRef τ sig)
    ∧ after opsE1 W (main_arg3 : DevRef τ sig) = W (main_arg3 : DevRef τ sig)
    ∧ after opsE1 W (main_arg4 : DevRef τ sig) = W (main_arg4 : DevRef τ sig) := by
  refine ⟨?_, ?_, ?_, ?_, ?_⟩ <;> (simp only [opsE1]; after_results_simp)

set_option maxRecDepth 8192 in
/-- Expert 2 adds its term onto the running result. -/
theorem expert2_result (W : Valuation τ sig (Elt F)) :
    after opsE2b (after opsE2a W) (main_v60 : DevRef τ sig)
      = expertStep ![2, 0, 0] slices_S8x2048x2048_S1x2048x2048_2_0_0 ![2, 0, 0] slices_S8x2048x1024_S1x2048x1024_2_0_0 2#32 (W (main_arg0 : DevRef τ sig)) (W (main_arg1 : DevRef τ sig)) (W (main_arg2 : DevRef τ sig)) (W (main_arg3 : DevRef τ sig)) (W (main_arg4 : DevRef τ sig)) (W (main_v40 : DevRef τ sig)) := by
  simp only [opsE2a, opsE2b]; after_results_simp <;> rfl

set_option maxRecDepth 8192 in
/-- Expert 2 writes none of the arguments. -/
theorem expert2_args (W : Valuation τ sig (Elt F)) :
    after opsE2b (after opsE2a W) (main_arg0 : DevRef τ sig) = W (main_arg0 : DevRef τ sig)
    ∧ after opsE2b (after opsE2a W) (main_arg1 : DevRef τ sig) = W (main_arg1 : DevRef τ sig)
    ∧ after opsE2b (after opsE2a W) (main_arg2 : DevRef τ sig) = W (main_arg2 : DevRef τ sig)
    ∧ after opsE2b (after opsE2a W) (main_arg3 : DevRef τ sig) = W (main_arg3 : DevRef τ sig)
    ∧ after opsE2b (after opsE2a W) (main_arg4 : DevRef τ sig) = W (main_arg4 : DevRef τ sig) := by
  refine ⟨?_, ?_, ?_, ?_, ?_⟩ <;> (simp only [opsE2a, opsE2b]; after_results_simp)

set_option maxRecDepth 8192 in
/-- Expert 3 adds its term onto the running result. -/
theorem expert3_result (W : Valuation τ sig (Elt F)) :
    after opsE3 W (main_v80 : DevRef τ sig)
      = expertStep ![3, 0, 0] slices_S8x2048x2048_S1x2048x2048_3_0_0 ![3, 0, 0] slices_S8x2048x1024_S1x2048x1024_3_0_0 3#32 (W (main_arg0 : DevRef τ sig)) (W (main_arg1 : DevRef τ sig)) (W (main_arg2 : DevRef τ sig)) (W (main_arg3 : DevRef τ sig)) (W (main_arg4 : DevRef τ sig)) (W (main_v60 : DevRef τ sig)) := by
  simp only [opsE3]; after_results_simp <;> rfl

set_option maxRecDepth 8192 in
/-- Expert 3 writes none of the arguments. -/
theorem expert3_args (W : Valuation τ sig (Elt F)) :
    after opsE3 W (main_arg0 : DevRef τ sig) = W (main_arg0 : DevRef τ sig)
    ∧ after opsE3 W (main_arg1 : DevRef τ sig) = W (main_arg1 : DevRef τ sig)
    ∧ after opsE3 W (main_arg2 : DevRef τ sig) = W (main_arg2 : DevRef τ sig)
    ∧ after opsE3 W (main_arg3 : DevRef τ sig) = W (main_arg3 : DevRef τ sig)
    ∧ after opsE3 W (main_arg4 : DevRef τ sig) = W (main_arg4 : DevRef τ sig) := by
  refine ⟨?_, ?_, ?_, ?_, ?_⟩ <;> (simp only [opsE3]; after_results_simp)

set_option maxRecDepth 8192 in
/-- Expert 4 adds its term onto the running result. -/
theorem expert4_result (W : Valuation τ sig (Elt F)) :
    after opsE4 W (main_v100 : DevRef τ sig)
      = expertStep ![4, 0, 0] slices_S8x2048x2048_S1x2048x2048_4_0_0 ![4, 0, 0] slices_S8x2048x1024_S1x2048x1024_4_0_0 4#32 (W (main_arg0 : DevRef τ sig)) (W (main_arg1 : DevRef τ sig)) (W (main_arg2 : DevRef τ sig)) (W (main_arg3 : DevRef τ sig)) (W (main_arg4 : DevRef τ sig)) (W (main_v80 : DevRef τ sig)) := by
  simp only [opsE4]; after_results_simp <;> rfl

set_option maxRecDepth 8192 in
/-- Expert 4 writes none of the arguments. -/
theorem expert4_args (W : Valuation τ sig (Elt F)) :
    after opsE4 W (main_arg0 : DevRef τ sig) = W (main_arg0 : DevRef τ sig)
    ∧ after opsE4 W (main_arg1 : DevRef τ sig) = W (main_arg1 : DevRef τ sig)
    ∧ after opsE4 W (main_arg2 : DevRef τ sig) = W (main_arg2 : DevRef τ sig)
    ∧ after opsE4 W (main_arg3 : DevRef τ sig) = W (main_arg3 : DevRef τ sig)
    ∧ after opsE4 W (main_arg4 : DevRef τ sig) = W (main_arg4 : DevRef τ sig) := by
  refine ⟨?_, ?_, ?_, ?_, ?_⟩ <;> (simp only [opsE4]; after_results_simp)

set_option maxRecDepth 8192 in
/-- Expert 5 adds its term onto the running result. -/
theorem expert5_result (W : Valuation τ sig (Elt F)) :
    after opsE5b (after opsE5a W) (main_v120 : DevRef τ sig)
      = expertStep ![5, 0, 0] slices_S8x2048x2048_S1x2048x2048_5_0_0 ![5, 0, 0] slices_S8x2048x1024_S1x2048x1024_5_0_0 5#32 (W (main_arg0 : DevRef τ sig)) (W (main_arg1 : DevRef τ sig)) (W (main_arg2 : DevRef τ sig)) (W (main_arg3 : DevRef τ sig)) (W (main_arg4 : DevRef τ sig)) (W (main_v100 : DevRef τ sig)) := by
  simp only [opsE5a, opsE5b]; after_results_simp <;> rfl

set_option maxRecDepth 8192 in
/-- Expert 5 writes none of the arguments. -/
theorem expert5_args (W : Valuation τ sig (Elt F)) :
    after opsE5b (after opsE5a W) (main_arg0 : DevRef τ sig) = W (main_arg0 : DevRef τ sig)
    ∧ after opsE5b (after opsE5a W) (main_arg1 : DevRef τ sig) = W (main_arg1 : DevRef τ sig)
    ∧ after opsE5b (after opsE5a W) (main_arg2 : DevRef τ sig) = W (main_arg2 : DevRef τ sig)
    ∧ after opsE5b (after opsE5a W) (main_arg3 : DevRef τ sig) = W (main_arg3 : DevRef τ sig)
    ∧ after opsE5b (after opsE5a W) (main_arg4 : DevRef τ sig) = W (main_arg4 : DevRef τ sig) := by
  refine ⟨?_, ?_, ?_, ?_, ?_⟩ <;> (simp only [opsE5a, opsE5b]; after_results_simp)

set_option maxRecDepth 8192 in
/-- Expert 6 adds its term onto the running result. -/
theorem expert6_result (W : Valuation τ sig (Elt F)) :
    after opsE6 W (main_v140 : DevRef τ sig)
      = expertStep ![6, 0, 0] slices_S8x2048x2048_S1x2048x2048_6_0_0 ![6, 0, 0] slices_S8x2048x1024_S1x2048x1024_6_0_0 6#32 (W (main_arg0 : DevRef τ sig)) (W (main_arg1 : DevRef τ sig)) (W (main_arg2 : DevRef τ sig)) (W (main_arg3 : DevRef τ sig)) (W (main_arg4 : DevRef τ sig)) (W (main_v120 : DevRef τ sig)) := by
  simp only [opsE6]; after_results_simp <;> rfl

set_option maxRecDepth 8192 in
/-- Expert 6 writes none of the arguments. -/
theorem expert6_args (W : Valuation τ sig (Elt F)) :
    after opsE6 W (main_arg0 : DevRef τ sig) = W (main_arg0 : DevRef τ sig)
    ∧ after opsE6 W (main_arg1 : DevRef τ sig) = W (main_arg1 : DevRef τ sig)
    ∧ after opsE6 W (main_arg2 : DevRef τ sig) = W (main_arg2 : DevRef τ sig)
    ∧ after opsE6 W (main_arg3 : DevRef τ sig) = W (main_arg3 : DevRef τ sig)
    ∧ after opsE6 W (main_arg4 : DevRef τ sig) = W (main_arg4 : DevRef τ sig) := by
  refine ⟨?_, ?_, ?_, ?_, ?_⟩ <;> (simp only [opsE6]; after_results_simp)

set_option maxRecDepth 8192 in
/-- Expert 7 adds its term onto the running result. -/
theorem expert7_result (W : Valuation τ sig (Elt F)) :
    after opsE7b (after opsE7a W) (main_v160 : DevRef τ sig)
      = expertStep ![7, 0, 0] slices_S8x2048x2048_S1x2048x2048_7_0_0 ![7, 0, 0] slices_S8x2048x1024_S1x2048x1024_7_0_0 7#32 (W (main_arg0 : DevRef τ sig)) (W (main_arg1 : DevRef τ sig)) (W (main_arg2 : DevRef τ sig)) (W (main_arg3 : DevRef τ sig)) (W (main_arg4 : DevRef τ sig)) (W (main_v140 : DevRef τ sig)) := by
  simp only [opsE7a, opsE7b]; after_results_simp <;> rfl

set_option maxRecDepth 8192 in
/-- Expert 7 writes none of the arguments. -/
theorem expert7_args (W : Valuation τ sig (Elt F)) :
    after opsE7b (after opsE7a W) (main_arg0 : DevRef τ sig) = W (main_arg0 : DevRef τ sig)
    ∧ after opsE7b (after opsE7a W) (main_arg1 : DevRef τ sig) = W (main_arg1 : DevRef τ sig)
    ∧ after opsE7b (after opsE7a W) (main_arg2 : DevRef τ sig) = W (main_arg2 : DevRef τ sig)
    ∧ after opsE7b (after opsE7a W) (main_arg3 : DevRef τ sig) = W (main_arg3 : DevRef τ sig)
    ∧ after opsE7b (after opsE7a W) (main_arg4 : DevRef τ sig) = W (main_arg4 : DevRef τ sig) := by
  refine ⟨?_, ?_, ?_, ?_, ?_⟩ <;> (simp only [opsE7a, opsE7b]; after_results_simp)

/-! ## The whole fold -/

/-- The result buffer after the whole line: the eight experts' updates of the zero array, over the launch contents of
    the arguments. -/
theorem result_eq (V : Valuation τ sig (Elt F)) :
    after ops V (main_v160 : DevRef τ sig) = refTerm (V (main_arg0 : DevRef τ sig)) (V (main_arg1 : DevRef τ sig)) (V (main_arg2 : DevRef τ sig)) (V (main_arg3 : DevRef τ sig)) (V (main_arg4 : DevRef τ sig)) := by
  simp only [ops, after_append]
  rw [expert7_result,
    (expert6_args _).1, (expert6_args _).2.1, (expert6_args _).2.2.1, (expert6_args _).2.2.2.1, (expert6_args _).2.2.2.2, expert6_result,
    (expert5_args _).1, (expert5_args _).2.1, (expert5_args _).2.2.1, (expert5_args _).2.2.2.1, (expert5_args _).2.2.2.2, expert5_result,
    (expert4_args _).1, (expert4_args _).2.1, (expert4_args _).2.2.1, (expert4_args _).2.2.2.1, (expert4_args _).2.2.2.2, expert4_result,
    (expert3_args _).1, (expert3_args _).2.1, (expert3_args _).2.2.1, (expert3_args _).2.2.2.1, (expert3_args _).2.2.2.2, expert3_result,
    (expert2_args _).1, (expert2_args _).2.1, (expert2_args _).2.2.1, (expert2_args _).2.2.2.1, (expert2_args _).2.2.2.2, expert2_result,
    (expert1_args _).1, (expert1_args _).2.1, (expert1_args _).2.2.1, (expert1_args _).2.2.2.1, (expert1_args _).2.2.2.2, expert1_result,
    (expert0_args _).1, (expert0_args _).2.1, (expert0_args _).2.2.1, (expert0_args _).2.2.2.1, (expert0_args _).2.2.2.2, expert0_result,
    (zero_args _).1, (zero_args _).2.1, (zero_args _).2.2.1, (zero_args _).2.2.2.1, (zero_args _).2.2.2.2, zero_result]
  rfl

theorem arg0_eq (V : Valuation τ sig (Elt F)) : after ops V (main_arg0 : DevRef τ sig) = V (main_arg0 : DevRef τ sig) := by
  simp only [ops, after_append]
  rw [(expert7_args _).1, (expert6_args _).1, (expert5_args _).1, (expert4_args _).1, (expert3_args _).1, (expert2_args _).1, (expert1_args _).1, (expert0_args _).1, (zero_args _).1]
theorem arg1_eq (V : Valuation τ sig (Elt F)) : after ops V (main_arg1 : DevRef τ sig) = V (main_arg1 : DevRef τ sig) := by
  simp only [ops, after_append]
  rw [(expert7_args _).2.1, (expert6_args _).2.1, (expert5_args _).2.1, (expert4_args _).2.1, (expert3_args _).2.1, (expert2_args _).2.1, (expert1_args _).2.1, (expert0_args _).2.1, (zero_args _).2.1]
theorem arg2_eq (V : Valuation τ sig (Elt F)) : after ops V (main_arg2 : DevRef τ sig) = V (main_arg2 : DevRef τ sig) := by
  simp only [ops, after_append]
  rw [(expert7_args _).2.2.1, (expert6_args _).2.2.1, (expert5_args _).2.2.1, (expert4_args _).2.2.1, (expert3_args _).2.2.1, (expert2_args _).2.2.1, (expert1_args _).2.2.1, (expert0_args _).2.2.1, (zero_args _).2.2.1]
theorem arg3_eq (V : Valuation τ sig (Elt F)) : after ops V (main_arg3 : DevRef τ sig) = V (main_arg3 : DevRef τ sig) := by
  simp only [ops, after_append]
  rw [(expert7_args _).2.2.2.1, (expert6_args _).2.2.2.1, (expert5_args _).2.2.2.1, (expert4_args _).2.2.2.1, (expert3_args _).2.2.2.1, (expert2_args _).2.2.2.1, (expert1_args _).2.2.2.1, (expert0_args _).2.2.2.1, (zero_args _).2.2.2.1]
theorem arg4_eq (V : Valuation τ sig (Elt F)) : after ops V (main_arg4 : DevRef τ sig) = V (main_arg4 : DevRef τ sig) := by
  simp only [ops, after_append]
  rw [(expert7_args _).2.2.2.2, (expert6_args _).2.2.2.2, (expert5_args _).2.2.2.2, (expert4_args _).2.2.2.2, (expert3_args _).2.2.2.2, (expert2_args _).2.2.2.2, (expert1_args _).2.2.2.2, (expert0_args _).2.2.2.2, (zero_args _).2.2.2.2]

/-! ## The run -/

/-- On every device, for any float values, from any memory with zero counters: every weakly fair execution of the
    reference terminates with the result buffer at `refTerm` of the arguments' launch contents and the arguments
    unchanged. -/
theorem run (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v160) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v160).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ (fun _ => ops_fresh))

end Cert.MoeRef

end
-- ==== Proof.lean ====
/-
  The certificate of a mixture-of-experts kernel against its reference.

  The kernel tiles the 16384 tokens in blocks of 256 and, for each tile, runs the eight experts in order on the
  matrix unit: the tile's hidden states against the expert's fused gate and value weights, the gated activation
  `(g · logistic g) · u`, the result against the expert's down weights, the token's routing coefficient times that,
  added into the tile's output block, which is reset to zero at the tile's first expert and written back after its
  last. The reference runs the same eight experts on whole arrays, adding each expert's scaled contribution onto a
  running result that starts at zero. On the extended reals, where a change of float format is the identity, a
  matrix product is its sum of products and the logistic function is `1 / (1 + exp (−x))` on both sides, the two
  compute the same left-nested sum over the experts, entry by entry, with the same order of every addition and
  multiplication: no law of the extended reals is needed, and finiteness of the inputs is never used.

  The three frame claims: each kernel program is its host operations followed by one region whose body is run,
  point by point, by the two symbolic runs of the body (first expert of a tile; later expert), so it terminates
  without a fault and writes no argument array; the reference is a straight line of host operations, run one
  after the other. The idealization rewrote nothing, so that claim is trivial. The equivalence: the kernel's
  result array is the specification's function of the arguments (the kernel's value), the reference's result is
  the same function (the reference's composed term read at an index), and the routing coefficients the two
  programs compute are the same host operations of the same arguments.
-/
import proofs.«109700_j71141838291315_1_alg».proof.Defs
import proofs.«109700_j71141838291315_1_alg».proof.Proof.K.Frame
import proofs.«109700_j71141838291315_1_alg».proof.Proof.KI.Value
import proofs.«109700_j71141838291315_1_alg».proof.Proof.RefStep
import proofs.«109700_j71141838291315_1_alg».proof.Proof.RefRun
import proofs.«109700_j71141838291315_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, faults nowhere and leaves its arguments unchanged. -/
theorem frame_kernel : Cert.frame_Kernel := fun m ρ _ => Cert.Kernel.Fr.frame m ρ

/-- So does the kernel read on the extended reals. -/
theorem frame_kernelIdeal : Cert.frame_KernelIdeal := fun m ρ _ => Cert.KernelIdeal.Fr.frame m ρ

/-- The reference is a straight line of host operations: it runs, and writes no argument. -/
theorem frame_reference : Cert.frame_ReferenceIdeal := fun m ρ _ =>
  (θ_run Cert.ReferenceIdeal.defs _ _).mono (fun _ h c => (h c).2) (Cert.MoeRef.run (F := Ideal) m ρ)

/-- The idealization rewrote no operation. -/
theorem preserves : Cert.preserves_Kernel_KernelIdeal := trivial

/-- The two programs compute each expert's routing coefficients by the same host operations. -/
theorem coef_eq (ce : BitVec 32) (x1 : (⟨Cert.ReferenceIdeal.S16384x2, .i32⟩ : BufTy).Contents (Elt Ideal))
    (x2 : (⟨Cert.ReferenceIdeal.S16384x2, .f32⟩ : BufTy).Contents (Elt Ideal)) :
    Cert.KernelIdeal.Val.kcoef (F := Ideal) ce x1 x2 = Cert.MoeRef.coefArr (F := Ideal) ce x1 x2 := rfl

/-- From memories agreeing on the arguments both programs end with the same result array: the specification's
    function of the arguments. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.MoeRef.run (F := Ideal) m' ρ')
  obtain ⟨a0, a1, a2, a3, a4⟩ := hagree c
  rw [a0, a1, a2, a3, a4]
  funext i
  obtain ⟨t, h, rfl⟩ : ∃ (t : Fin 16384) (h : Fin 2048), i = ix2 t h := ⟨i 0, i 1, eq_ix2 i⟩
  rw [Cert.MoeRef.ref_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
